-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S10000x3 : Shape := ⟨2, ![10000, 3]⟩
abbrev S10000 : Shape := ⟨1, ![10000]⟩
abbrev S10000x10000 : Shape := ⟨2, ![10000, 10000]⟩
abbrev S100000x128 : Shape := ⟨2, ![100000, 128]⟩
abbrev S_ : Shape := ⟨0, ![]⟩

class Facts : Prop where
  bcast_S_S10000x3 : S_.BroadcastsInDim S10000x3 (![] : Fin 0 → Fin S10000x3.rank)
  reducesTo_S10000x3_S_d0_1 : S10000x3.ReducesTo [0, 1] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S10000 : S_.BroadcastsInDim S10000 (![] : Fin 0 → Fin S10000.rank)
  reducesTo_S10000_S_d0 : S10000.ReducesTo [0] S_
  bcast_S_S10000x10000 : S_.BroadcastsInDim S10000x10000 (![] : Fin 0 → Fin S10000x10000.rank)
  reducesTo_S10000x10000_S_d0_1 : S10000x10000.ReducesTo [0, 1] S_

variable [Facts]

def fn_part1 {F : FTy → Type} [FloatOps F] (main_arg2 : IVec S10000x10000 32) (main_v15 : IVec S_ 1) (main_c_5 : IVec S_ 32) : IVec S_ 1 :=
  let main_v16 : IVec S10000x10000 32 := broadcastInDim S10000x10000 ![] bcast_S_S10000x10000 main_c_5
  let main_v17 : IVec S10000x10000 1 := cmpi .sge main_arg2 main_v16
  let main_c_6 : IVec S_ 32 := constantI S_ 32 1#32
  let main_v18 : IVec S10000x10000 32 := broadcastInDim S10000x10000 ![] bcast_S_S10000x10000 main_c_6
  let main_v19 : IVec S10000x10000 1 := cmpi .sle main_arg2 main_v18
  let main_v20 : IVec S10000x10000 1 := andi main_v17 main_v19
  let main_c_7 : IVec S_ 1 := constantI S_ 1 1#1
  let main_v21 : IVec S_ 1 := (fun x v => Host.reduce IntOp.andi x v reducesTo_S10000x10000_S_d0_1 h_S_) main_v20 main_c_7
  let main_v22 : IVec S_ 1 := andi main_v15 main_v21
  main_v22

def fn {F : FTy → Type} [FloatOps F] (main_arg0 : FVec F S10000x3 .f32) (main_arg1 : IVec S10000 32) (main_arg2 : IVec S10000x10000 32) (main_arg3 : FVec F S100000x128 .f32) : IVec S_ 1 :=
  let main_v0 : FVec F S10000x3 .f32 := Host.absf main_arg0
  let main_cst : FVec F S_ .f32 := constant S_ .f32 0x7F800000#32
  let main_v1 : FVec F S10000x3 .f32 := broadcastInDim S10000x3 ![] bcast_S_S10000x3 main_cst
  let main_v2 : IVec S10000x3 1 := cmpf .olt main_v0 main_v1
  let main_c : IVec S_ 1 := constantI S_ 1 1#1
  let main_v3 : IVec S_ 1 := (fun x v => Host.reduce IntOp.andi x v reducesTo_S10000x3_S_d0_1 h_S_) main_v2 main_c
  let main_v4 : FVec F S100000x128 .f32 := Host.absf main_arg3
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_c_2 : IVec S_ 32 := constantI S_ 32 0#32
  let main_v9 : IVec S10000 32 := broadcastInDim S10000 ![] bcast_S_S10000 main_c_2
  let main_v10 : IVec S10000 1 := cmpi .sge main_arg1 main_v9
  let main_c_3 : IVec S_ 32 := constantI S_ 32 99999#32
  let main_v11 : IVec S10000 32 := broadcastInDim S10000 ![] bcast_S_S10000 main_c_3
  let main_v12 : IVec S10000 1 := cmpi .sle main_arg1 main_v11
  let main_v13 : IVec S10000 1 := andi main_v10 main_v12
  let main_c_4 : IVec S_ 1 := constantI S_ 1 1#1
  let main_v14 : IVec S_ 1 := (fun x v => Host.reduce IntOp.andi x v reducesTo_S10000_S_d0 h_S_) main_v13 main_c_4
  let main_v15 : IVec S_ 1 := andi main_v8 main_v14
  let main_c_5 : IVec S_ 32 := constantI S_ 32 0#32
  fn_part1 (F := F) main_arg2 main_v15 main_c_5
-- ==== Kernel.lean ====
abbrev S10000x3 : Shape := ⟨2, ![10000, 3]⟩
abbrev S10000 : Shape := ⟨1, ![10000]⟩
abbrev S10000x10000 : Shape := ⟨2, ![10000, 10000]⟩
abbrev S100000x128 : Shape := ⟨2, ![100000, 128]⟩
abbrev S10000x128 : Shape := ⟨2, ![10000, 128]⟩
abbrev S320 : Shape := ⟨1, ![320]⟩
abbrev S4x80x128 : Shape := ⟨3, ![4, 80, 128]⟩
abbrev S4 : Shape := ⟨1, ![4]⟩
abbrev S_ : Shape := ⟨0, ![]⟩
abbrev S1x80x128 : Shape := ⟨3, ![1, 80, 128]⟩
abbrev S80x128 : Shape := ⟨2, ![80, 128]⟩
abbrev S80 : Shape := ⟨1, ![80]⟩
abbrev S1 : Shape := ⟨1, ![1]⟩

abbrev nBuf : Table → Nat
  | .hbm => 5
  | .local .scVector .vmem => 2
  | _ => 0

abbrev bufTy : (tb : Table) → Fin (nBuf tb) → BufTy
  | .hbm, ⟨0, _⟩ => ⟨S10000x3, .f32⟩
  | .hbm, ⟨1, _⟩ => ⟨S10000, .i32⟩
  | .hbm, ⟨2, _⟩ => ⟨S10000x10000, .i32⟩
  | .hbm, ⟨3, _⟩ => ⟨S100000x128, .f32⟩
  | .hbm, ⟨4, _⟩ => ⟨S10000x128, .f32⟩
  | .local .scVector .vmem, ⟨0, _⟩ => ⟨S320, .i32⟩
  | .local .scVector .vmem, ⟨1, _⟩ => ⟨S4x80x128, .f32⟩
  | _, _ => ⟨S10000x3, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_arg3_scv : Ref sig .scVector := ⟨.hbm, 3, rfl⟩
abbrev main_arg1_scv : Ref sig .scVector := ⟨.hbm, 1, rfl⟩
abbrev main_v0_scv : Ref sig .scVector := ⟨.hbm, 4, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32 : BitVec 32 := 31#32
  let v3 : BitVec 1 := Scalar.cmpi .slt v1 c31_i32
  let v4 : BitVec 32 := Scalar.extui v3
  let c0_i32 : BitVec 32 := 0#32
  let v5 : BitVec 1 := Scalar.cmpi .ne v4 c0_i32
  v5

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  ![v2.toNat]
def k0_off2 (i : grid0.Coords) (c0_i32_32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v2 : BitVec 32 := Scalar.muli v1 c320_i32
  let v39 : BitVec 32 := Scalar.addi v2 c0_i32_32
  let c0_i32_36 : BitVec 32 := 0#32
  ![v39.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  inb_S4x80x128_S1x80x128_0_0_0 : ∀ a, (![0, 0, 0] : Fin 3 → Nat) a + S1x80x128.size a ≤ S4x80x128.size a
  squeezes_S1x80x128_S80x128 : S1x80x128.Squeezes S80x128
  inb_S320_S80_0 : ∀ a, (![0] : Fin 1 → Nat) a + S80.size a ≤ S320.size a
  inb_S100000x128_S100000x128_0_0 : ∀ a, (![0, 0] : Fin 2 → Nat) a + S100000x128.size a ≤ S100000x128.size a
  inb_S4_S1_0 : ∀ a, (![0] : Fin 1 → Nat) a + S1.size a ≤ S4.size a
  squeezes_S1_S_ : S1.Squeezes S_
  gathers_S100000x128_S80x128 : S100000x128.Gathers 0 S80x128
  inb_S4x80x128_S1x80x128_1_0_0 : ∀ a, (![1, 0, 0] : Fin 3 → Nat) a + S1x80x128.size a ≤ S4x80x128.size a
  inb_S320_S80_80 : ∀ a, (![80] : Fin 1 → Nat) a + S80.size a ≤ S320.size a
  inb_S4_S1_1 : ∀ a, (![1] : Fin 1 → Nat) a + S1.size a ≤ S4.size a
  inb_S4x80x128_S1x80x128_2_0_0 : ∀ a, (![2, 0, 0] : Fin 3 → Nat) a + S1x80x128.size a ≤ S4x80x128.size a
  inb_S320_S80_160 : ∀ a, (![160] : Fin 1 → Nat) a + S80.size a ≤ S320.size a
  inb_S4_S1_2 : ∀ a, (![2] : Fin 1 → Nat) a + S1.size a ≤ S4.size a
  inb_S4x80x128_S1x80x128_3_0_0 : ∀ a, (![3, 0, 0] : Fin 3 → Nat) a + S1x80x128.size a ≤ S4x80x128.size a
  inb_S320_S80_240 : ∀ a, (![240] : Fin 1 → Nat) a + S80.size a ≤ S320.size a
  inb_S4_S1_3 : ∀ a, (![3] : Fin 1 → Nat) a + S1.size a ≤ S4.size a
  inb_S10000_S80_9920 : ∀ a, (![9920] : Fin 1 → Nat) a + S80.size a ≤ S10000.size a
  inb_S10000x128_S80x128_9920_0 : ∀ a, (![9920, 0] : Fin 2 → Nat) a + S80x128.size a ≤ S10000x128.size a
  hcc0_scratch2 : 0 + S4.numel ≤ 8
  hcc0_scratch3 : 4 + S_.numel ≤ 8
  hcc0_scoped0 : 5 + S_.numel ≤ 8
  hcc0_scoped1 : 6 + S_.numel ≤ 8
  hcc0_scoped2 : 7 + S_.numel ≤ 8
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ (k0_h1 : k0_cond1 i = 1#1), ∀ a, (k0_off1 i) a + S320.size a ≤ S10000.size a
  k0_off2_inb : ∀ i : grid0.Coords, ∀ (k0_h1 : k0_cond1 i = 1#1), ∀ (r : Fin 4), ∀ a, (k0_off2 i (BitVec.ofNat 32 (80 * r.val))) a + S80x128.size a ≤ S10000x128.size a

variable [Facts₀]

abbrev cc0_scratch2 : DmaSems sig S4 := SemArray.consecutive 0 S4 hcc0_scratch2
abbrev cc0_scratch3 : DmaSems sig S_ := SemArray.consecutive 4 S_ hcc0_scratch3
abbrev cc0_scoped0 : DmaSems sig S_ := SemArray.consecutive 5 S_ hcc0_scoped0
abbrev cc0_scoped1 : DmaSems sig S_ := SemArray.consecutive 6 S_ hcc0_scoped1
abbrev cc0_scoped2 : DmaSems sig S_ := SemArray.consecutive 7 S_ hcc0_scoped2

class Facts : Prop extends Facts₀ where

variable [Facts]
-- ==== ReferenceIdeal.lean ====
abbrev S10000x3 : Shape := ⟨2, ![10000, 3]⟩
abbrev S10000 : Shape := ⟨1, ![10000]⟩
abbrev S10000x10000 : Shape := ⟨2, ![10000, 10000]⟩
abbrev S100000x128 : Shape := ⟨2, ![100000, 128]⟩
abbrev S_ : Shape := ⟨0, ![]⟩
abbrev S10000x1 : Shape := ⟨2, ![10000, 1]⟩
abbrev S1 : Shape := ⟨1, ![1]⟩
abbrev S1x1 : Shape := ⟨2, ![1, 1]⟩
abbrev S10000x128 : Shape := ⟨2, ![10000, 128]⟩
abbrev S10000x128x3 : Shape := ⟨3, ![10000, 128, 3]⟩
abbrev S1x3 : Shape := ⟨2, ![1, 3]⟩
abbrev S3 : Shape := ⟨1, ![3]⟩

abbrev nBuf : Space → Nat
  | .hbm => 34
  | .vmem => 0
  | .smem => 0
  | _ => 0

abbrev bufTy : (tb : Table) → Fin (tcTables nBuf tb) → BufTy
  | .hbm, ⟨0, _⟩ => ⟨S10000x3, .f32⟩
  | .hbm, ⟨1, _⟩ => ⟨S10000, .i32⟩
  | .hbm, ⟨2, _⟩ => ⟨S10000x10000, .i32⟩
  | .hbm, ⟨3, _⟩ => ⟨S100000x128, .f32⟩
  | .hbm, ⟨4, _⟩ => ⟨S_, .i32⟩
  | .hbm, ⟨5, _⟩ => ⟨S10000, .i32⟩
  | .hbm, ⟨6, _⟩ => ⟨S10000, .i1⟩
  | .hbm, ⟨7, _⟩ => ⟨S_, .i32⟩
  | .hbm, ⟨8, _⟩ => ⟨S10000, .i32⟩
  | .hbm, ⟨9, _⟩ => ⟨S10000, .i32⟩
  | .hbm, ⟨10, _⟩ => ⟨S10000, .i32⟩
  | .hbm, ⟨11, _⟩ => ⟨S10000x1, .i32⟩
  | .hbm, ⟨12, _⟩ => ⟨S1, .i32⟩
  | .hbm, ⟨13, _⟩ => ⟨S_, .i32⟩
  | .hbm, ⟨14, _⟩ => ⟨S10000x1, .i32⟩
  | .hbm, ⟨15, _⟩ => ⟨S10000x1, .i1⟩
  | .hbm, ⟨16, _⟩ => ⟨S1x1, .i32⟩
  | .hbm, ⟨17, _⟩ => ⟨S10000x1, .i32⟩
  | .hbm, ⟨18, _⟩ => ⟨S10000x1, .i1⟩
  | .hbm, ⟨19, _⟩ => ⟨S10000x1, .i1⟩
  | .hbm, ⟨20, _⟩ => ⟨S_, .i1⟩
  | .hbm, ⟨21, _⟩ => ⟨S10000, .i1⟩
  | .hbm, ⟨22, _⟩ => ⟨S10000x128, .f32⟩
  | .hbm, ⟨23, _⟩ => ⟨S10000x128, .i1⟩
  | .hbm, ⟨24, _⟩ => ⟨S_, .f32⟩
  | .hbm, ⟨25, _⟩ => ⟨S10000x128, .f32⟩
  | .hbm, ⟨26, _⟩ => ⟨S10000x128, .f32⟩
  | .hbm, ⟨27, _⟩ => ⟨S_, .f32⟩
  | .hbm, ⟨28, _⟩ => ⟨S10000x128x3, .f32⟩
  | .hbm, ⟨29, _⟩ => ⟨S1x3, .f32⟩
  | .hbm, ⟨30, _⟩ => ⟨S3, .f32⟩
  | .hbm, ⟨31, _⟩ => ⟨S1x3, .f32⟩
  | .hbm, ⟨32, _⟩ => ⟨S10000x3, .f32⟩
  | .hbm, ⟨33, _⟩ => ⟨S10000x3, .f32⟩
  | _, _ => ⟨S10000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_cst : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩

abbrev nD : Nat := 1
abbrev τ : Topo := Topo.v7x

variable {F : FTy → Type} [FloatOps F]

class Facts₀ : Prop where
  bcast_S_S10000 : S_.BroadcastsInDim S10000 (![] : Fin 0 → Fin S10000.rank)
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S1_S1x1_1 : S1.BroadcastsInDim S1x1 (![1] : Fin 1 → Fin S1x1.rank)
  bcast_S1x1_S10000x1_0_1 : S1x1.BroadcastsInDim S10000x1 (![0, 1] : Fin 2 → Fin S10000x1.rank)
  reducesTo_S10000x1_S10000_d1 : S10000x1.ReducesTo [1] S10000
  h_S_ : 0 < S_.numel
  bcast_S10000_S10000x128_0 : S10000.BroadcastsInDim S10000x128 (![0] : Fin 1 → Fin S10000x128.rank)
  bcast_S_S10000x128 : S_.BroadcastsInDim S10000x128 (![] : Fin 0 → Fin S10000x128.rank)
  bcast_S_S10000x128x3 : S_.BroadcastsInDim S10000x128x3 (![] : Fin 0 → Fin S10000x128x3.rank)
  slices_S10000x3_S1x3_9999_0 : S10000x3.Slices ![9999, 0] S1x3
  shapeCasts_S1x3_S3 : S1x3.ShapeCasts S3
  bcast_S3_S1x3_1 : S3.BroadcastsInDim S1x3 (![1] : Fin 1 → Fin S1x3.rank)
  bcast_S1x3_S10000x3_0_1 : S1x3.BroadcastsInDim S10000x3 (![0, 1] : Fin 2 → Fin S10000x3.rank)
  gather_S100000x128_S10000x1_S10000x128_1_0_n_n_0_1_1128_wf : GatherDims.WF S100000x128 S10000x1 S10000x128 [1] [0] [] [0] [] 1 ![1, 128]

variable [Facts₀]

def gather_S100000x128_S10000x1_S10000x128_1_0_n_n_0_1_1128 : GatherDims S100000x128 S10000x1 S10000x128 where
  offsetDims := [1]
  collapsedSliceDims := [0]
  operandBatchingDims := []
  startIndicesBatchingDims := []
  startIndexMap := [0]
  indexVectorDim := 1
  sliceSizes := ![1, 128]
  wf := gather_S100000x128_S10000x1_S10000x128_1_0_n_n_0_1_1128_wf

class Facts : Prop extends Facts₀ where

variable [Facts]
-- ==== Proof.IndexRange.lean ====
/-
  From the precondition to the range of the index words. The precondition is a conjunction of four
  whole-array tests; the one on the index array z says every word lies between 0 and 99999 as a signed
  32-bit integer. A signed word that is nonnegative reads the same unsigned, so each word, read as a
  natural number, is below 100000: it names a row of the table.
-/
import proofs.«212854_g59167469470367_cont_9to1c4b_422_3_alg».proof.Pre_input_domain
import Idealize.ShloMosaic.Lib.ReduceAll
import Idealize.ShloMosaic.Lib.ValueIdx

namespace Cert.Proof.IndexRange

open Idealize.ShloMosaic

/-- The result of a reduction over every axis has one index. -/
instance : Subsingleton Cert.Pre_input_domain.S_.Idx := ⟨fun a b => funext fun d => d.elim0⟩

/-- A word between 0 and 99999 as a signed integer is below 100000 as a natural number. -/
theorem toNat_lt_of_signed_range {v : BitVec 32} (h0 : (0#32 : BitVec 32).toInt ≤ v.toInt)
    (h1 : v.toInt ≤ (99999#32 : BitVec 32).toInt) : v.toNat < 100000 := by
  have e0 : (0#32 : BitVec 32).toInt = 0 := by decide
  have e1 : (99999#32 : BitVec 32).toInt = 99999 := by decide
  rw [e0] at h0; rw [e1] at h1
  rw [BitVec.toInt_eq_toNat_cond] at h0 h1
  have := v.isLt
  split at h0 <;> omega

/-- Under the precondition every index word names a row of the table. -/
theorem index_lt {F : FTy → Type} [FloatOps F] [Cert.Pre_input_domain.Facts]
    (a0 : FVec F Cert.Pre_input_domain.S10000x3 .f32) (a1 : IVec Cert.Pre_input_domain.S10000 32)
    (a2 : IVec Cert.Pre_input_domain.S10000x10000 32) (a3 : FVec F Cert.Pre_input_domain.S100000x128 .f32)
    (h : Cert.Pre_input_domain.fn (F := F) a0 a1 a2 a3 = fun _ => 1#1) : ∀ j, (a1 j).toNat < 100000 := by
  intro j
  have e := congrFun h ValueIdx.ix0
  dsimp only [Cert.Pre_input_domain.fn, Cert.Pre_input_domain.fn_part1] at e
  obtain ⟨e1, -⟩ := IntOp.andi_eq_one.1 e
  obtain ⟨-, e2⟩ := IntOp.andi_eq_one.1 e1
  have e3 := Host.reduce_andi_all _ _ _ _ _ e2 j
  obtain ⟨e4, e5⟩ := IntOp.andi_eq_one.1 e3
  exact toNat_lt_of_signed_range (IntOp.cmpi_sge.1 e4) (IntOp.cmpi_sle.1 e5)

end Cert.Proof.IndexRange
-- ==== Proof.RowGather.lean ====
/-
  The function both programs compute: row i of the result is the table's row number z i, column by column.
  An index word is read as a natural number and reduced modulo the table's 100000 rows only so that the function is
  defined for every word; where every word is below 100000 (what the precondition says of z) the reduction does nothing.
-/
import Idealize.ShloMosaic.PureOps
import Idealize.ShloMosaic.Lib.ValueIdx

noncomputable section

namespace Cert.Proof.RowGather

open Idealize.ShloMosaic Idealize.ShloMosaic.ValueIdx

variable {F : FTy → Type}

/-- The table's row that index word `w` names. -/
def rowOfWord (w : BitVec 32) : Fin 100000 := ⟨w.toNat % 100000, Nat.mod_lt _ (by norm_num)⟩

theorem rowOfWord_val {w : BitVec 32} (h : w.toNat < 100000) : (rowOfWord w).val = w.toNat := Nat.mod_eq_of_lt h

/-- Row `i` of the result is row `z i` of the table: `gatheredRows t z (i, j) = t (z i, j)`. -/
def gatheredRows (t : (⟨2, ![100000, 128]⟩ : Shape).Idx → Elt F .f32) (z : (⟨1, ![10000]⟩ : Shape).Idx → Elt F .i32) :
    (⟨2, ![10000, 128]⟩ : Shape).Idx → Elt F .f32 :=
  fun x => t (ix2 (rowOfWord (z (ix1 (x 0)))) (x 1))

theorem gatheredRows_apply (t : (⟨2, ![100000, 128]⟩ : Shape).Idx → Elt F .f32) (z : (⟨1, ![10000]⟩ : Shape).Idx → Elt F .i32)
    (i : Fin 10000) (j : Fin 128) : gatheredRows t z (ix2 i j) = t (ix2 (rowOfWord (z (ix1 i))) j) := rfl

end Cert.Proof.RowGather

end
-- ==== Proof.TakeRun.lean ====
/-
  The reference's run, with its result named. The reference gathers rows of the table: it first wraps
  negative index words (adds the row count to a word that reads negative), then reads row clamp(index) of
  the table for every index, and finally replaces a row by a not-a-number fill where the wrapped index was
  outside 0 … 99999. Where every index word, read as a natural number, is below the row count 100000 the
  word is nonnegative as a signed integer: the wrap leaves it alone, the clamp leaves it alone, the
  in-range test passes, and the result at (i, j) is the table at (z i, j).
-/
import proofs.«212854_g59167469470367_cont_9to1c4b_422_3_alg».proof.Proof.Gen.ReferenceIdeal
import Idealize.ShloMosaic.Lib.StableHlo.Run
import Idealize.ShloMosaic.Lib.ValueIdx
import Idealize.ShloMosaic.Lib.ReduceAll
import proofs.«212854_g59167469470367_cont_9to1c4b_422_3_alg».proof.Proof.RowGather

noncomputable section

namespace Cert.Proof.TakeRun

open Cert.ReferenceIdeal Idealize.ShloMosaic Idealize.ShloMosaic.TcCoe Idealize.SL.Sem Idealize.ShloMosaic.StableHlo
open Idealize.ShloMosaic.ValueIdx
open Cert.ReferenceIdeal.Facts₀

variable {F : FTy → Type} [FloatOps F]

/-! ## The value the operations compose, and what it is at an index -/

/-- The index words after the wrap: a word that reads negative has the row count added. -/
def wrapped (z : IVec S10000 32) : IVec S10000 32 :=
  select (cmpi .slt z (broadcastInDim S10000 ![] bcast_S_S10000 (constantI S_ 32 0#32)))
    (addi z (broadcastInDim S10000 ![] bcast_S_S10000 (constantI S_ 32 100000#32))) z

/-- The wrapped words as a one-column matrix: the start indices of the gather. -/
def column (z : IVec S10000 32) : IVec S10000x1 32 :=
  broadcastInDim S10000x1 ![0] bcast_S10000_S10000x1_0 (wrapped z)

/-- Per index, whether the wrapped word lies in 0 … 99999 (the test of the one column, reduced by and over it). -/
def inRange (z : IVec S10000 32) : IVec S10000 1 :=
  Host.reduce IntOp.andi
    (andi (cmpi .sge (column z) (broadcastInDim S10000x1 ![] bcast_S_S10000x1 (constantI S_ 32 0#32)))
      (cmpi .sle (column z) (broadcastInDim S10000x1 ![0, 1] bcast_S1x1_S10000x1_0_1
        (broadcastInDim S1x1 ![1] bcast_S1_S1x1_1 (constantI S1 32 99999#32)))))
    (constantI S_ 1 1#1) reducesTo_S10000x1_S10000_d1 h_S_

/-- The reference's result as a term of the table `t` and the index words `z`. -/
def taken (t : FVec F S100000x128 .f32) (z : IVec S10000 32) : FVec F S10000x128 .f32 :=
  select (broadcastInDim S10000x128 ![0] bcast_S10000_S10000x128_0 (inRange z))
    (Host.gather gather_S100000x128_S10000x1_S10000x128_1_0_n_n_0_1_1128 t (column z))
    (broadcastInDim S10000x128 ![] bcast_S_S10000x128 (constant S_ .f32 0x7FC00000#32))

/-- A word below 100000 as a natural number reads the same as a signed integer. -/
theorem toInt_of_lt {v : BitVec 32} (h : v.toNat < 100000) : v.toInt = v.toNat :=
  BitVec.toInt_eq_toNat_of_lt (by omega)

/-- A word below 100000 as a natural number does not read negative. -/
theorem not_slt_zero {v : BitVec 32} (h : v.toNat < 100000) : IntOp.cmpi .slt v 0#32 = 0#1 := by
  refine eq_zero_of_ne_one fun e => ?_
  have := IntOp.cmpi_slt.1 e
  rw [toInt_of_lt h, show (0#32 : BitVec 32).toInt = 0 from by decide] at this
  omega

/-- A word below 100000 as a natural number passes both range tests. -/
theorem sge_zero {v : BitVec 32} (h : v.toNat < 100000) : IntOp.cmpi .sge v 0#32 = 1#1 := by
  rw [IntOp.cmpi_sge, toInt_of_lt h, show (0#32 : BitVec 32).toInt = 0 from by decide]
  omega
theorem sle_top {v : BitVec 32} (h : v.toNat < 100000) : IntOp.cmpi .sle v 99999#32 = 1#1 := by
  rw [IntOp.cmpi_sle, toInt_of_lt h, show (99999#32 : BitVec 32).toInt = 99999 from by decide]
  omega

/-- With every word below the row count the wrap changes nothing. -/
theorem wrapped_eq (z : IVec S10000 32) (hz : ∀ j, (z j).toNat < 100000) : wrapped z = z := by
  funext j
  show Scalar.select (IntOp.cmpi .slt (z j) 0#32) (IntOp.addi (z j) 100000#32) (z j) = z j
  rw [not_slt_zero (hz j), select_zero]

/-- The one column read at row `i`. -/
theorem column_apply (z : IVec S10000 32) (i : Fin 10000) (k : Fin 1) : column z (ix2 i k) = wrapped z (ix1 i) := by
  unfold column broadcastInDim
  refine congrArg (wrapped z) (funext fun a => ?_)
  match a with
  | ⟨0, _⟩ => rfl

/-- A left fold by and from 1 over words that are all 1 is 1. -/
theorem foldl_andi_one {ι : Type} (f : ι → BitVec 1) :
    ∀ (l : List ι) (init : BitVec 1), init = 1#1 → (∀ n ∈ l, f n = 1#1) → l.foldl (fun r n => IntOp.andi r (f n)) init = 1#1
  | [], _, h, _ => h
  | a :: l, init, h, hl => by
    rw [List.foldl_cons]
    exact foldl_andi_one f l _ (IntOp.andi_eq_one.2 ⟨h, hl a List.mem_cons_self⟩) fun n hn => hl n (List.mem_cons_of_mem _ hn)

/-- With every word below the row count every index passes the range test. -/
theorem inRange_eq (z : IVec S10000 32) (hz : ∀ j, (z j).toNat < 100000) (j : S10000.Idx) : inRange z j = 1#1 := by
  unfold inRange
  rw [Host.reduce_eq_foldl]
  refine foldl_andi_one _ _ _ rfl fun n _ => ?_
  obtain ⟨i, k, rfl⟩ : ∃ i k, n = ix2 i k := ⟨n 0, n 1, eq_ix2 n⟩
  show IntOp.andi (IntOp.cmpi .sge (column z (ix2 i k)) 0#32) (IntOp.cmpi .sle (column z (ix2 i k)) 99999#32) = 1#1
  rw [column_apply, wrapped_eq z hz, sge_zero (hz _), sle_top (hz _)]
  rfl

/-- The gather read at `(i, j)`: the table at the row the start index `idx (i, 0)` names, read signed and clamped
    into 0 … 99999, and at column `j`. -/
theorem gather_apply {α : Type} (t : S100000x128.Idx → α) (idx : IVec S10000x1 32) (i : Fin 10000) (j : Fin 128) :
    Host.gather gather_S100000x128_S10000x1_S10000x128_1_0_n_n_0_1_1128 t idx (ix2 i j)
      = t (ix2 ⟨min (idx (ix2 i 0)).toInt.toNat 99999, by omega⟩ j) := by
  unfold Host.gather
  refine congrArg t (funext fun a => Fin.ext ?_)
  match a with
  | ⟨0, _⟩ =>
    show gather_S100000x128_S10000x1_S10000x128_1_0_n_n_0_1_1128.start (ix2 i j) idx 0
        + gather_S100000x128_S10000x1_S10000x128_1_0_n_n_0_1_1128.batchCoord (ix2 i j) 0
        + gather_S100000x128_S10000x1_S10000x128_1_0_n_n_0_1_1128.offCoord (ix2 i j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S100000x128_S10000x1_S10000x128_1_0_n_n_0_1_1128.startIndexMap from List.mem_singleton.mpr rfl)]
    have hsi : gather_S100000x128_S10000x1_S10000x128_1_0_n_n_0_1_1128.siIdx (ix2 i j)
        ⟨List.idxOf (0 : Fin 2) gather_S100000x128_S10000x1_S10000x128_1_0_n_n_0_1_1128.startIndexMap,
          List.idxOf_lt_length_iff.2 (List.mem_singleton.mpr rfl)⟩ = ix2 i 0 := by
      funext b; refine Fin.ext ?_
      match b with
      | ⟨0, _⟩ => rfl
      | ⟨1, _⟩ => rfl
    rw [hsi]
    rfl
  | ⟨1, _⟩ =>
    show gather_S100000x128_S10000x1_S10000x128_1_0_n_n_0_1_1128.start (ix2 i j) idx 1
        + gather_S100000x128_S10000x1_S10000x128_1_0_n_n_0_1_1128.batchCoord (ix2 i j) 1
        + gather_S100000x128_S10000x1_S10000x128_1_0_n_n_0_1_1128.offCoord (ix2 i j) 1 = _
    rw [GatherDims.batchCoord_eq_zero _ _ _ List.not_mem_nil]
    have h1 : (1 : Fin S100000x128.rank) ∉ gather_S100000x128_S10000x1_S10000x128_1_0_n_n_0_1_1128.startIndexMap :=
      fun h => absurd (List.mem_singleton.mp (h : (1 : Fin S100000x128.rank) ∈ [0])) (by decide)
    have h2 : (1 : Fin S100000x128.rank) ∈ gather_S100000x128_S10000x1_S10000x128_1_0_n_n_0_1_1128.sKept :=
      (GatherDims.mem_sKept _ _).mpr
        ⟨fun h => absurd (List.mem_singleton.mp (h : (1 : Fin S100000x128.rank) ∈ [0])) (by decide), List.not_mem_nil⟩
    unfold GatherDims.start GatherDims.offCoord
    rw [dif_neg h1, dif_pos h2]
    simp only [Nat.add_zero, Nat.zero_add]
    rfl

/-- With every word below the row count the reference's result is the gathered rows. -/
theorem taken_eq (t : FVec F S100000x128 .f32) (z : IVec S10000 32) (hz : ∀ j, (z j).toNat < 100000) :
    taken t z = Cert.Proof.RowGather.gatheredRows t z := by
  funext x
  obtain ⟨i, j, rfl⟩ : ∃ i j, x = ix2 i j := ⟨x 0, x 1, eq_ix2 x⟩
  rw [Cert.Proof.RowGather.gatheredRows_apply]
  show Scalar.select (broadcastInDim S10000x128 ![0] bcast_S10000_S10000x128_0 (inRange z) (ix2 i j))
      (Host.gather gather_S100000x128_S10000x1_S10000x128_1_0_n_n_0_1_1128 t (column z) (ix2 i j)) _ = _
  have hm : broadcastInDim S10000x128 ![0] bcast_S10000_S10000x128_0 (inRange z) (ix2 i j) = 1#1 := by
    unfold broadcastInDim; exact inRange_eq z hz _
  rw [hm, select_one, gather_apply]
  refine congrArg t (congrArg (fun r => ix2 r j) (Fin.ext ?_))
  show min (column z (ix2 i 0)).toInt.toNat 99999 = (z (ix1 i)).toNat % 100000
  have := hz (ix1 i)
  rw [column_apply, wrapped_eq z hz, toInt_of_lt this, Int.toNat_natCast, Nat.mod_eq_of_lt this]
  omega

/-! ## The run -/

/-- @main's 30 operations, in order: the 23 of the row lookup listed at the call's buffers (the select of the wrap,
    the seventh, among them), then the 7 whose results the function does not return. -/
abbrev ops : List (HloOp τ sig (Elt F)) :=
  [ TRef.nullary main_call0.c (constantI S_ 32 0#32),
    TRef.unary main_call0.c main_call0.v0 (broadcastInDim S10000 ![] bcast_S_S10000),
    TRef.binary (.of main_arg1) main_call0.v0 main_call0.v1 (cmpi .slt),
    TRef.nullary main_call0.c_0 (constantI S_ 32 100000#32),
    TRef.unary main_call0.c_0 main_call0.v2 (broadcastInDim S10000 ![] bcast_S_S10000),
    TRef.binary (.of main_arg1) main_call0.v2 main_call0.v3 addi,
    TRef.ternary main_call0.v1 main_call0.v3 (.of main_arg1) main_call0.call0.v0 select,
    TRef.unary main_call0.call0.v0 main_call0.v5 (broadcastInDim S10000x1 ![0] bcast_S10000_S10000x1_0),
    TRef.nullary main_call0.c_1 (constantI S1 32 99999#32),
    TRef.nullary main_call0.c_2 (constantI S_ 32 0#32),
    TRef.unary main_call0.c_2 main_call0.v6 (broadcastInDim S10000x1 ![] bcast_S_S10000x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S10000x1 ![0, 1] bcast_S1x1_S10000x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S10000x1_S10000_d1 h_S_),
    TRef.binary (.of main_arg3) main_call0.v5 main_call0.v13 (fun x i => Host.gather gather_S100000x128_S10000x1_S10000x128_1_0_n_n_0_1_1128 x i),
    TRef.unary main_call0.v12 main_call0.v14 (broadcastInDim S10000x128 ![0] bcast_S10000_S10000x128_0),
    TRef.nullary main_call0.cst (constant S_ .f32 0x7FC00000#32),
    TRef.unary main_call0.cst main_call0.v15 (broadcastInDim S10000x128 ![] bcast_S_S10000x128),
    TRef.ternary main_call0.v14 main_call0.v13 main_call0.v15 main_call0.v16 select,
    nullary main_cst (constant S_ .f32 0x00000000#32),
    unary main_cst main_v1 (broadcastInDim S10000x128x3 ![] bcast_S_S10000x128x3 : (⟨S_, .f32⟩ : BufTy).Contents (Elt F) → (⟨S10000x128x3, .f32⟩ : BufTy).Contents (Elt F)),
    unary main_arg0 main_v2 ((extractStridedSlice S1x3 ![9999, 0] · slices_S10000x3_S1x3_9999_0) : (⟨S10000x3, .f32⟩ : BufTy).Contents (Elt F) → (⟨S1x3, .f32⟩ : BufTy).Contents (Elt F)),
    reshape main_v2 main_v3 rfl shapeCasts_S1x3_S3,
    unary main_v3 main_v4 (broadcastInDim S1x3 ![1] bcast_S3_S1x3_1 : (⟨S3, .f32⟩ : BufTy).Contents (Elt F) → (⟨S1x3, .f32⟩ : BufTy).Contents (Elt F)),
    unary main_v4 main_v5 (broadcastInDim S10000x3 ![0, 1] bcast_S1x3_S10000x3_0_1 : (⟨S1x3, .f32⟩ : BufTy).Contents (Elt F) → (⟨S10000x3, .f32⟩ : BufTy).Contents (Elt F)),
    binary main_v5 main_arg0 main_v6 (subf : (⟨S10000x3, .f32⟩ : BufTy).Contents (Elt F) → (⟨S10000x3, .f32⟩ : BufTy).Contents (Elt F) → (⟨S10000x3, .f32⟩ : BufTy).Contents (Elt F)) ]

set_option maxRecDepth 1024 in
/-- @main is that straight line: the two functions' definitions unfolded at their calls and the record at its fields,
    both sides are one chain of steps once sequencing is re-associated. -/
theorem main_eq (c : Dev nD) : main (F := F) c = seq ops := by
  simp only [main, fn_take.body, fn_where.body, seq, bind_assoc, pure_bind]

attribute [local irreducible] Host.reduce Host.gather in
set_option maxRecDepth 8192 in
/-- The fold of the operations at the result buffer is the composed term, by computation: each operation's result
    decides whether the buffer read is the one it writes, and the typed references' transports are the identity at
    these literal references. The reduction and the gather are kept folded meanwhile (the equation never looks inside). -/
theorem out_eq (V : Valuation τ sig (Elt F)) :
    after ops V (main_v0 : DevRef τ sig) = taken (V (main_arg3 : DevRef τ sig)) (V (main_arg1 : DevRef τ sig)) := by
  after_results_simp
  rfl

/-- No operation writes an argument. -/
theorem arg0_eq (V : Valuation τ sig (Elt F)) : after ops V (main_arg0 : DevRef τ sig) = V (main_arg0 : DevRef τ sig) := by
  simp only [after_cons, after_nil]
  rfl
theorem arg1_eq (V : Valuation τ sig (Elt F)) : after ops V (main_arg1 : DevRef τ sig) = V (main_arg1 : DevRef τ sig) := by
  simp only [after_cons, after_nil]
  rfl
theorem arg2_eq (V : Valuation τ sig (Elt F)) : after ops V (main_arg2 : DevRef τ sig) = V (main_arg2 : DevRef τ sig) := by
  simp only [after_cons, after_nil]
  rfl
theorem arg3_eq (V : Valuation τ sig (Elt F)) : after ops V (main_arg3 : DevRef τ sig) = V (main_arg3 : DevRef τ sig) := by
  simp only [after_cons, after_nil]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    nullary_bufs_sub .., unary_bufs_sub .., unary_bufs_sub .., reshape_bufs_sub .., unary_bufs_sub .., unary_bufs_sub ..,
    binary_bufs_sub ..⟩

/-- From any memory with zero counters every weakly fair execution of @main terminates, and every final state has each
    buffer at the fold of the operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- The reference's run: where every index word is below the row count, every weakly fair execution terminates with the
    result buffer at the gathered rows of the table and the four arguments unchanged. -/
theorem run (m : (ℓ : Loc nD τ sig) → Buf (Elt F) ℓ) (ρ : Dev nD → PrngReg)
    (hz : ∀ (c : Dev nD) j, (m ((c.tc : Thread nD τ).loc main_arg1) j).toNat < 100000) :
    θ_run (defs (F := F)) (onTc (τ := τ) (main (F := F))) ⟨m, fun _ => 0, ρ⟩ (fun r => ∀ c : Dev nD,
      r.2.mem ((c.tc : Thread nD τ).loc main_v0)
          = Cert.Proof.RowGather.gatheredRows (m ((c.tc : Thread nD τ).loc main_arg3)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
      ⟨(h c main_v0).trans ((out_eq _).trans (taken_eq _ _ (hz c))),
        (h c main_arg0).trans (arg0_eq _), (h c main_arg1).trans (arg1_eq _),
        (h c main_arg2).trans (arg2_eq _), (h c main_arg3).trans (arg3_eq _)⟩)
    (run_main m ρ)

/-- The frame alone: the reference runs and leaves its four arguments unchanged. -/
theorem frame_of_run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
      ⟨(h c main_arg0).trans (arg0_eq _), (h c main_arg1).trans (arg1_eq _),
        (h c main_arg2).trans (arg2_eq _), (h c main_arg3).trans (arg3_eq _)⟩)
    (run_main m ρ)

end Cert.Proof.TakeRun

end
-- ==== Proof.IdealBase.lean ====
/-
  The row gather on the SparseCores, common ground: the program as its launch reads it, the memory a tile touches —
  the table and the index array (read only), the result (each tile its own rows), a tile's list scratch and row scratch
  and their 80-entry windows and 80-row slots — and the two guards that tell a full tile (number w = 2·s + c below 31,
  rows 320·w … 320·w + 319 in four pieces of 80) from the last one (w = 31, rows 9920 … 9999 in one piece).
-/
import proofs.«212854_g59167469470367_cont_9to1c4b_422_3_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Batch
import Idealize.ShloMosaic.Lib.Tactic
import proofs.«212854_g59167469470367_cont_9to1c4b_422_3_alg».proof.Proof.Gen.KernelIdeal
import proofs.«212854_g59167469470367_cont_9to1c4b_422_3_alg».proof.Proof.Gen.KernelIdeal.Skeleton

noncomputable section

namespace Cert.Proof.IdealBase

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the transfers' counters -/

abbrev UH : Type := URounds (GSem nD τ sig) ℕ
abbrev UU : Type := UH × Counters

abbrev EH : Emb UH (MT nD τ sig (HIx 1) (Elt F) ℕ UU ℕ) := embL

/-! ## The arrays and a tile's scratch -/

abbrev pLoc (d : Dev nD) : Loc nD τ sig := (SparseCore.T d).loc main_arg0
abbrev zLoc (d : Dev nD) : Loc nD τ sig := (SparseCore.T d).loc main_arg1
abbrev nLoc (d : Dev nD) : Loc nD τ sig := (SparseCore.T d).loc main_arg2
abbrev tLoc (d : Dev nD) : Loc nD τ sig := (SparseCore.T d).loc main_arg3
abbrev oLoc (d : Dev nD) : Loc nD τ sig := (SparseCore.T d).loc main_v0

local notation "tV" => (Memref.whole Cert.KernelIdeal.main_arg3_scv : Memref Cert.KernelIdeal.sig Kind.scVector Space.hbm Cert.KernelIdeal.S100000x128 EltTy.f32)
local notation "zV" => (Memref.whole Cert.KernelIdeal.main_arg1_scv : Memref Cert.KernelIdeal.sig Kind.scVector Space.hbm Cert.KernelIdeal.S10000 EltTy.i32)
local notation "oV" => (Memref.whole Cert.KernelIdeal.main_v0_scv : Memref Cert.KernelIdeal.sig Kind.scVector Space.hbm Cert.KernelIdeal.S10000x128 EltTy.f32)
local notation "lV" => (Memref.whole Cert.KernelIdeal.cc0_scratch0 : Memref Cert.KernelIdeal.sig Kind.scVector Space.vmem Cert.KernelIdeal.S320 EltTy.i32)
local notation "rV" => (Memref.whole Cert.KernelIdeal.cc0_scratch1 : Memref Cert.KernelIdeal.sig Kind.scVector Space.vmem Cert.KernelIdeal.S4x80x128 EltTy.f32)

abbrev cV (L : grid0.Coords) : Fin τ.nSC := (L 0).castLE hcore0
abbrev jV (L : grid0.Coords) : Fin τ.nSub := (L 1).castLE hsub0

/-- The table, sliced whole, as every gather names it. -/
abbrev tSl : Memref sig .scVector .hbm S100000x128 .f32 :=
  (tV).slice (Rect.unit (s := S100000x128) ![0, 0] S100000x128.size inb_S100000x128_S100000x128_0_0) (fun _ => rfl)
/-- A full tile's 320 entries of the index array. -/
abbrev zSl (L : grid0.Coords) (h1 : k0_cond1 L = 1#1) : Memref sig .scVector .hbm S320 .i32 :=
  (zV).slice (Rect.unit (s := S10000) (k0_off1 L) S320.size (k0_off1_inb L h1)) (fun _ => rfl)
/-- The last tile's 80 entries of the index array, and its 80 rows of the result. -/
abbrev zTail : Memref sig .scVector .hbm S80 .i32 := (zV).slice (Rect.unit (s := S10000) ![9920] S80.size inb_S10000_S80_9920) (fun _ => rfl)
abbrev oTail : Memref sig .scVector .hbm S80x128 .f32 := (oV).slice (Rect.unit (s := S10000x128) ![9920, 0] S80x128.size inb_S10000x128_S80x128_9920_0) (fun _ => rfl)
/-- The four 80-entry windows of the list scratch. -/
abbrev lWin0 : Memref sig .scVector .vmem S80 .i32 := (lV).slice (Rect.unit (s := S320) ![0] S80.size inb_S320_S80_0) (fun _ => rfl)
abbrev lWin1 : Memref sig .scVector .vmem S80 .i32 := (lV).slice (Rect.unit (s := S320) ![80] S80.size inb_S320_S80_80) (fun _ => rfl)
abbrev lWin2 : Memref sig .scVector .vmem S80 .i32 := (lV).slice (Rect.unit (s := S320) ![160] S80.size inb_S320_S80_160) (fun _ => rfl)
abbrev lWin3 : Memref sig .scVector .vmem S80 .i32 := (lV).slice (Rect.unit (s := S320) ![240] S80.size inb_S320_S80_240) (fun _ => rfl)
/-- The four 80-row slots of the row scratch. -/
abbrev slot0 : Memref sig .scVector .vmem S80x128 .f32 := ((rV).slice (Rect.unit (s := S4x80x128) ![0, 0, 0] S1x80x128.size inb_S4x80x128_S1x80x128_0_0_0) (fun _ => rfl)).squeeze S80x128 squeezes_S1x80x128_S80x128
abbrev slot1 : Memref sig .scVector .vmem S80x128 .f32 := ((rV).slice (Rect.unit (s := S4x80x128) ![1, 0, 0] S1x80x128.size inb_S4x80x128_S1x80x128_1_0_0) (fun _ => rfl)).squeeze S80x128 squeezes_S1x80x128_S80x128
abbrev slot2 : Memref sig .scVector .vmem S80x128 .f32 := ((rV).slice (Rect.unit (s := S4x80x128) ![2, 0, 0] S1x80x128.size inb_S4x80x128_S1x80x128_2_0_0) (fun _ => rfl)).squeeze S80x128 squeezes_S1x80x128_S80x128
abbrev slot3 : Memref sig .scVector .vmem S80x128 .f32 := ((rV).slice (Rect.unit (s := S4x80x128) ![3, 0, 0] S1x80x128.size inb_S4x80x128_S1x80x128_3_0_0) (fun _ => rfl)).squeeze S80x128 squeezes_S1x80x128_S80x128
/-- The four 80-row pieces of the result a full tile writes, as the body slices them. -/
abbrev oCh0 (L : grid0.Coords) (h1 : k0_cond1 L = 1#1) : Memref sig .scVector .hbm S80x128 .f32 := (oV).slice (Rect.unit (s := S10000x128) (k0_off2 L 0#32) S80x128.size (k0_off2_inb L h1 0)) (fun _ => rfl)
abbrev oCh1 (L : grid0.Coords) (h1 : k0_cond1 L = 1#1) : Memref sig .scVector .hbm S80x128 .f32 := (oV).slice (Rect.unit (s := S10000x128) (k0_off2 L 80#32) S80x128.size (k0_off2_inb L h1 1)) (fun _ => rfl)
abbrev oCh2 (L : grid0.Coords) (h1 : k0_cond1 L = 1#1) : Memref sig .scVector .hbm S80x128 .f32 := (oV).slice (Rect.unit (s := S10000x128) (k0_off2 L 160#32) S80x128.size (k0_off2_inb L h1 2)) (fun _ => rfl)
abbrev oCh3 (L : grid0.Coords) (h1 : k0_cond1 L = 1#1) : Memref sig .scVector .hbm S80x128 .f32 := (oV).slice (Rect.unit (s := S10000x128) (k0_off2 L 240#32) S80x128.size (k0_off2_inb L h1 3)) (fun _ => rfl)

/-! ## The two guards -/

/-- The body's second guard (is this the last tile?), as the body computes it. -/
def lastCond (L : grid0.Coords) : BitVec 1 :=
  Scalar.cmpi CmpIPredicate.ne (Scalar.extui (Scalar.cmpi CmpIPredicate.eq (Scalar.addi (Scalar.muli (BitVec.ofNat 32 (L 1).val) 2#32) (BitVec.ofNat 32 (L 0).val)) 31#32)) 0#32

theorem not_last_of_full : ∀ L : grid0.Coords, k0_cond1 L = 1#1 → ¬ lastCond L = 1#1 := by decide +kernel
theorem last_of_not_full : ∀ L : grid0.Coords, ¬ k0_cond1 L = 1#1 → lastCond L = 1#1 := by decide +kernel
/-- A full tile's number is below 31; the last tile is subcore 15 of SparseCore 1. -/
theorem full_lt : ∀ L : grid0.Coords, k0_cond1 L = 1#1 → 2 * (L 1).val + (L 0).val < 31 := by decide +kernel
theorem last_eq : ∀ L : grid0.Coords, ¬ k0_cond1 L = 1#1 → (L 0).val = 1 ∧ (L 1).val = 15 := by decide +kernel

/-! ## A tile's eight DMA semaphores and two scratch buffers, out of its own storage -/

abbrev gsem0 : DmaSem sig := ((cc0_scratch2.slice (Rect.unit (s := S4) ![0] S1.size inb_S4_S1_0)).squeeze S_ squeezes_S1_S_).sem
abbrev gsem1 : DmaSem sig := ((cc0_scratch2.slice (Rect.unit (s := S4) ![1] S1.size inb_S4_S1_1)).squeeze S_ squeezes_S1_S_).sem
abbrev gsem2 : DmaSem sig := ((cc0_scratch2.slice (Rect.unit (s := S4) ![2] S1.size inb_S4_S1_2)).squeeze S_ squeezes_S1_S_).sem
abbrev gsem3 : DmaSem sig := ((cc0_scratch2.slice (Rect.unit (s := S4) ![3] S1.size inb_S4_S1_3)).squeeze S_ squeezes_S1_S_).sem
abbrev ssem : DmaSem sig := cc0_scratch3.sem
abbrev asem : DmaSem sig := cc0_scoped0.sem
abbrev bsem : DmaSem sig := cc0_scoped1.sem
abbrev csem : DmaSem sig := cc0_scoped2.sem

section Cells

local notation "𝕄" => MT nD τ sig (HIx 1) (Elt F) ℕ UU ℕ

variable (d : Dev nD) (L : grid0.Coords)

abbrev cell (k : DmaSem sig) : GSem nD τ sig := (V d (cV L) (jV L), SemLoc.dma k)

theorem cell_mem (k : DmaSem sig) : cell d L k ∈ ownCells (V d (cV L) (jV L)) :=
  mem_ownCells.mpr ⟨rfl, by show (SemLoc.dma k : SemLoc sig).isScoped .scVector = true; revert k; decide⟩

theorem cell_ne {k k' : DmaSem sig} (h : k ≠ k') : cell d L k ≠ cell d L k' := fun e => h (by simpa [cell] using e)

/-- The tile's eight DMA semaphores, all at zero, taken out of its own cells one by one. -/
theorem ownSems0_V :
    (ownSems0 (V d (cV L) (jV L)) : sProp 𝕄)
      = iprop(semVal (cell d L gsem0) 0 ∗ semVal (cell d L gsem1) 0 ∗ semVal (cell d L gsem2) 0 ∗ semVal (cell d L gsem3) 0
          ∗ semVal (cell d L ssem) 0 ∗ semVal (cell d L asem) 0 ∗ semVal (cell d L bsem) 0 ∗ semVal (cell d L csem) 0
          ∗ bigSep (((((((((ownCells (V d (cV L) (jV L))).erase (cell d L gsem0)).erase (cell d L gsem1)).erase (cell d L gsem2)).erase (cell d L gsem3)).erase
              (cell d L ssem)).erase (cell d L asem)).erase (cell d L bsem)).erase (cell d L csem)) fun g => semVal g 0) := by
  unfold SparseCore.Cfg.ownSems0
  rw [SparseCore.bigSep_erase' (cell_mem d L gsem0),
    SparseCore.bigSep_erase' (Finset.mem_erase.mpr ⟨cell_ne d L (by decide), cell_mem d L gsem1⟩),
    SparseCore.bigSep_erase' (Finset.mem_erase.mpr ⟨cell_ne d L (by decide), Finset.mem_erase.mpr ⟨cell_ne d L (by decide), cell_mem d L gsem2⟩⟩),
    SparseCore.bigSep_erase' (Finset.mem_erase.mpr ⟨cell_ne d L (by decide), Finset.mem_erase.mpr ⟨cell_ne d L (by decide), Finset.mem_erase.mpr ⟨cell_ne d L (by decide), cell_mem d L gsem3⟩⟩⟩),
    SparseCore.bigSep_erase' (Finset.mem_erase.mpr ⟨cell_ne d L (by decide), Finset.mem_erase.mpr ⟨cell_ne d L (by decide), Finset.mem_erase.mpr ⟨cell_ne d L (by decide),
      Finset.mem_erase.mpr ⟨cell_ne d L (by decide), cell_mem d L ssem⟩⟩⟩⟩),
    SparseCore.bigSep_erase' (Finset.mem_erase.mpr ⟨cell_ne d L (by decide), Finset.mem_erase.mpr ⟨cell_ne d L (by decide), Finset.mem_erase.mpr ⟨cell_ne d L (by decide),
      Finset.mem_erase.mpr ⟨cell_ne d L (by decide), Finset.mem_erase.mpr ⟨cell_ne d L (by decide), cell_mem d L asem⟩⟩⟩⟩⟩),
    SparseCore.bigSep_erase' (Finset.mem_erase.mpr ⟨cell_ne d L (by decide), Finset.mem_erase.mpr ⟨cell_ne d L (by decide), Finset.mem_erase.mpr ⟨cell_ne d L (by decide),
      Finset.mem_erase.mpr ⟨cell_ne d L (by decide), Finset.mem_erase.mpr ⟨cell_ne d L (by decide), Finset.mem_erase.mpr ⟨cell_ne d L (by decide), cell_mem d L bsem⟩⟩⟩⟩⟩⟩),
    SparseCore.bigSep_erase' (Finset.mem_erase.mpr ⟨cell_ne d L (by decide), Finset.mem_erase.mpr ⟨cell_ne d L (by decide), Finset.mem_erase.mpr ⟨cell_ne d L (by decide),
      Finset.mem_erase.mpr ⟨cell_ne d L (by decide), Finset.mem_erase.mpr ⟨cell_ne d L (by decide), Finset.mem_erase.mpr ⟨cell_ne d L (by decide),
      Finset.mem_erase.mpr ⟨cell_ne d L (by decide), cell_mem d L csem⟩⟩⟩⟩⟩⟩⟩)]

/-- The tile's two scratch buffers (the index list, the gathered rows), at some contents, out of its own buffers. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

end Cells

end Cert.Proof.IdealBase

end
-- ==== Proof.IdealValue.lean ====
/-
  What the moved words are, index by index: the list a full tile fetches is its stretch of the index array; a window of
  the list names, entry by entry, rows of the table; the gather puts those rows, column by column, into a slot of the row
  scratch, and the four slots do not overlap, so each reads back as its own gather's rows; and a piece of the result
  written whole holds, at the image of each index, the value written there.
-/
import proofs.«212854_g59167469470367_cont_9to1c4b_422_3_alg».proof.Proof.IdealBase
import proofs.«212854_g59167469470367_cont_9to1c4b_422_3_alg».proof.Proof.RowGather
import Idealize.ShloMosaic.Lib.ValueIdx
import Idealize.ShloMosaic.Lib.Writes

noncomputable section

namespace Cert.Proof.IdealValue

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.ValueIdx Cert.Proof.IdealBase Cert.Proof.RowGather

variable {F : FTy → Type}

local notation "tV" => (Memref.whole Cert.KernelIdeal.main_arg3_scv : Memref Cert.KernelIdeal.sig Kind.scVector Space.hbm Cert.KernelIdeal.S100000x128 EltTy.f32)
local notation "zV" => (Memref.whole Cert.KernelIdeal.main_arg1_scv : Memref Cert.KernelIdeal.sig Kind.scVector Space.hbm Cert.KernelIdeal.S10000 EltTy.i32)
local notation "oV" => (Memref.whole Cert.KernelIdeal.main_v0_scv : Memref Cert.KernelIdeal.sig Kind.scVector Space.hbm Cert.KernelIdeal.S10000x128 EltTy.f32)
local notation "lV" => (Memref.whole Cert.KernelIdeal.cc0_scratch0 : Memref Cert.KernelIdeal.sig Kind.scVector Space.vmem Cert.KernelIdeal.S320 EltTy.i32)
local notation "rV" => (Memref.whole Cert.KernelIdeal.cc0_scratch1 : Memref Cert.KernelIdeal.sig Kind.scVector Space.vmem Cert.KernelIdeal.S4x80x128 EltTy.f32)

/-- The first row of tile `L`: 320 times its number `2·s + c`. -/
def baseRow (L : grid0.Coords) : ℕ := 640 * (L 1).val + 320 * (L 0).val

theorem baseRow_lt (L : grid0.Coords) (h1 : k0_cond1 L = 1#1) : baseRow L + 320 ≤ 9920 := by
  have := full_lt L h1; unfold baseRow; omega

/-- What a full tile fetches into its list: entry `i` is the index array's entry `baseRow + i`. -/
theorem zSl_read (L : grid0.Coords) (h1 : k0_cond1 L = 1#1) (Z : S10000.Idx → Elt F .i32) (i : S320.Idx) :
    (zSl L h1).view.read (Elt F) Z i = Z (ix1 ⟨baseRow L + (i 0).val, by have := baseRow_lt L h1; have h : (i 0).val < 320 := (i 0).isLt; omega⟩) := by
  rw [View.read_apply, cast_eq]
  refine congrArg Z (funext fun a => ?_)
  match a with
  | ⟨0, _⟩ =>
    refine Fin.ext ?_
    show (k0_off1 L) 0 + 1 * (i 0).val = baseRow L + (i 0).val
    rw [k0_off1_eq]; simp [baseRow]

/-- A window of the list scratch reads the list at its offset: entry `j` of the window at `lo` is entry `lo + j`. -/
theorem lWin_read (lo : ℕ) (h : ∀ a, (![lo] : Fin 1 → ℕ) a + S80.size a ≤ S320.size a) (C : S320.Idx → Elt F .i32) (j : S80.Idx) :
    ((lV).slice (Rect.unit (s := S320) ![lo] S80.size h) (fun _ => rfl)).view.read (Elt F) C j
      = C (ix1 ⟨lo + (j 0).val, by have h0 := h 0; have hj : (j 0).val < 80 := (j 0).isLt; simp at h0; omega⟩) := by
  rw [View.read_apply, cast_eq]
  refine congrArg C (funext fun a => ?_)
  match a with
  | ⟨0, _⟩ => exact Fin.ext (by show lo + 1 * (j 0).val = lo + (j 0).val; omega)

/-- Two slots of the row scratch share no element. -/
theorem slot_disjoint (k k' : ℕ) (hk : ∀ a, (![k, 0, 0] : Fin 3 → ℕ) a + S1x80x128.size a ≤ S4x80x128.size a)
    (hk' : ∀ a, (![k', 0, 0] : Fin 3 → ℕ) a + S1x80x128.size a ≤ S4x80x128.size a) (hne : k ≠ k') :
    Disjoint (((rV).slice (Rect.unit (s := S4x80x128) ![k, 0, 0] S1x80x128.size hk) (fun _ => rfl)).squeeze S80x128 squeezes_S1x80x128_S80x128).view.set
      (((rV).slice (Rect.unit (s := S4x80x128) ![k', 0, 0] S1x80x128.size hk') (fun _ => rfl)).squeeze S80x128 squeezes_S1x80x128_S80x128).view.set := by
  show Disjoint ((((rV).view.slice (Rect.unit (s := S4x80x128) ![k, 0, 0] S1x80x128.size hk)).reshape S80x128 squeezes_S1x80x128_S80x128.numel_eq).set)
    ((((rV).view.slice (Rect.unit (s := S4x80x128) ![k', 0, 0] S1x80x128.size hk')).reshape S80x128 squeezes_S1x80x128_S80x128.numel_eq).set)
  rw [View.set_reshape, View.set_reshape, Memref.view_whole, View.set_slice_whole, View.set_slice_whole]
  refine Rect.unit_disjoint 0 ?_
  show k + 1 ≤ k' ∨ k' + 1 ≤ k
  omega

/-- Slot `k` of the row scratch, for any slot number. -/
abbrev slotK (k : ℕ) (hk : ∀ a, (![k, 0, 0] : Fin 3 → ℕ) a + S1x80x128.size a ≤ S4x80x128.size a) : Memref sig .scVector .vmem S80x128 .f32 :=
  ((rV).slice (Rect.unit (s := S4x80x128) ![k, 0, 0] S1x80x128.size hk) (fun _ => rfl)).squeeze S80x128 squeezes_S1x80x128_S80x128

/-- Reading one slot after a write into another sees what the row scratch held before that write. -/
theorem slot_read_other (k k' : ℕ) (hk hk') (hne : k ≠ k') (f : S4x80x128.Idx → Elt F .f32) (w : S80x128.Idx → Elt F .f32) :
    (slotK k hk).view.read (Elt F) ((slotK k' hk').view.write (Elt F) f w Finset.univ) = (slotK k hk).view.read (Elt F) f := by
  funext y
  rw [View.read_apply, View.read_apply, View.write_of_not_mem]
  rw [View.setOn_univ]
  exact Finset.disjoint_left.mp (slot_disjoint k k' hk hk' hne) (View.emb_mem_set _ y)

/-- After the four gathers each slot reads as its own gather's rows, whatever the row scratch held before. -/
theorem slots_read0 (fr : S4x80x128.Idx → Elt F .f32) (g0 g1 g2 g3 : S80x128.Idx → Elt F .f32) :
    slot0.view.read (Elt F) (slot3.view.write (Elt F) (slot2.view.write (Elt F) (slot1.view.write (Elt F) (slot0.view.write (Elt F) fr g0 Finset.univ) g1 Finset.univ) g2 Finset.univ) g3 Finset.univ) = g0 := by
  rw [slot_read_other 0 3 _ _ (by decide), slot_read_other 0 2 _ _ (by decide), slot_read_other 0 1 _ _ (by decide), View.read_write_univ]
theorem slots_read1 (fr : S4x80x128.Idx → Elt F .f32) (g0 g1 g2 g3 : S80x128.Idx → Elt F .f32) :
    slot1.view.read (Elt F) (slot3.view.write (Elt F) (slot2.view.write (Elt F) (slot1.view.write (Elt F) (slot0.view.write (Elt F) fr g0 Finset.univ) g1 Finset.univ) g2 Finset.univ) g3 Finset.univ) = g1 := by
  rw [slot_read_other 1 3 _ _ (by decide), slot_read_other 1 2 _ _ (by decide), View.read_write_univ]
theorem slots_read2 (fr : S4x80x128.Idx → Elt F .f32) (g0 g1 g2 g3 : S80x128.Idx → Elt F .f32) :
    slot2.view.read (Elt F) (slot3.view.write (Elt F) (slot2.view.write (Elt F) (slot1.view.write (Elt F) (slot0.view.write (Elt F) fr g0 Finset.univ) g1 Finset.univ) g2 Finset.univ) g3 Finset.univ) = g2 := by
  rw [slot_read_other 2 3 _ _ (by decide), View.read_write_univ]
theorem slots_read3 (fr : S4x80x128.Idx → Elt F .f32) (g0 g1 g2 g3 : S80x128.Idx → Elt F .f32) :
    slot3.view.read (Elt F) (slot3.view.write (Elt F) (slot2.view.write (Elt F) (slot1.view.write (Elt F) (slot0.view.write (Elt F) fr g0 Finset.univ) g1 Finset.univ) g2 Finset.univ) g3 Finset.univ) = g3 := by
  rw [View.read_write_univ]

/-- Entry `k` of a list of 80 words, in row-major order, is the word at index `k`. -/
theorem rows_val {o z : ℕ} (idx : S80.Idx → Elt F .i32) (hn : S80.numel = o) (h : ∀ x, (idx x).toNat < z) (k : Fin o) :
    (SparseCore.rows idx hn h k).val = (idx (ix1 ⟨k.val, by have h80 : S80.numel = 80 := (by decide); have := k.isLt; omega⟩)).toNat := by
  unfold SparseCore.rows
  show (idx (S80.rowMajor.symm (k.cast hn.symm))).toNat = _
  congr 2
  rw [Equiv.symm_apply_eq]
  exact Fin.ext (by rw [Shape.rowMajor_val_one]; rfl)

/-- The gather's rows at an index: row `y₀` of the gathered block is the table's row the list names for `y₀`, column by column. -/
theorem gather_at (Tb : S100000x128.Idx → Elt F .f32)
    (r : Fin (S80x128.size gathers_S100000x128_S80x128.axis') → Fin (S100000x128.size gathers_S100000x128_S80x128.axis)) (y : S80x128.Idx) :
    SparseCore.gatherPayload gathers_S100000x128_S80x128 (tSl.view.read (Elt F) Tb) r y = Tb (ix2 (r (y 0)) (y 1)) := by
  unfold SparseCore.gatherPayload
  rw [View.read_apply, cast_eq]
  refine congrArg Tb (funext fun a => ?_)
  match a with
  | ⟨0, _⟩ =>
    refine Fin.ext ?_
    show 0 + 1 * (gathers_S100000x128_S80x128.idx r y 0).val = (r (y 0)).val
    rw [show (gathers_S100000x128_S80x128.idx r y 0) = r (y 0) from Shape.Gathers.idx_axis gathers_S100000x128_S80x128 r y]; omega
  | ⟨1, _⟩ =>
    refine Fin.ext ?_
    show 0 + 1 * (gathers_S100000x128_S80x128.idx r y 1).val = (y 1).val
    rw [Shape.Gathers.idx_of_ne gathers_S100000x128_S80x128 r y 1 (by decide)]; show 0 + 1 * (y 1).val = _; omega

/-- The fetched list, then a window of it, then the rows it names: entry `k` of the window at `lo` of a list fetched
    from `base` on names the row whose number is the index array's word at `base + lo + k`. -/
theorem window_rows_val (L : grid0.Coords) (h1 : k0_cond1 L = 1#1) (Z : S10000.Idx → Elt F .i32) (fl : S320.Idx → Elt F .i32)
    (lo : ℕ) (h : ∀ a, (![lo] : Fin 1 → ℕ) a + S80.size a ≤ S320.size a) {o z : ℕ} (hn : S80.numel = o)
    (hin : ∀ x, (((lV).slice (Rect.unit (s := S320) ![lo] S80.size h) (fun _ => rfl)).view.read (Elt F)
      (View.write (Elt F) (lV).view fl (ReadAs.same.apply ((zSl L h1).view.read (Elt F) Z)) Finset.univ) x).toNat < z) (k : Fin o)
    (hb : baseRow L + lo + k.val < 10000) :
    (SparseCore.rows (((lV).slice (Rect.unit (s := S320) ![lo] S80.size h) (fun _ => rfl)).view.read (Elt F)
      (View.write (Elt F) (lV).view fl (ReadAs.same.apply ((zSl L h1).view.read (Elt F) Z)) Finset.univ)) hn hin k).val
      = (Z (ix1 ⟨baseRow L + lo + k.val, hb⟩)).toNat := by
  rw [rows_val, lWin_read]
  simp only [Memref.view_whole, View.write_whole_univ]
  show ((zSl L h1).view.read (Elt F) Z _).toNat = _
  rw [zSl_read]
  congr 3
  exact Fin.ext (by show baseRow L + (lo + k.val) = baseRow L + lo + k.val; omega)

/-- An element of a piece of the result is the image of an index of the piece: its row is the piece's first row plus
    the index's row, its column the index's column. -/
theorem oPiece_mem (off : Fin 2 → ℕ) (lo : ℕ) (hoff : off = ![lo, 0]) (h : ∀ a, off a + S80x128.size a ≤ S10000x128.size a)
    {x : S10000x128.Idx} (hx : x ∈ ((oV).slice (Rect.unit (s := S10000x128) off S80x128.size h) (fun _ => rfl)).view.set) :
    ∃ y : S80x128.Idx, ((oV).slice (Rect.unit (s := S10000x128) off S80x128.size h) (fun _ => rfl)).view.emb y = x
      ∧ (x 0).val = lo + (y 0).val ∧ (x 1).val = (y 1).val := by
  subst hoff
  obtain ⟨y, -, rfl⟩ := Finset.mem_map.mp hx
  refine ⟨y, rfl, ?_, ?_⟩
  · show lo + 1 * (y 0).val = _; omega
  · show 0 + 1 * (y 1).val = _; omega

/-- A piece of the result written whole with `w` holds `w` at each of its indices. -/
theorem oPiece_written (off : Fin 2 → ℕ) (h : ∀ a, off a + S80x128.size a ≤ S10000x128.size a)
    (fo : S10000x128.Idx → Elt F .f32) (w : S80x128.Idx → Elt F .f32) (y : S80x128.Idx) :
    ((oV).slice (Rect.unit (s := S10000x128) off S80x128.size h) (fun _ => rfl)).view.writes (Elt F) fo [⟨Rect.whole S80x128, w⟩]
      (((oV).slice (Rect.unit (s := S10000x128) off S80x128.size h) (fun _ => rfl)).view.emb y) = w y := by
  have e := View.read_writes_cons_emb (Val := Elt F) ((oV).slice (Rect.unit (s := S10000x128) off S80x128.size h) (fun _ => rfl)).view fo (Rect.whole S80x128) w [] y
  have hy : (Rect.whole S80x128).emb y = y := Rect.emb_whole_apply S80x128 y
  rw [hy, View.read_apply, cast_eq] at e
  exact e

end Cert.Proof.IdealValue
end
-- ==== Proof.RowRanges.lean ====
/-
  The rows of the result array, partitioned. The 10000 rows are dealt to 2 cores and 16 tiles per core in
  runs of 320 consecutive rows: tile s of core c owns rows 640 s + 320 c … 640 s + 320 c + 319, which it
  handles in four chunks of 80 rows. The 32 runs are pairwise disjoint and cover rows 0 … 10239, hence
  every row below 10000; the last run (core 1, tile 15) starts at row 9920 and is cut short by the end of
  the array, so only its first chunk holds rows.
-/
import Idealize.ShloMosaic.PureOps
import Idealize.ShloMosaic.Lib.ValueIdx

namespace Cert.Proof.RowRanges

open Idealize.ShloMosaic

/-- The result array's shape: 10000 rows of 128 columns. -/
abbrev SO : Shape := ⟨2, ![10000, 128]⟩

/-- The indices whose row lies in `lo … lo + n − 1` (every column). -/
def rowsOf (lo n : ℕ) : Finset SO.Idx := Finset.univ.filter fun x => lo ≤ (x 0).val ∧ (x 0).val < lo + n

theorem mem_rowsOf {lo n : ℕ} {x : SO.Idx} : x ∈ rowsOf lo n ↔ lo ≤ (x 0).val ∧ (x 0).val < lo + n := by
  unfold rowsOf
  rw [Finset.mem_filter]
  exact ⟨fun h => h.2, fun h => ⟨Finset.mem_univ x, h⟩⟩

/-- A unit-stride rectangle of `n` whole rows from row `lo` is that run of rows. -/
theorem unit_set_eq (lo n : ℕ) (off size : Fin 2 → ℕ) (hoff : off = ![lo, 0]) (hsize : size = ![n, 128])
    (h : ∀ a, off a + size a ≤ SO.size a) : (Rect.unit (s := SO) off size h).set = rowsOf lo n := by
  subst hoff hsize
  ext x
  rw [Rect.mem_set_unit, mem_rowsOf]
  constructor
  · intro hx
    exact hx 0
  · intro hx a
    match a with
    | ⟨0, _⟩ => exact hx
    | ⟨1, _⟩ =>
      have h1 : (x 1).val < 128 := (x 1).isLt
      exact ⟨Nat.zero_le _, by show (x 1).val < 0 + 128; omega⟩

/-- Runs of rows one of which ends before the other begins share no index. -/
theorem rowsOf_disjoint {lo n lo' n' : ℕ} (h : lo + n ≤ lo' ∨ lo' + n' ≤ lo) : Disjoint (rowsOf lo n) (rowsOf lo' n') := by
  rw [Finset.disjoint_left]
  intro x hx hx'
  rw [mem_rowsOf] at hx hx'
  omega

/-- A run of `a + b` rows is its first `a` rows and the `b` after them. -/
theorem rowsOf_add (lo a b : ℕ) : rowsOf lo (a + b) = rowsOf lo a ∪ rowsOf (lo + a) b := by
  ext x
  rw [Finset.mem_union, mem_rowsOf, mem_rowsOf, mem_rowsOf]
  omega

/-- The rows of tile `s` of core `c`: 320 from row `640 s + 320 c`. -/
def tileRows (c s : ℕ) : Finset SO.Idx := rowsOf (640 * s + 320 * c) 320

/-- The rows of core `c`: those of its 16 tiles. -/
def coreRows (c : ℕ) : Finset SO.Idx := (Finset.univ : Finset (Fin 16)).biUnion fun s => tileRows c s.val

/-- Two tiles of one core own disjoint rows: their runs start 640 apart and are 320 long. -/
theorem tileRows_disjoint (c : ℕ) : ∀ s ∈ (Finset.univ : Finset (Fin 16)), ∀ s' ∈ (Finset.univ : Finset (Fin 16)),
    s ≠ s' → Disjoint (tileRows c s.val) (tileRows c s'.val) := by
  intro s _ s' _ hne
  have hv : s.val ≠ s'.val := fun e => hne (Fin.ext e)
  exact rowsOf_disjoint (by omega)

theorem mem_coreRows {c : ℕ} {x : SO.Idx} :
    x ∈ coreRows c ↔ ∃ s : Fin 16, 640 * s.val + 320 * c ≤ (x 0).val ∧ (x 0).val < 640 * s.val + 320 * c + 320 := by
  unfold coreRows tileRows
  rw [Finset.mem_biUnion]
  constructor
  · rintro ⟨s, -, hs⟩
    exact ⟨s, mem_rowsOf.1 hs⟩
  · rintro ⟨s, hs⟩
    exact ⟨s, Finset.mem_univ s, mem_rowsOf.2 hs⟩

/-- The two cores own disjoint rows: core 0 the rows whose run number (row / 320) is even, core 1 those whose run
    number is odd. -/
theorem coreRows_disjoint : Disjoint (coreRows 0) (coreRows 1) := by
  rw [Finset.disjoint_left]
  intro x hx hx'
  obtain ⟨s, hs⟩ := mem_coreRows.1 hx
  obtain ⟨s', hs'⟩ := mem_coreRows.1 hx'
  omega

/-- Every row belongs to one of the two cores: row `r` lies in run `r / 320`, a number below 32, which is tile
    `(r / 320) / 2` of core `(r / 320) % 2`. -/
theorem coreRows_cover : coreRows 0 ∪ coreRows 1 = (Finset.univ : Finset SO.Idx) := by
  ext x
  rw [Finset.mem_union, mem_coreRows, mem_coreRows]
  refine ⟨fun _ => Finset.mem_univ x, fun _ => ?_⟩
  have h : (x 0).val < 10000 := (x 0).isLt
  have hs : (x 0).val / 320 / 2 < 16 := by omega
  rcases Nat.mod_two_eq_zero_or_one ((x 0).val / 320) with h0 | h1
  · exact Or.inl ⟨⟨(x 0).val / 320 / 2, hs⟩, by show 640 * ((x 0).val / 320 / 2) + 320 * 0 ≤ _; omega,
      by show _ < 640 * ((x 0).val / 320 / 2) + 320 * 0 + 320; omega⟩
  · exact Or.inr ⟨⟨(x 0).val / 320 / 2, hs⟩, by show 640 * ((x 0).val / 320 / 2) + 320 * 1 ≤ _; omega,
      by show _ < 640 * ((x 0).val / 320 / 2) + 320 * 1 + 320; omega⟩

/-- A tile's 320 rows are its four chunks of 80. -/
theorem tileRows_full (c s : ℕ) : tileRows c s = rowsOf (640 * s + 320 * c) 80 ∪ (rowsOf (640 * s + 320 * c + 80) 80
    ∪ (rowsOf (640 * s + 320 * c + 160) 80 ∪ rowsOf (640 * s + 320 * c + 240) 80)) := by
  ext x
  unfold tileRows
  simp only [Finset.mem_union, mem_rowsOf]
  omega

/-- The last run starts at row 9920: of its rows 9920 … 10239 only the first 80 are rows of the array. -/
theorem tileRows_last : tileRows 1 15 = rowsOf 9920 80 := by
  ext x
  unfold tileRows
  rw [mem_rowsOf, mem_rowsOf]
  have h : (x 0).val < 10000 := (x 0).isLt
  omega

end Cert.Proof.RowRanges
-- ==== Proof.IdealTile.lean ====
/-
  One vector subcore's task of the row gather. Tile (c, s) — subcore s of SparseCore c, number w = 2·s + c — is handed a
  read share of the index array and of the table and, outright, rows 320·w … 320·w + 319 of the result (the last tile:
  what is left of them, rows 9920 … 9999). It ends holding the same shares and its rows of the result at the gathered
  rows: row i of the result is the table's row number z i.
-/
import proofs.«212854_g59167469470367_cont_9to1c4b_422_3_alg».proof.Proof.IdealBase
import proofs.«212854_g59167469470367_cont_9to1c4b_422_3_alg».proof.Proof.IdealValue
import proofs.«212854_g59167469470367_cont_9to1c4b_422_3_alg».proof.Proof.RowGather
import proofs.«212854_g59167469470367_cont_9to1c4b_422_3_alg».proof.Proof.RowRanges

noncomputable section

namespace Cert.Proof.IdealTile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.ValueIdx Cert.Proof.IdealBase Cert.Proof.IdealValue Cert.Proof.RowGather Cert.Proof.RowRanges

variable {F : FTy → Type}

local notation "𝕄" => MT nD τ sig (HIx 1) (Elt F) ℕ UU ℕ

local notation "tV" => (Memref.whole Cert.KernelIdeal.main_arg3_scv : Memref Cert.KernelIdeal.sig Kind.scVector Space.hbm Cert.KernelIdeal.S100000x128 EltTy.f32)
local notation "zV" => (Memref.whole Cert.KernelIdeal.main_arg1_scv : Memref Cert.KernelIdeal.sig Kind.scVector Space.hbm Cert.KernelIdeal.S10000 EltTy.i32)
local notation "oV" => (Memref.whole Cert.KernelIdeal.main_v0_scv : Memref Cert.KernelIdeal.sig Kind.scVector Space.hbm Cert.KernelIdeal.S10000x128 EltTy.f32)
local notation "lV" => (Memref.whole Cert.KernelIdeal.cc0_scratch0 : Memref Cert.KernelIdeal.sig Kind.scVector Space.vmem Cert.KernelIdeal.S320 EltTy.i32)
local notation "rV" => (Memref.whole Cert.KernelIdeal.cc0_scratch1 : Memref Cert.KernelIdeal.sig Kind.scVector Space.vmem Cert.KernelIdeal.S4x80x128 EltTy.f32)

variable (m : (ℓ : Loc nD τ sig) → Buf (Elt F) ℓ)

variable [FloatOps F]

variable (d : Dev nD) (L : grid0.Coords)

/-- What a tile is handed: shares of the index array and of the table, its rows of the result at the launch contents. -/
abbrev tileIn (qz qt : PosShare TreeShare) : sProp 𝕄 :=
  iprop((zLoc d ↦{qz} m (zLoc d)) ∗ (tLoc d ↦{qt} m (tLoc d)) ∗ (oLoc d ↦[tileRows (L 0).val (L 1).val]{fullShare} m (oLoc d)))
/-- What it hands back: the same shares, its rows of the result at the gathered rows. -/
abbrev tileOut (qz qt : PosShare TreeShare) : sProp 𝕄 :=
  iprop((zLoc d ↦{qz} m (zLoc d)) ∗ (tLoc d ↦{qt} m (tLoc d))
    ∗ (oLoc d ↦[tileRows (L 0).val (L 1).val]{fullShare} gatheredRows (m (tLoc d)) (m (zLoc d))))

omit [FloatOps F] in
/-- Every word the list scratch holds after the index fetch is a word of the index array, so below the table's row
    count: whatever window of the list a gather reads, whatever the scratch held before. -/
theorem list_lt (hz : ∀ j, (m (zLoc d) j).toNat < 100000) (k0_h1 : k0_cond1 L = 1#1)
    (fl : Buf (Elt F) ((V d (cV L) (jV L)).loc cc0_scratch0)) (off : Fin 1 → ℕ) (h : ∀ a, off a + S80.size a ≤ S320.size a) :
    ∀ x, (((lV).slice (Rect.unit (s := S320) off S80.size h) (fun _ => rfl)).view.read (Elt F)
      (View.write (Elt F) (lV).view fl (ReadAs.same.apply (((zV).slice (Rect.unit (s := S10000) (k0_off1 L) S320.size (k0_off1_inb L k0_h1)) (fun _ => rfl)).view.read (Elt F) (m (zLoc d)))) Finset.univ) x).toNat
      < S100000x128.size gathers_S100000x128_S80x128.axis := by
  intro x
  simp only [Memref.view_whole, View.write_whole_univ]
  simp only [View.read_apply, cast_eq]
  exact hz _

omit [FloatOps F] in
/-- A piece of the result a full tile wrote — rows `baseRow + lo …` of it, from the gather over the list's window at
    `lo` — holds the gathered rows: row `i` is the table's row number `z i`. -/
theorem chunk_value (hz : ∀ j, (m (zLoc d) j).toNat < 100000) (k0_h1 : k0_cond1 L = 1#1) (fo : Buf (Elt F) (oLoc d))
    (lo : ℕ) (hlo : lo + 80 ≤ 320) (off : Fin 2 → ℕ) (hoff : off = ![baseRow L + lo, 0]) (h : ∀ a, off a + S80x128.size a ≤ S10000x128.size a)
    (P : S80x128.Idx → Elt F .f32)
    (r : Fin (S80x128.size gathers_S100000x128_S80x128.axis') → Fin (S100000x128.size gathers_S100000x128_S80x128.axis))
    (hP : P = SparseCore.gatherPayload gathers_S100000x128_S80x128 (tSl.view.read (Elt F) (m (tLoc d))) r)
    (hr : ∀ (k : Fin (S80x128.size gathers_S100000x128_S80x128.axis')) (hb : baseRow L + lo + k.val < 10000), (r k).val = (m (zLoc d) (ix1 ⟨baseRow L + lo + k.val, hb⟩)).toNat) :
    ∀ x ∈ ((oV).slice (Rect.unit (s := S10000x128) off S80x128.size h) (fun _ => rfl)).view.set,
      ((oV).slice (Rect.unit (s := S10000x128) off S80x128.size h) (fun _ => rfl)).view.writes (Elt F) fo [⟨Rect.whole S80x128, P⟩] x
        = gatheredRows (m (tLoc d)) (m (zLoc d)) x := by
  intro x hx
  obtain ⟨y, rfl, hx0, hx1⟩ := oPiece_mem off (baseRow L + lo) hoff h hx
  rw [oPiece_written, hP, gather_at]
  unfold gatheredRows
  have hy0 : (y 0).val < 80 := (y 0).isLt
  have hbr := baseRow_lt L k0_h1
  refine congrArg (m (tLoc d)) (funext fun a => ?_)
  match a with
  | ⟨0, _⟩ =>
    refine Fin.ext ?_
    show (r (y 0)).val = (rowOfWord _).val
    rw [hr (y 0) (by show baseRow L + lo + (y 0).val < 10000; omega), rowOfWord_val (hz _)]
    congr 3
    exact Fin.ext hx0.symm
  | ⟨1, _⟩ => exact Fin.ext hx1.symm

omit [FloatOps F] in
/-- The same as an exchange of what is held: the piece at what the copy out wrote, for the piece at the gathered rows. -/
theorem chunk_done (hz : ∀ j, (m (zLoc d) j).toNat < 100000) (k0_h1 : k0_cond1 L = 1#1) (fo : Buf (Elt F) (oLoc d))
    (lo : ℕ) (hlo : lo + 80 ≤ 320) (off : Fin 2 → ℕ) (hoff : off = ![baseRow L + lo, 0]) (h : ∀ a, off a + S80x128.size a ≤ S10000x128.size a)
    (n0 : ℕ) (hset : ((oV).slice (Rect.unit (s := S10000x128) off S80x128.size h) (fun _ => rfl)).view.set = rowsOf n0 80)
    (P : S80x128.Idx → Elt F .f32)
    (r : Fin (S80x128.size gathers_S100000x128_S80x128.axis') → Fin (S100000x128.size gathers_S100000x128_S80x128.axis))
    (hP : P = SparseCore.gatherPayload gathers_S100000x128_S80x128 (tSl.view.read (Elt F) (m (tLoc d))) r)
    (hr : ∀ (k : Fin (S80x128.size gathers_S100000x128_S80x128.axis')) (hb : baseRow L + lo + k.val < 10000), (r k).val = (m (zLoc d) (ix1 ⟨baseRow L + lo + k.val, hb⟩)).toNat) :
    (((oV).slice (Rect.unit (s := S10000x128) off S80x128.size h) (fun _ => rfl)).view.loc (V d (cV L) (jV L))
        ↦[((oV).slice (Rect.unit (s := S10000x128) off S80x128.size h) (fun _ => rfl)).view.set]{fullShare}
          ((oV).slice (Rect.unit (s := S10000x128) off S80x128.size h) (fun _ => rfl)).view.writes (Elt F) fo [⟨Rect.whole S80x128, P⟩] : sProp 𝕄)
      ⊢ (oLoc d ↦[rowsOf n0 80]{fullShare} gatheredRows (m (tLoc d)) (m (zLoc d))) := by
  rw [pointsTo_congr (chunk_value m d L hz k0_h1 fo lo hlo off hoff h P r hP hr), hset]

omit [FloatOps F] in
/-- What the last tile fetches into the first window of its list: entry `i` is the index array's entry `9920 + i`. -/
theorem zTail_read (Z : S10000.Idx → Elt F .i32) (i : S80.Idx) :
    (zTail).view.read (Elt F) Z i = Z (ix1 ⟨9920 + (i 0).val, by have h : (i 0).val < 80 := (i 0).isLt; omega⟩) := by
  rw [View.read_apply, cast_eq]
  refine congrArg Z (funext fun a => ?_)
  match a with
  | ⟨0, _⟩ => exact Fin.ext (by show 9920 + 1 * (i 0).val = 9920 + (i 0).val; omega)

omit [FloatOps F] in
/-- The first window of the list, after the last tile's fetch into it, reads as what was fetched. -/
theorem tail_window (fl : S320.Idx → Elt F .i32) (w : S80.Idx → Elt F .i32) :
    lWin0.view.read (Elt F) ((lV).view.writes (Elt F) fl [⟨Rect.unit (s := S320) ![0] S80.size inb_S320_S80_0, w⟩]) = w :=
  View.read_write_univ (v := lWin0.view) fl w

omit [FloatOps F] in
/-- Every word of that window is a word of the index array, so below the table's row count. -/
theorem tail_lt (hz : ∀ j, (m (zLoc d) j).toNat < 100000) (fl : Buf (Elt F) ((V d (cV L) (jV L)).loc cc0_scratch0)) :
    ∀ x, (lWin0.view.read (Elt F) ((lV).view.writes (Elt F) fl
      [⟨Rect.unit (s := S320) ![0] S80.size inb_S320_S80_0, ReadAs.same.apply ((zTail).view.read (Elt F) (m (zLoc d)))⟩]) x).toNat
      < S100000x128.size gathers_S100000x128_S80x128.axis := by
  intro x
  rw [tail_window]
  show ((zTail).view.read (Elt F) (m (zLoc d)) x).toNat < _
  rw [zTail_read]
  exact hz _

omit [FloatOps F] in
/-- The rows the last tile's list names: entry `k` names the row whose number is the index array's word at `9920 + k`. -/
theorem tail_rows_val (Z : S10000.Idx → Elt F .i32) (fl : S320.Idx → Elt F .i32) {o z : ℕ} (hn : S80.numel = o)
    (hin : ∀ x, (lWin0.view.read (Elt F) ((lV).view.writes (Elt F) fl
      [⟨Rect.unit (s := S320) ![0] S80.size inb_S320_S80_0, ReadAs.same.apply ((zTail).view.read (Elt F) Z)⟩]) x).toNat < z)
    (k : Fin o) (hb : 9920 + k.val < 10000) :
    (SparseCore.rows (lWin0.view.read (Elt F) ((lV).view.writes (Elt F) fl
      [⟨Rect.unit (s := S320) ![0] S80.size inb_S320_S80_0, ReadAs.same.apply ((zTail).view.read (Elt F) Z)⟩])) hn hin k).val
      = (Z (ix1 ⟨9920 + k.val, hb⟩)).toNat := by
  rw [rows_val]
  rw [tail_window]
  show ((zTail).view.read (Elt F) Z _).toNat = _
  rw [zTail_read]

omit [FloatOps F] in
/-- A piece of 80 rows of the result from row `n0` on, written with the rows a gather put in a slot, holds the gathered
    rows, when the gather's list named, entry by entry, the rows the index array's words at `n0 + k` name. -/
theorem piece_value (hz : ∀ j, (m (zLoc d) j).toNat < 100000) (fo : Buf (Elt F) (oLoc d))
    (n0 : ℕ) (hn0 : n0 + 80 ≤ 10000) (off : Fin 2 → ℕ) (hoff : off = ![n0, 0]) (h : ∀ a, off a + S80x128.size a ≤ S10000x128.size a)
    (P : S80x128.Idx → Elt F .f32)
    (r : Fin (S80x128.size gathers_S100000x128_S80x128.axis') → Fin (S100000x128.size gathers_S100000x128_S80x128.axis))
    (hP : P = SparseCore.gatherPayload gathers_S100000x128_S80x128 (tSl.view.read (Elt F) (m (tLoc d))) r)
    (hr : ∀ (k : Fin (S80x128.size gathers_S100000x128_S80x128.axis')) (hb : n0 + k.val < 10000), (r k).val = (m (zLoc d) (ix1 ⟨n0 + k.val, hb⟩)).toNat) :
    ∀ x ∈ ((oV).slice (Rect.unit (s := S10000x128) off S80x128.size h) (fun _ => rfl)).view.set,
      ((oV).slice (Rect.unit (s := S10000x128) off S80x128.size h) (fun _ => rfl)).view.writes (Elt F) fo [⟨Rect.whole S80x128, P⟩] x
        = gatheredRows (m (tLoc d)) (m (zLoc d)) x := by
  intro x hx
  obtain ⟨y, rfl, hx0, hx1⟩ := oPiece_mem off n0 hoff h hx
  rw [oPiece_written, hP, gather_at]
  unfold gatheredRows
  have hy0 : (y 0).val < 80 := (y 0).isLt
  refine congrArg (m (tLoc d)) (funext fun a => ?_)
  match a with
  | ⟨0, _⟩ =>
    refine Fin.ext ?_
    show (r (y 0)).val = (rowOfWord _).val
    rw [hr (y 0) (by show n0 + (y 0).val < 10000; omega), rowOfWord_val (hz _)]
    congr 3
    exact Fin.ext hx0.symm
  | ⟨1, _⟩ => exact Fin.ext hx1.symm

omit [FloatOps F] in
/-- The last tile's piece, rows 9920 … 9999: what the copy out wrote exchanged for the gathered rows. -/
theorem tail_done (hz : ∀ j, (m (zLoc d) j).toNat < 100000) (fo : Buf (Elt F) (oLoc d))
    (P : S80x128.Idx → Elt F .f32)
    (r : Fin (S80x128.size gathers_S100000x128_S80x128.axis') → Fin (S100000x128.size gathers_S100000x128_S80x128.axis))
    (hP : P = SparseCore.gatherPayload gathers_S100000x128_S80x128 (tSl.view.read (Elt F) (m (tLoc d))) r)
    (hr : ∀ (k : Fin (S80x128.size gathers_S100000x128_S80x128.axis')) (hb : 9920 + k.val < 10000), (r k).val = (m (zLoc d) (ix1 ⟨9920 + k.val, hb⟩)).toNat)
    (hset : (oTail).view.set = rowsOf 9920 80) :
    ((oTail).view.loc (V d (cV L) (jV L)) ↦[(oTail).view.set]{fullShare} (oTail).view.writes (Elt F) fo [⟨Rect.whole S80x128, P⟩] : sProp 𝕄)
      ⊢ (oLoc d ↦[rowsOf 9920 80]{fullShare} gatheredRows (m (tLoc d)) (m (zLoc d))) := by
  rw [pointsTo_congr (piece_value m d hz fo 9920 (by omega) ![9920, 0] rfl inb_S10000x128_S80x128_9920_0 P r hP hr), hset]

set_option maxRecDepth 65536 in
set_option maxHeartbeats 8000000 in
/-- A full tile (number below 31): the index fetch, four gathers in flight at once, each waited for and copied out to
    its 80 rows of the result, the four copies out waited for together. -/
theorem tile_full (hF : (K (F := F)).Facts) (hz : ∀ j, (m (zLoc d) j).toNat < 100000) (k0_h1 : k0_cond1 L = 1#1)
    (O : CellTallies nD τ sig (HIx 1)) (W : Waits sig (HIx 1)) (hO : ∀ g, O g none = 0) (qz qt : PosShare TreeShare) :
    iprop(levAts (K (F := F)).L (K (F := F)).lev ∗ emp ∗ tileIn m d L qz qt
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__gather_kernel L tV (Memref.isWhole_whole _) zV (Memref.isWhole_whole _) oV (Memref.isWhole_whole _)
            lV (Memref.isWhole_whole _) rV (Memref.isWhole_whole _) cc0_scratch2 cc0_scratch3 cc0_scoped0 cc0_scoped1 cc0_scoped2)
          fun _ => iprop(tileOut m d L qz qt ∗ scopedBufs (V d (cV L) (jV L)) ∗ scopedSems0 (V d (cV L) (jV L))
            ∗ ∃ W', ⌜∀ p ∈ W', p ∈ W ∨ p.2 = none⌝ ∗ owes (V d (cV L) (jV L)) O W') := by
  have k0_h2 : ¬ lastCond L = 1#1 := not_last_of_full L k0_h1
  unfold lastCond at k0_h2
  have _plan : Transfers.BatchOf (V d (cV L) (jV L)) (SemLoc.dma (sig := sig) ssem) 4 := trivial
  -- the tile's rows are the four pieces the body slices
  have hs0 : (oCh0 L k0_h1).view.set = rowsOf (640 * (L 1).val + 320 * (L 0).val) 80 := by
    refine (View.set_slice_whole main_v0_scv _).trans ?_
    exact unit_set_eq _ 80 _ _ (by rw [show (0#32 : BitVec 32) = BitVec.ofNat 32 (80 * (0 : Fin 4).val) from rfl, k0_off2_eq]; simp) rfl _
  have hs1 : (oCh1 L k0_h1).view.set = rowsOf (640 * (L 1).val + 320 * (L 0).val + 80) 80 := by
    refine (View.set_slice_whole main_v0_scv _).trans ?_
    exact unit_set_eq _ 80 _ _ (by rw [show (80#32 : BitVec 32) = BitVec.ofNat 32 (80 * (1 : Fin 4).val) from rfl, k0_off2_eq]; simp) rfl _
  have hs2 : (oCh2 L k0_h1).view.set = rowsOf (640 * (L 1).val + 320 * (L 0).val + 160) 80 := by
    refine (View.set_slice_whole main_v0_scv _).trans ?_
    exact unit_set_eq _ 80 _ _ (by rw [show (160#32 : BitVec 32) = BitVec.ofNat 32 (80 * (2 : Fin 4).val) from rfl, k0_off2_eq]; simp) rfl _
  have hs3 : (oCh3 L k0_h1).view.set = rowsOf (640 * (L 1).val + 320 * (L 0).val + 240) 80 := by
    refine (View.set_slice_whole main_v0_scv _).trans ?_
    exact unit_set_eq _ 80 _ _ (by rw [show (240#32 : BitVec 32) = BitVec.ofNat 32 (80 * (3 : Fin 4).val) from rfl, k0_off2_eq]; simp) rfl _
  have hb : 640 * (L 1).val + 320 * (L 0).val = baseRow L := rfl
  have hoff0 : k0_off2 L 0#32 = ![baseRow L + 0, 0] := by rw [show (0#32 : BitVec 32) = BitVec.ofNat 32 (80 * (0 : Fin 4).val) from rfl, k0_off2_eq]; simp [baseRow]
  have hoff1 : k0_off2 L 80#32 = ![baseRow L + 80, 0] := by rw [show (80#32 : BitVec 32) = BitVec.ofNat 32 (80 * (1 : Fin 4).val) from rfl, k0_off2_eq]; simp [baseRow]
  have hoff2 : k0_off2 L 160#32 = ![baseRow L + 160, 0] := by rw [show (160#32 : BitVec 32) = BitVec.ofNat 32 (80 * (2 : Fin 4).val) from rfl, k0_off2_eq]; simp [baseRow]
  have hoff3 : k0_off2 L 240#32 = ![baseRow L + 240, 0] := by rw [show (240#32 : BitVec 32) = BitVec.ofNat 32 (80 * (3 : Fin 4).val) from rfl, k0_off2_eq]; simp [baseRow]
  have hbr := baseRow_lt L k0_h1
  have dA : Disjoint (rowsOf (640 * (L 1).val + 320 * (L 0).val) 80) (rowsOf (640 * (L 1).val + 320 * (L 0).val + 80) 80 ∪ (rowsOf (640 * (L 1).val + 320 * (L 0).val + 160) 80 ∪ rowsOf (640 * (L 1).val + 320 * (L 0).val + 240) 80)) :=
    Finset.disjoint_union_right.mpr ⟨rowsOf_disjoint (.inl (by omega)), Finset.disjoint_union_right.mpr ⟨rowsOf_disjoint (.inl (by omega)), rowsOf_disjoint (.inl (by omega))⟩⟩
  have dB : Disjoint (rowsOf (640 * (L 1).val + 320 * (L 0).val + 80) 80) (rowsOf (640 * (L 1).val + 320 * (L 0).val + 160) 80 ∪ rowsOf (640 * (L 1).val + 320 * (L 0).val + 240) 80) :=
    Finset.disjoint_union_right.mpr ⟨rowsOf_disjoint (.inl (by omega)), rowsOf_disjoint (.inl (by omega))⟩
  have dC : Disjoint (rowsOf (640 * (L 1).val + 320 * (L 0).val + 160) 80) (rowsOf (640 * (L 1).val + 320 * (L 0).val + 240) 80) := rowsOf_disjoint (.inl (by omega))
  have htok4 : ∀ Φ : Fin 4 → sProp 𝕄, bigSep Finset.univ Φ = iprop(Φ 0 ∗ Φ 1 ∗ Φ 2 ∗ Φ 3) := fun Φ => by
    rw [show (Finset.univ : Finset (Fin 4)) = {0, 1, 2, 3} by decide, SparseCore.bigSep_insert' (by decide), SparseCore.bigSep_insert' (by decide),
      SparseCore.bigSep_insert' (by decide), bigSep_singleton]
  simp only [cc0__gather_kernel_eq_skeleton]; unfold cc0__gather_kernel_skel
  rw [(K (F := F)).scopedBufs_V hF d (cV L) (jV L), SparseCore.Cfg.scopedSems0_V (Val := Elt F) d (cV L) (jV L), ownSems0_V, ownBufs_V]
  unfold tileIn tileOut
  rw [tileRows_full]
  iintro ⟨#Hlv, -, ⟨Hz, Ht, Ho⟩, ⟨⟨%fl, Hl⟩, ⟨%fr, Hr⟩, Hbufs⟩, ⟨Hg0, Hg1, Hg2, Hg3, Hss, Hsa, Hsb, Hsc, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  -- the four pieces of the tile's rows, as the body slices them
  ihave Ho' := (pointsTo_union dA).1 $$ Ho
  icases Ho' with ⟨Ho0, Ho⟩
  ihave Ho' := (pointsTo_union dB).1 $$ Ho
  icases Ho' with ⟨Ho1, Ho⟩
  ihave Ho' := (pointsTo_union dC).1 $$ Ho
  icases Ho' with ⟨Ho2, Ho3⟩
  ihave Ho0 := (Entails.of_eq (show (oLoc d ↦[rowsOf (640 * (L 1).val + 320 * (L 0).val) 80]{fullShare} m (oLoc d) : sProp 𝕄)
      = ((oCh0 L k0_h1).view.loc (V d (cV L) (jV L)) ↦[(oCh0 L k0_h1).view.set]{fullShare} m (oLoc d)) from by rw [hs0])) $$ Ho0
  ihave Ho1 := (Entails.of_eq (show (oLoc d ↦[rowsOf (640 * (L 1).val + 320 * (L 0).val + 80) 80]{fullShare} m (oLoc d) : sProp 𝕄)
      = ((oCh1 L k0_h1).view.loc (V d (cV L) (jV L)) ↦[(oCh1 L k0_h1).view.set]{fullShare} m (oLoc d)) from by rw [hs1])) $$ Ho1
  ihave Ho2 := (Entails.of_eq (show (oLoc d ↦[rowsOf (640 * (L 1).val + 320 * (L 0).val + 160) 80]{fullShare} m (oLoc d) : sProp 𝕄)
      = ((oCh2 L k0_h1).view.loc (V d (cV L) (jV L)) ↦[(oCh2 L k0_h1).view.set]{fullShare} m (oLoc d)) from by rw [hs2])) $$ Ho2
  ihave Ho3 := (Entails.of_eq (show (oLoc d ↦[rowsOf (640 * (L 1).val + 320 * (L 0).val + 240) 80]{fullShare} m (oLoc d) : sProp 𝕄)
      = ((oCh3 L k0_h1).view.loc (V d (cV L) (jV L)) ↦[(oCh3 L k0_h1).view.set]{fullShare} m (oLoc d)) from by rw [hs3])) $$ Ho3
  -- the table's share as four read tokens, one per gather in flight, and what is left
  ihave Ht' := (Transfers.pointsTo_toks_split (ℓ := tLoc d) (S := Finset.univ) (f := m (tLoc d)) qt 4) $$ Ht
  icases Ht' with ⟨Htr, Htoks⟩
  ihave Htoks := (Entails.of_eq (htok4 _)) $$ Htoks
  icases Htoks with ⟨Ht0, Ht1, Ht2, Ht3⟩
  ihave Ht0 := (Entails.of_eq (show (tLoc d ↦{Transfers.shareTok qt 4 0} m (tLoc d) : sProp 𝕄) = ((tV).view.loc (V d (cV L) (jV L)) ↦{Transfers.shareTok qt 4 0} m (tLoc d)) from rfl)) $$ Ht0
  ihave Ht1 := (Entails.of_eq (show (tLoc d ↦{Transfers.shareTok qt 4 1} m (tLoc d) : sProp 𝕄) = ((tV).view.loc (V d (cV L) (jV L)) ↦{Transfers.shareTok qt 4 1} m (tLoc d)) from rfl)) $$ Ht1
  ihave Ht2 := (Entails.of_eq (show (tLoc d ↦{Transfers.shareTok qt 4 2} m (tLoc d) : sProp 𝕄) = ((tV).view.loc (V d (cV L) (jV L)) ↦{Transfers.shareTok qt 4 2} m (tLoc d)) from rfl)) $$ Ht2
  ihave Ht3 := (Entails.of_eq (show (tLoc d ↦{Transfers.shareTok qt 4 3} m (tLoc d) : sProp 𝕄) = ((tV).view.loc (V d (cV L) (jV L)) ↦{Transfers.shareTok qt 4 3} m (tLoc d)) from rfl)) $$ Ht3
  ihave Hz := (Entails.of_eq (show (zLoc d ↦{qz} m (zLoc d) : sProp 𝕄) = ((zV).view.loc (V d (cV L) (jV L)) ↦{qz} m (zLoc d)) from rfl)) $$ Hz
  ihave Hl := (Entails.of_eq (show ((V d (cV L) (jV L)).loc cc0_scratch0 ↦{fullShare} fl : sProp 𝕄) = (lV).view.loc (V d (cV L) (jV L)) ↦{fullShare} fl from rfl)) $$ Hl
  ihave Hr := (Entails.of_eq (show ((V d (cV L) (jV L)).loc cc0_scratch1 ↦{fullShare} fr : sProp 𝕄) = (rV).view.loc (V d (cV L) (jV L)) ↦{fullShare} fr from rfl)) $$ Hr
  have hin := list_lt m d L hz k0_h1
  sl_exec
  sl_step
  -- each piece of the result holds the gathered rows
  have hn80 : S80.numel = S80x128.size gathers_S100000x128_S80x128.axis' := rfl
  ihave Ho0 := (chunk_done m d L hz k0_h1 (m (oLoc d)) 0 (by omega) _ hoff0 _ _ hs0 (tile_full.sl.dma5 m d L k0_h1 fl fr hin)
      (SparseCore.rows (lWin0.view.read (Elt F) (View.write (Elt F) (lV).view fl (ReadAs.same.apply ((zSl L k0_h1).view.read (Elt F) (m (zLoc d)))) Finset.univ)) hn80 (hin fl ![0] inb_S320_S80_0))
      (slots_read0 fr (tile_full.sl.gather1 m d L k0_h1 fl hin) (tile_full.sl.gather2 m d L k0_h1 fl hin) (tile_full.sl.gather3 m d L k0_h1 fl hin) (tile_full.sl.gather4 m d L k0_h1 fl hin))
      (fun k hb => window_rows_val L k0_h1 (m (zLoc d)) fl 0 inb_S320_S80_0 hn80 (hin fl ![0] inb_S320_S80_0) k hb)) $$ Ho0
  ihave Ho1 := (chunk_done m d L hz k0_h1 (m (oLoc d)) 80 (by omega) _ hoff1 _ _ hs1 (tile_full.sl.dma6 m d L k0_h1 fl fr hin)
      (SparseCore.rows (lWin1.view.read (Elt F) (View.write (Elt F) (lV).view fl (ReadAs.same.apply ((zSl L k0_h1).view.read (Elt F) (m (zLoc d)))) Finset.univ)) hn80 (hin fl ![80] inb_S320_S80_80))
      (slots_read1 fr (tile_full.sl.gather1 m d L k0_h1 fl hin) (tile_full.sl.gather2 m d L k0_h1 fl hin) (tile_full.sl.gather3 m d L k0_h1 fl hin) (tile_full.sl.gather4 m d L k0_h1 fl hin))
      (fun k hb => window_rows_val L k0_h1 (m (zLoc d)) fl 80 inb_S320_S80_80 hn80 (hin fl ![80] inb_S320_S80_80) k hb)) $$ Ho1
  ihave Ho2 := (chunk_done m d L hz k0_h1 (m (oLoc d)) 160 (by omega) _ hoff2 _ _ hs2 (tile_full.sl.dma7 m d L k0_h1 fl fr hin)
      (SparseCore.rows (lWin2.view.read (Elt F) (View.write (Elt F) (lV).view fl (ReadAs.same.apply ((zSl L k0_h1).view.read (Elt F) (m (zLoc d)))) Finset.univ)) hn80 (hin fl ![160] inb_S320_S80_160))
      (slots_read2 fr (tile_full.sl.gather1 m d L k0_h1 fl hin) (tile_full.sl.gather2 m d L k0_h1 fl hin) (tile_full.sl.gather3 m d L k0_h1 fl hin) (tile_full.sl.gather4 m d L k0_h1 fl hin))
      (fun k hb => window_rows_val L k0_h1 (m (zLoc d)) fl 160 inb_S320_S80_160 hn80 (hin fl ![160] inb_S320_S80_160) k hb)) $$ Ho2
  ihave Ho3 := (chunk_done m d L hz k0_h1 (m (oLoc d)) 240 (by omega) _ hoff3 _ _ hs3 (tile_full.sl.dma8 m d L k0_h1 fl fr hin)
      (SparseCore.rows (lWin3.view.read (Elt F) (View.write (Elt F) (lV).view fl (ReadAs.same.apply ((zSl L k0_h1).view.read (Elt F) (m (zLoc d)))) Finset.univ)) hn80 (hin fl ![240] inb_S320_S80_240))
      (slots_read3 fr (tile_full.sl.gather1 m d L k0_h1 fl hin) (tile_full.sl.gather2 m d L k0_h1 fl hin) (tile_full.sl.gather3 m d L k0_h1 fl hin) (tile_full.sl.gather4 m d L k0_h1 fl hin))
      (fun k hb => window_rows_val L k0_h1 (m (zLoc d)) fl 240 inb_S320_S80_240 hn80 (hin fl ![240] inb_S320_S80_240) k hb)) $$ Ho3
  -- the index array's and the table's shares back, the pieces joined
  isplitl [Hz Ht0 Ht1 Ht2 Ht3 Htr Ho0 Ho1 Ho2 Ho3]
  · isplitl [Hz]; · iexact Hz
    isplitl [Ht0 Ht1 Ht2 Ht3 Htr]
    · iapply (Transfers.pointsTo_toks_join (ℓ := tLoc d) (S := Finset.univ) (f := m (tLoc d)) qt 4)
      isplitl [Htr]; · iexact Htr
      rw [htok4]
      isplitl [Ht0]; · iexact Ht0
      isplitl [Ht1]; · iexact Ht1
      isplitl [Ht2]; · iexact Ht2
      iexact Ht3
    · iapply (pointsTo_union dA).2
      isplitl [Ho0]; · iexact Ho0
      iapply (pointsTo_union dB).2
      isplitl [Ho1]; · iexact Ho1
      iapply (pointsTo_union dC).2
      isplitl [Ho2]; · iexact Ho2
      iexact Ho3
  isplitl [Hl Hr Hbufs]
  · isplitl [Hl]; · iexists _; iexact Hl
    isplitl [Hr]; · iexists _; iexact Hr
    iexact Hbufs
  isplitl [Hg0 Hg1 Hg2 Hg3 Hss Hsa Hsb Hsc Hsems]
  · isplitl [Hg0]; · iexact Hg0
    isplitl [Hg1]; · iexact Hg1
    isplitl [Hg2]; · iexact Hg2
    isplitl [Hg3]; · iexact Hg3
    isplitl [Hss]; · iexact Hss
    isplitl [Hsa]; · iexact Hsa
    isplitl [Hsb]; · iexact Hsb
    isplitl [Hsc]; · iexact Hsc
    iexact Hsems
  iexists _; isplitr
  swap; · iexact HO
  ipureintro; intro p hp
  simp only [Finset.mem_insert] at hp
  rcases hp with h | h | h | h | h | h | h | h | h | h
  all_goals first | exact .inl h | exact .inr (h ▸ rfl)

set_option maxRecDepth 65536 in
set_option maxHeartbeats 8000000 in
/-- The last tile (subcore 15 of SparseCore 1): the last 80 entries of the index array into the first window of its
    list, one gather into the first slot, one copy out to rows 9920 … 9999 of the result. -/
theorem tile_last (hF : (K (F := F)).Facts) (hz : ∀ j, (m (zLoc d) j).toNat < 100000) (k0_h1 : ¬ k0_cond1 L = 1#1)
    (O : CellTallies nD τ sig (HIx 1)) (W : Waits sig (HIx 1)) (hO : ∀ g, O g none = 0) (qz qt : PosShare TreeShare) :
    iprop(levAts (K (F := F)).L (K (F := F)).lev ∗ emp ∗ tileIn m d L qz qt
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__gather_kernel L tV (Memref.isWhole_whole _) zV (Memref.isWhole_whole _) oV (Memref.isWhole_whole _)
            lV (Memref.isWhole_whole _) rV (Memref.isWhole_whole _) cc0_scratch2 cc0_scratch3 cc0_scoped0 cc0_scoped1 cc0_scoped2)
          fun _ => iprop(tileOut m d L qz qt ∗ scopedBufs (V d (cV L) (jV L)) ∗ scopedSems0 (V d (cV L) (jV L))
            ∗ ∃ W', ⌜∀ p ∈ W', p ∈ W ∨ p.2 = none⌝ ∗ owes (V d (cV L) (jV L)) O W') := by
  have k0_h2 : lastCond L = 1#1 := last_of_not_full L k0_h1
  unfold lastCond at k0_h2
  obtain ⟨hL0, hL1⟩ := last_eq L k0_h1
  have hsT : (oTail).view.set = rowsOf 9920 80 := by
    refine (View.set_slice_whole main_v0_scv _).trans ?_
    exact unit_set_eq 9920 80 _ _ rfl rfl _
  simp only [cc0__gather_kernel_eq_skeleton]; unfold cc0__gather_kernel_skel
  rw [(K (F := F)).scopedBufs_V hF d (cV L) (jV L), SparseCore.Cfg.scopedSems0_V (Val := Elt F) d (cV L) (jV L), ownSems0_V, ownBufs_V]
  unfold tileIn tileOut
  rw [hL0, hL1, tileRows_last]
  iintro ⟨#Hlv, -, ⟨Hz, Ht, Ho⟩, ⟨⟨%fl, Hl⟩, ⟨%fr, Hr⟩, Hbufs⟩, ⟨Hg0, Hg1, Hg2, Hg3, Hss, Hsa, Hsb, Hsc, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Ho := (Entails.of_eq (show (oLoc d ↦[rowsOf 9920 80]{fullShare} m (oLoc d) : sProp 𝕄)
      = ((oTail).view.loc (V d (cV L) (jV L)) ↦[(oTail).view.set]{fullShare} m (oLoc d)) from by rw [hsT])) $$ Ho
  ihave Ht := (Entails.of_eq (show (tLoc d ↦{qt} m (tLoc d) : sProp 𝕄) = ((tV).view.loc (V d (cV L) (jV L)) ↦{qt} m (tLoc d)) from rfl)) $$ Ht
  ihave Hz := (Entails.of_eq (show (zLoc d ↦{qz} m (zLoc d) : sProp 𝕄) = ((zV).view.loc (V d (cV L) (jV L)) ↦{qz} m (zLoc d)) from rfl)) $$ Hz
  ihave Hl := (Entails.of_eq (show ((V d (cV L) (jV L)).loc cc0_scratch0 ↦{fullShare} fl : sProp 𝕄) = (lV).view.loc (V d (cV L) (jV L)) ↦{fullShare} fl from rfl)) $$ Hl
  ihave Hr := (Entails.of_eq (show ((V d (cV L) (jV L)).loc cc0_scratch1 ↦{fullShare} fr : sProp 𝕄) = (rV).view.loc (V d (cV L) (jV L)) ↦{fullShare} fr from rfl)) $$ Hr
  have hin := tail_lt m d L hz
  sl_exec
  sl_step
  have hn80 : S80.numel = S80x128.size gathers_S100000x128_S80x128.axis' := rfl
  ihave Ho := (tail_done m d L hz (m (oLoc d)) (tile_last.sl.dma0_1 m d L fl fr hin)
      (SparseCore.rows (lWin0.view.read (Elt F) ((lV).view.writes (Elt F) fl
        [⟨Rect.unit (s := S320) ![0] S80.size inb_S320_S80_0, ReadAs.same.apply ((zTail).view.read (Elt F) (m (zLoc d)))⟩])) hn80 (hin fl))
      (View.read_write_univ (v := slot0.view) fr (tile_last.sl.gather1 m d L fl hin))
      (fun k hb => tail_rows_val (m (zLoc d)) fl hn80 (hin fl) k hb) hsT) $$ Ho
  isplitl [Hz Ht Ho]
  · isplitl [Hz]; · iexact Hz
    isplitl [Ht]; · iexact Ht
    iexact Ho
  isplitl [Hl Hr Hbufs]
  · isplitl [Hl]; · iexists _; iexact Hl
    isplitl [Hr]; · iexists _; iexact Hr
    iexact Hbufs
  isplitl [Hg0 Hg1 Hg2 Hg3 Hss Hsa Hsb Hsc Hsems]
  · isplitl [Hg0]; · iexact Hg0
    isplitl [Hg1]; · iexact Hg1
    isplitl [Hg2]; · iexact Hg2
    isplitl [Hg3]; · iexact Hg3
    isplitl [Hss]; · iexact Hss
    isplitl [Hsa]; · iexact Hsa
    isplitl [Hsb]; · iexact Hsb
    isplitl [Hsc]; · iexact Hsc
    iexact Hsems
  iexists _; isplitr
  swap; · iexact HO
  ipureintro; intro p hp
  simp only [Finset.mem_insert] at hp
  rcases hp with h | h | h | h
  all_goals first | exact .inl h | exact .inr (h ▸ rfl)

/-- One tile's task, full or last. -/
theorem tile_body (hF : (K (F := F)).Facts) (hz : ∀ j, (m (zLoc d) j).toNat < 100000)
    (O : CellTallies nD τ sig (HIx 1)) (W : Waits sig (HIx 1)) (hO : ∀ g, O g none = 0) (qz qt : PosShare TreeShare) :
    iprop(levAts (K (F := F)).L (K (F := F)).lev ∗ emp ∗ tileIn m d L qz qt
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__gather_kernel L tV (Memref.isWhole_whole _) zV (Memref.isWhole_whole _) oV (Memref.isWhole_whole _)
            lV (Memref.isWhole_whole _) rV (Memref.isWhole_whole _) cc0_scratch2 cc0_scratch3 cc0_scoped0 cc0_scoped1 cc0_scoped2)
          fun _ => iprop(tileOut m d L qz qt ∗ scopedBufs (V d (cV L) (jV L)) ∗ scopedSems0 (V d (cV L) (jV L))
            ∗ ∃ W', ⌜∀ p ∈ W', p ∈ W ∨ p.2 = none⌝ ∗ owes (V d (cV L) (jV L)) O W') := by
  by_cases h1 : k0_cond1 L = 1#1
  · exact tile_full m d L hF hz h1 O W hO qz qt
  · exact tile_last m d L hF hz h1 O W hO qz qt

end Cert.Proof.IdealTile

end
-- ==== Proof.IdealRun.lean ====
/-
  The row gather on the SparseCores, launched. The one call hands each SparseCore a read share of the index array and
  of the table and the rows of the result its sixteen tiles own between them; a SparseCore splits its shares sixteen
  ways and its rows into the tiles' runs, and every tile ends with its rows at the gathered rows. The runs of the
  32 tiles cover the result, so the call returns the whole result at the gathered rows — row i is the table's row
  number z i — and the read shares rejoin: the four arguments are unchanged.
-/
import proofs.«212854_g59167469470367_cont_9to1c4b_422_3_alg».proof.Proof.IdealBase
import proofs.«212854_g59167469470367_cont_9to1c4b_422_3_alg».proof.Proof.IdealTile
import proofs.«212854_g59167469470367_cont_9to1c4b_422_3_alg».proof.Proof.RowGather
import proofs.«212854_g59167469470367_cont_9to1c4b_422_3_alg».proof.Proof.RowRanges

noncomputable section

namespace Cert.Proof.IdealRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Cert.Proof.IdealBase Cert.Proof.IdealTile Cert.Proof.RowGather Cert.Proof.RowRanges

variable {F : FTy → Type}

local notation "𝕄" => MT nD τ sig (HIx 1) (Elt F) ℕ UU ℕ

local notation "tV" => (Memref.whole Cert.KernelIdeal.main_arg3_scv : Memref Cert.KernelIdeal.sig Kind.scVector Space.hbm Cert.KernelIdeal.S100000x128 EltTy.f32)
local notation "zV" => (Memref.whole Cert.KernelIdeal.main_arg1_scv : Memref Cert.KernelIdeal.sig Kind.scVector Space.hbm Cert.KernelIdeal.S10000 EltTy.i32)
local notation "oV" => (Memref.whole Cert.KernelIdeal.main_v0_scv : Memref Cert.KernelIdeal.sig Kind.scVector Space.hbm Cert.KernelIdeal.S10000x128 EltTy.f32)
local notation "lV" => (Memref.whole Cert.KernelIdeal.cc0_scratch0 : Memref Cert.KernelIdeal.sig Kind.scVector Space.vmem Cert.KernelIdeal.S320 EltTy.i32)
local notation "rV" => (Memref.whole Cert.KernelIdeal.cc0_scratch1 : Memref Cert.KernelIdeal.sig Kind.scVector Space.vmem Cert.KernelIdeal.S4x80x128 EltTy.f32)

variable (m : (ℓ : Loc nD τ sig) → Buf (Elt F) ℓ) (ρ : Dev nD → PrngReg)

/-! ## A tile's coordinates, and the body table at a tile -/

/-- The grid coordinates of subcore `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector [FloatOps F] (c : Fin τ.nSC) (s : Fin τ.nSub) :
    defs₀ (F := F) (.scVector c s) 0 ()
      = SparseCore.onTile hcore0 hsub0 (fun c s => cc0__gather_kernel (coordsV c s)
          tV (Memref.isWhole_whole _) zV (Memref.isWhole_whole _) oV (Memref.isWhole_whole _)
          lV (Memref.isWhole_whole _) rV (Memref.isWhole_whole _) cc0_scratch2 cc0_scratch3 cc0_scoped0 cc0_scoped1 cc0_scoped2) ⟨⟩ c s := rfl

/-! ## What the handshakes carry -/

/-- SparseCore `c`'s read share of an array the two SparseCores both read, and tile `i`'s share of that. -/
abbrev qC (c : Fin 2) : PosShare TreeShare := Transfers.shareTok fullShare 2 c
abbrev qT (c : Fin 2) (i : Fin 16) : PosShare TreeShare := Transfers.shareTok (qC c) 16 i

/-- What the call hands SparseCore `c`: a share of the index array and of the table, its tiles' rows of the result. -/
abbrev coreSt (d : Dev nD) (c : Fin 2) : sProp 𝕄 :=
  iprop((zLoc d ↦{qC c} m (zLoc d)) ∗ (tLoc d ↦{qC c} m (tLoc d)) ∗ (oLoc d ↦[coreRows c.val]{fullShare} m (oLoc d)))
/-- What it takes back: the same shares, those rows at the gathered rows. -/
abbrev coreDn (d : Dev nD) (c : Fin 2) : sProp 𝕄 :=
  iprop((zLoc d ↦{qC c} m (zLoc d)) ∗ (tLoc d ↦{qC c} m (tLoc d))
    ∗ (oLoc d ↦[coreRows c.val]{fullShare} gatheredRows (m (tLoc d)) (m (zLoc d))))

/-- The one call: per SparseCore `coreSt` / `coreDn`, per tile what a tile is handed and hands back. -/
def P : (K (F := F)).Pay (nD := nD) (Val := Elt F) (Name := ℕ) (U := UU) where
  st := fun q d c => match q with | 0 => coreSt m d (Fin.cast nCore_zero c)
  dn := fun q d c => match q with | 0 => coreDn m d (Fin.cast nCore_zero c)
  go := fun q d c i => match q with
    | 0 => tileIn m d (coordsV (Fin.cast nCore_zero c) (Fin.cast nSub_zero i))
        (qT (Fin.cast nCore_zero c) (Fin.cast nSub_zero i)) (qT (Fin.cast nCore_zero c) (Fin.cast nSub_zero i))
  td := fun q d c i => match q with
    | 0 => tileOut m d (coordsV (Fin.cast nCore_zero c) (Fin.cast nSub_zero i))
        (qT (Fin.cast nCore_zero c) (Fin.cast nSub_zero i)) (qT (Fin.cast nCore_zero c) (Fin.cast nSub_zero i))
  x := fun _ _ => iprop(emp)

instance P_storable : (P (F := F) m).IsStorable where
  st q d c := match q with
    | 0 => (inferInstance : BI.Storable (upEmb : UEmb _ 𝕄) (coreSt m d (Fin.cast nCore_zero c)))
  dn q d c := match q with
    | 0 => (inferInstance : BI.Storable (upEmb : UEmb _ 𝕄) (coreDn m d (Fin.cast nCore_zero c)))
  go q d c i := match q with
    | 0 => (inferInstance : BI.Storable (upEmb : UEmb _ 𝕄) (tileIn m d (coordsV (Fin.cast nCore_zero c) (Fin.cast nSub_zero i))
        (qT (Fin.cast nCore_zero c) (Fin.cast nSub_zero i)) (qT (Fin.cast nCore_zero c) (Fin.cast nSub_zero i))))
  td q d c i := match q with
    | 0 => (inferInstance : BI.Storable (upEmb : UEmb _ 𝕄) (tileOut m d (coordsV (Fin.cast nCore_zero c) (Fin.cast nSub_zero i))
        (qT (Fin.cast nCore_zero c) (Fin.cast nSub_zero i)) (qT (Fin.cast nCore_zero c) (Fin.cast nSub_zero i))))

/-! ## The tiles' obligation -/

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl [FloatOps F] (hz : ∀ d j, (m (zLoc d) j).toNat < 100000) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) facts (hz d) O W hO
    (qT (Fin.cast nCore_zero c) (Fin.cast nSub_zero i)) (qT (Fin.cast nCore_zero c) (Fin.cast nSub_zero i))).trans
      (wp_mono frame _ _ fun _ => obl_post)

/-! ## A SparseCore's operands, split among its tiles -/

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- What tile `i` of SparseCore `c` is handed and hands back, with the tile's rows named by the two numbers. -/
abbrev tileInAt (d : Dev nD) (c : Fin 2) (i : Fin 16) : sProp 𝕄 :=
  iprop((zLoc d ↦{qT c i} m (zLoc d)) ∗ (tLoc d ↦{qT c i} m (tLoc d)) ∗ (oLoc d ↦[tileRows c.val i.val]{fullShare} m (oLoc d)))
abbrev tileOutAt (d : Dev nD) (c : Fin 2) (i : Fin 16) : sProp 𝕄 :=
  iprop((zLoc d ↦{qT c i} m (zLoc d)) ∗ (tLoc d ↦{qT c i} m (tLoc d))
    ∗ (oLoc d ↦[tileRows c.val i.val]{fullShare} gatheredRows (m (tLoc d)) (m (zLoc d))))

/-- What the sixteen tiles of SparseCore `c` are handed, together: sixteen shares of the index array, sixteen of the table,
    and the SparseCore's rows of the result (the tiles' runs are pairwise disjoint and make up those rows). -/
theorem go_all (d : Dev nD) (c : Fin ((K (F := F)).nCore 0)) :
    (bigSep Finset.univ fun i : Fin ((K (F := F)).nSub 0) => (P m).go 0 d c i)
      = iprop((bigSep Finset.univ fun i : Fin 16 => zLoc d ↦{qT (Fin.cast nCore_zero c) i} m (zLoc d))
          ∗ (bigSep Finset.univ fun i : Fin 16 => tLoc d ↦{qT (Fin.cast nCore_zero c) i} m (tLoc d))
          ∗ (oLoc d ↦[coreRows c.val]{fullShare} m (oLoc d))) := by
  show (bigSep Finset.univ fun i : Fin ((K (F := F)).nSub 0) => tileInAt m d (Fin.cast nCore_zero c) (Fin.cast nSub_zero i)) = _
  rw [bigSep_tasks (F := F) (tileInAt m d (Fin.cast nCore_zero c))]
  unfold tileInAt
  rw [bigSep_sep', bigSep_sep']
  unfold coreRows
  rw [pointsTo_biUnion (ℓ := oLoc d) Finset.univ (fun s : Fin 16 => tileRows c.val s.val) (tileRows_disjoint c.val)]
  rfl

/-- What they hand back, together: the same shares, the SparseCore's rows at the gathered rows (every tile's run holds
    the one function, so the runs join as they split). -/
theorem td_all (d : Dev nD) (c : Fin ((K (F := F)).nCore 0)) :
    (bigSep Finset.univ fun i : Fin ((K (F := F)).nSub 0) => (P m).td 0 d c i)
      = iprop((bigSep Finset.univ fun i : Fin 16 => zLoc d ↦{qT (Fin.cast nCore_zero c) i} m (zLoc d))
          ∗ (bigSep Finset.univ fun i : Fin 16 => tLoc d ↦{qT (Fin.cast nCore_zero c) i} m (tLoc d))
          ∗ (oLoc d ↦[coreRows c.val]{fullShare} gatheredRows (m (tLoc d)) (m (zLoc d)))) := by
  show (bigSep Finset.univ fun i : Fin ((K (F := F)).nSub 0) => tileOutAt m d (Fin.cast nCore_zero c) (Fin.cast nSub_zero i)) = _
  rw [bigSep_tasks (F := F) (tileOutAt m d (Fin.cast nCore_zero c))]
  unfold tileOutAt
  rw [bigSep_sep', bigSep_sep']
  unfold coreRows
  rw [pointsTo_biUnion (ℓ := oLoc d) Finset.univ (fun s : Fin 16 => tileRows c.val s.val) (tileRows_disjoint c.val)]
  rfl

theorem vecSplit : (K (F := F)).VecSplit' (P m) 0 := by
  intro d c
  rw [go_all, td_all]
  show coreSt m d (Fin.cast nCore_zero c) ⊢ |={Set.univ}=> iprop(_ ∗ (_ -∗ coreDn m d (Fin.cast nCore_zero c)))
  iintro ⟨Hz, Ht, Ho⟩
  ihave Hz' := (Transfers.pointsTo_toks_split (qC (Fin.cast nCore_zero c)) 16) $$ Hz
  icases Hz' with ⟨Hzr, Hzs⟩
  ihave Ht' := (Transfers.pointsTo_toks_split (qC (Fin.cast nCore_zero c)) 16) $$ Ht
  icases Ht' with ⟨Htr, Hts⟩
  imodintro
  isplitl [Hzs Hts Ho]
  · isplitl [Hzs]; · iexact Hzs
    isplitl [Hts]; · iexact Hts
    iexact Ho
  iintro ⟨Hzs, Hts, Ho⟩
  isplitl [Hzr Hzs]
  · iapply (Transfers.pointsTo_toks_join (qC (Fin.cast nCore_zero c)) 16)
    isplitl [Hzr]; · iexact Hzr
    iexact Hzs
  isplitl [Htr Hts]
  · iapply (Transfers.pointsTo_toks_join (qC (Fin.cast nCore_zero c)) 16)
    isplitl [Htr]; · iexact Htr
    iexact Hts
  iexact Ho

/-! ## The launch element: the handshakes' rounds; the transfers' counters dropped -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

theorem unscopedBufs_eq (d : Dev nD) (W : (b : Ref sig .tc) → Buf (Elt F) ((d.tc : Thread nD τ).loc b)) :
    (unscopedBufs d W : sProp 𝕄) = iprop((pLoc d ↦{fullShare} W main_arg0) ∗ (zLoc d ↦{fullShare} W main_arg1) ∗ (nLoc d ↦{fullShare} W main_arg2)
      ∗ (tLoc d ↦{fullShare} W main_arg3) ∗ oLoc d ↦{fullShare} W main_v0) := by
  unfold unscopedBufs
  rw [show (Finset.univ.filter fun b : Ref sig .tc => ¬ b.isScoped) = {main_arg0, main_arg1, main_arg2, main_arg3, main_v0} by decide,
    SparseCore.bigSep_insert' (by decide), SparseCore.bigSep_insert' (by decide), SparseCore.bigSep_insert' (by decide),
    SparseCore.bigSep_insert' (by decide), bigSep_singleton]

theorem bigSep_fin2 (Φ : Fin 2 → sProp 𝕄) : bigSep (Finset.univ : Finset (Fin 2)) Φ = iprop(Φ 0 ∗ Φ 1) := by
  rw [show (Finset.univ : Finset (Fin 2)) = {0, 1} by decide, SparseCore.bigSep_insert' (by decide), bigSep_singleton]

/-- An array held whole is a remainder and one read share per SparseCore. -/
theorem split2 {ℓ : Loc nD τ sig} (f : Buf (Elt F) ℓ) :
    (ℓ ↦{fullShare} f : sProp 𝕄) ⊣⊢ iprop((ℓ ↦{Transfers.shareDrop fullShare 2} f) ∗ (ℓ ↦{qC 0} f) ∗ (ℓ ↦{qC 1} f)) := by
  have h : (ℓ ↦{fullShare} f : sProp 𝕄) ⊣⊢ iprop((ℓ ↦{Transfers.shareDrop fullShare 2} f)
      ∗ bigSep Finset.univ (fun i : Fin 2 => ℓ ↦{Transfers.shareTok fullShare 2 i} f)) := Transfers.pointsTo_toks fullShare 2
  rw [bigSep_fin2] at h
  exact h

/-- The result held whole is the two SparseCores' rows: their rows are disjoint and cover it. -/
theorem o_cores (d : Dev nD) (f : Buf (Elt F) (oLoc d)) :
    (oLoc d ↦{fullShare} f : sProp 𝕄) ⊣⊢ iprop((oLoc d ↦[coreRows 0]{fullShare} f) ∗ (oLoc d ↦[coreRows 1]{fullShare} f)) := by
  have h : (oLoc d ↦[coreRows 0 ∪ coreRows 1]{fullShare} f : sProp 𝕄)
      ⊣⊢ iprop((oLoc d ↦[coreRows 0]{fullShare} f) ∗ (oLoc d ↦[coreRows 1]{fullShare} f)) := pointsTo_union coreRows_disjoint
  rw [coreRows_cover] at h
  exact h

theorem st0_eq (d : Dev nD) :
    (bigSep Finset.univ fun c : Fin ((K (F := F)).nCore 0) => (P m).st 0 d c) = iprop(coreSt m d 0 ∗ coreSt m d 1) := by
  show (bigSep (Finset.univ : Finset (Fin 2)) fun c => coreSt m d c) = _
  rw [bigSep_fin2]
theorem dn0_eq (d : Dev nD) :
    (bigSep Finset.univ fun c : Fin ((K (F := F)).nCore 0) => (P m).dn 0 d c) = iprop(coreDn m d 0 ∗ coreDn m d 1) := by
  show (bigSep (Finset.univ : Finset (Fin 2)) fun c => coreDn m d c) = _
  rw [bigSep_fin2]

/-- What @main leaves the claim: the four arguments whole at their launch contents, the result whole at the gathered rows. -/
abbrev FIN (d : Dev nD) : sProp 𝕄 :=
  iprop((pLoc d ↦{fullShare} m (pLoc d)) ∗ (zLoc d ↦{fullShare} m (zLoc d)) ∗ (nLoc d ↦{fullShare} m (nLoc d))
    ∗ (tLoc d ↦{fullShare} m (tLoc d)) ∗ (oLoc d ↦{fullShare} gatheredRows (m (tLoc d)) (m (zLoc d))))

/-- @main on device `d`'s TensorCore: the one call, from read shares of the index array and of the table and the result
    dealt by rows to the two SparseCores; afterwards the shares and the rows rejoin. -/
theorem hmain [FloatOps F] (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hp, Hz, Hn, Ht, Ho⟩, -, -⟩, -⟩
  ihave Hz' := (split2 (F := F) (m (zLoc d))).1 $$ Hz
  icases Hz' with ⟨Hzr, Hz0, Hz1⟩
  ihave Ht' := (split2 (F := F) (m (tLoc d))).1 $$ Ht
  icases Ht' with ⟨Htr, Ht0, Ht1⟩
  ihave Ho' := (o_cores (F := F) d (m (oLoc d))).1 $$ Ho
  icases Ho' with ⟨Ho0, Ho1⟩
  iapply ((K (F := F)).wp_run (D (F := F)) 𝒱 (EH := EH) (P := P m) κ d 0) $$ [Hst Hz0 Hz1 Ht0 Ht1 Ho0 Ho1 Hzr Htr Hp Hn]
  isplitr; · iexact Hctx
  isplitl [Hst]; · iexact Hst
  isplitl [Hz0 Hz1 Ht0 Ht1 Ho0 Ho1]
  · rw [st0_eq]
    isplitl [Hz0 Ht0 Ho0]
    · isplitl [Hz0]; · iexact Hz0
      isplitl [Ht0]; · iexact Ht0
      iexact Ho0
    · isplitl [Hz1]; · iexact Hz1
      isplitl [Ht1]; · iexact Ht1
      iexact Ho1
  iintro ⟨Hst, Hdn⟩
  ihave Hdn' := (Entails.of_eq (dn0_eq m d)) $$ Hdn
  icases Hdn' with ⟨⟨Hz0, Ht0, Ho0⟩, ⟨Hz1, Ht1, Ho1⟩⟩
  imodintro
  isplitl [Hst]; · iexact Hst
  isplitl [Hp]; · iexact Hp
  isplitl [Hzr Hz0 Hz1]
  · iapply (split2 (F := F) (m (zLoc d))).2
    isplitl [Hzr]; · iexact Hzr
    isplitl [Hz0]; · iexact Hz0
    iexact Hz1
  isplitl [Hn]; · iexact Hn
  isplitl [Htr Ht0 Ht1]
  · iapply (split2 (F := F) (m (tLoc d))).2
    isplitl [Htr]; · iexact Htr
    isplitl [Ht0]; · iexact Ht0
    iexact Ht1
  iapply (o_cores (F := F) d (gatheredRows (m (tLoc d)) (m (zLoc d)))).2
  isplitl [Ho0]; · iexact Ho0
  iexact Ho1

def fq (d : Dev nD) (s' : Phys nD τ sig (Elt F)) : Prop :=
  s'.mem.mem (oLoc d) = gatheredRows (m (tLoc d)) (m (zLoc d)) ∧ s'.mem.mem (pLoc d) = m (pLoc d) ∧ s'.mem.mem (zLoc d) = m (zLoc d)
    ∧ s'.mem.mem (nLoc d) = m (nLoc d) ∧ s'.mem.mem (tLoc d) = m (tLoc d)

theorem hfin (d : Dev nD) (s' : Phys nD τ sig (Elt F)) : iprop(FIN m d ∗ SI s') ⊢ (⌜fq m d s'⌝ : sProp 𝕄) := by
  iintro ⟨⟨Hp, Hz, Hn, Ht, Ho⟩, HSI⟩
  ihave H := (persistent_entails_right (SI_pointsTo_agree (st := s') (ℓ := pLoc d) (I := Finset.univ) (q := fullShare) (f := m (pLoc d)))) $$ [HSI Hp]
  · isplitl [HSI] <;> iassumption
  icases H with ⟨%hp, HSI, -⟩
  ihave H := (persistent_entails_right (SI_pointsTo_agree (st := s') (ℓ := zLoc d) (I := Finset.univ) (q := fullShare) (f := m (zLoc d)))) $$ [HSI Hz]
  · isplitl [HSI] <;> iassumption
  icases H with ⟨%hz, HSI, -⟩
  ihave H := (persistent_entails_right (SI_pointsTo_agree (st := s') (ℓ := nLoc d) (I := Finset.univ) (q := fullShare) (f := m (nLoc d)))) $$ [HSI Hn]
  · isplitl [HSI] <;> iassumption
  icases H with ⟨%hn, HSI, -⟩
  ihave H := (persistent_entails_right (SI_pointsTo_agree (st := s') (ℓ := tLoc d) (I := Finset.univ) (q := fullShare) (f := m (tLoc d)))) $$ [HSI Ht]
  · isplitl [HSI] <;> iassumption
  icases H with ⟨%ht, HSI, -⟩
  ihave H := (SI_pointsTo_agree (st := s') (ℓ := oLoc d) (I := Finset.univ) (q := fullShare) (f := gatheredRows (m (tLoc d)) (m (zLoc d)))) $$ [HSI Ho]
  · isplitl [HSI] <;> iassumption
  icases H with %ho
  ipureintro
  exact ⟨funext fun i => ho i (Finset.mem_univ i), funext fun i => hp i (Finset.mem_univ i), funext fun i => hz i (Finset.mem_univ i),
    funext fun i => hn i (Finset.mem_univ i), funext fun i => ht i (Finset.mem_univ i)⟩

/-! ## The program's run -/

/-- From any memory whose index words are all below the row count: every weakly fair execution of the device's threads
    terminates, nothing faulting, with the result at the gathered rows and the four arguments unchanged. -/
theorem run_main [FloatOps F] [∀ e, Nonempty (Elt F e)] (m : (ℓ : Loc nD τ sig) → Buf (Elt F) ℓ) (ρ : Dev nD → PrngReg)
    (hz : ∀ (d : Dev nD) j, (m (zLoc d) j).toNat < 100000) :
    θ_run (Cert.KernelIdeal.defs (F := F)) (Cert.KernelIdeal.threads (F := F)) ⟨m, fun _ => 0, ρ⟩
      (fun r => ∀ c : Dev nD, r.2.mem (oLoc c) = Cert.Proof.RowGather.gatheredRows (m (tLoc c)) (m (zLoc c))
        ∧ r.2.mem (pLoc c) = m (pLoc c) ∧ r.2.mem (zLoc c) = m (zLoc c) ∧ r.2.mem (nLoc c) = m (nLoc c) ∧ r.2.mem (tLoc c) = m (tLoc c)) :=
  SparseCore.Cfg.θ_run_sc (K := K (F := F)) (D := D (F := F)) (𝒱 := 𝒱) (EH := EH) (P := P m) facts v₀
    (fun q hq => match q with | 0 => nomatch hq)
    (fun q _ => match q with | 0 => tileObl m hz)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) _ (fun _ h => h)

end Cert.Proof.IdealRun

end
-- ==== Proof.WordBase.lean ====
/-
  The row gather on the SparseCores, common ground: the program as its launch reads it, the memory a tile touches —
  the table and the index array (read only), the result (each tile its own rows), a tile's list scratch and row scratch
  and their 80-entry windows and 80-row slots — and the two guards that tell a full tile (number w = 2·s + c below 31,
  rows 320·w … 320·w + 319 in four pieces of 80) from the last one (w = 31, rows 9920 … 9999 in one piece).
-/
import proofs.«212854_g59167469470367_cont_9to1c4b_422_3_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Batch
import Idealize.ShloMosaic.Lib.Tactic
import proofs.«212854_g59167469470367_cont_9to1c4b_422_3_alg».proof.Proof.Gen.Kernel
import proofs.«212854_g59167469470367_cont_9to1c4b_422_3_alg».proof.Proof.Gen.Kernel.Skeleton

noncomputable section

namespace Cert.Proof.WordBase

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the transfers' counters -/

abbrev UH : Type := URounds (GSem nD τ sig) ℕ
abbrev UU : Type := UH × Counters

abbrev EH : Emb UH (MT nD τ sig (HIx 1) (Elt F) ℕ UU ℕ) := embL

/-! ## The arrays and a tile's scratch -/

abbrev pLoc (d : Dev nD) : Loc nD τ sig := (SparseCore.T d).loc main_arg0
abbrev zLoc (d : Dev nD) : Loc nD τ sig := (SparseCore.T d).loc main_arg1
abbrev nLoc (d : Dev nD) : Loc nD τ sig := (SparseCore.T d).loc main_arg2
abbrev tLoc (d : Dev nD) : Loc nD τ sig := (SparseCore.T d).loc main_arg3
abbrev oLoc (d : Dev nD) : Loc nD τ sig := (SparseCore.T d).loc main_v0

local notation "tV" => (Memref.whole Cert.Kernel.main_arg3_scv : Memref Cert.Kernel.sig Kind.scVector Space.hbm Cert.Kernel.S100000x128 EltTy.f32)
local notation "zV" => (Memref.whole Cert.Kernel.main_arg1_scv : Memref Cert.Kernel.sig Kind.scVector Space.hbm Cert.Kernel.S10000 EltTy.i32)
local notation "oV" => (Memref.whole Cert.Kernel.main_v0_scv : Memref Cert.Kernel.sig Kind.scVector Space.hbm Cert.Kernel.S10000x128 EltTy.f32)
local notation "lV" => (Memref.whole Cert.Kernel.cc0_scratch0 : Memref Cert.Kernel.sig Kind.scVector Space.vmem Cert.Kernel.S320 EltTy.i32)
local notation "rV" => (Memref.whole Cert.Kernel.cc0_scratch1 : Memref Cert.Kernel.sig Kind.scVector Space.vmem Cert.Kernel.S4x80x128 EltTy.f32)

abbrev cV (L : grid0.Coords) : Fin τ.nSC := (L 0).castLE hcore0
abbrev jV (L : grid0.Coords) : Fin τ.nSub := (L 1).castLE hsub0

/-- The table, sliced whole, as every gather names it. -/
abbrev tSl : Memref sig .scVector .hbm S100000x128 .f32 :=
  (tV).slice (Rect.unit (s := S100000x128) ![0, 0] S100000x128.size inb_S100000x128_S100000x128_0_0) (fun _ => rfl)
/-- A full tile's 320 entries of the index array. -/
abbrev zSl (L : grid0.Coords) (h1 : k0_cond1 L = 1#1) : Memref sig .scVector .hbm S320 .i32 :=
  (zV).slice (Rect.unit (s := S10000) (k0_off1 L) S320.size (k0_off1_inb L h1)) (fun _ => rfl)
/-- The last tile's 80 entries of the index array, and its 80 rows of the result. -/
abbrev zTail : Memref sig .scVector .hbm S80 .i32 := (zV).slice (Rect.unit (s := S10000) ![9920] S80.size inb_S10000_S80_9920) (fun _ => rfl)
abbrev oTail : Memref sig .scVector .hbm S80x128 .f32 := (oV).slice (Rect.unit (s := S10000x128) ![9920, 0] S80x128.size inb_S10000x128_S80x128_9920_0) (fun _ => rfl)
/-- The four 80-entry windows of the list scratch. -/
abbrev lWin0 : Memref sig .scVector .vmem S80 .i32 := (lV).slice (Rect.unit (s := S320) ![0] S80.size inb_S320_S80_0) (fun _ => rfl)
abbrev lWin1 : Memref sig .scVector .vmem S80 .i32 := (lV).slice (Rect.unit (s := S320) ![80] S80.size inb_S320_S80_80) (fun _ => rfl)
abbrev lWin2 : Memref sig .scVector .vmem S80 .i32 := (lV).slice (Rect.unit (s := S320) ![160] S80.size inb_S320_S80_160) (fun _ => rfl)
abbrev lWin3 : Memref sig .scVector .vmem S80 .i32 := (lV).slice (Rect.unit (s := S320) ![240] S80.size inb_S320_S80_240) (fun _ => rfl)
/-- The four 80-row slots of the row scratch. -/
abbrev slot0 : Memref sig .scVector .vmem S80x128 .f32 := ((rV).slice (Rect.unit (s := S4x80x128) ![0, 0, 0] S1x80x128.size inb_S4x80x128_S1x80x128_0_0_0) (fun _ => rfl)).squeeze S80x128 squeezes_S1x80x128_S80x128
abbrev slot1 : Memref sig .scVector .vmem S80x128 .f32 := ((rV).slice (Rect.unit (s := S4x80x128) ![1, 0, 0] S1x80x128.size inb_S4x80x128_S1x80x128_1_0_0) (fun _ => rfl)).squeeze S80x128 squeezes_S1x80x128_S80x128
abbrev slot2 : Memref sig .scVector .vmem S80x128 .f32 := ((rV).slice (Rect.unit (s := S4x80x128) ![2, 0, 0] S1x80x128.size inb_S4x80x128_S1x80x128_2_0_0) (fun _ => rfl)).squeeze S80x128 squeezes_S1x80x128_S80x128
abbrev slot3 : Memref sig .scVector .vmem S80x128 .f32 := ((rV).slice (Rect.unit (s := S4x80x128) ![3, 0, 0] S1x80x128.size inb_S4x80x128_S1x80x128_3_0_0) (fun _ => rfl)).squeeze S80x128 squeezes_S1x80x128_S80x128
/-- The four 80-row pieces of the result a full tile writes, as the body slices them. -/
abbrev oCh0 (L : grid0.Coords) (h1 : k0_cond1 L = 1#1) : Memref sig .scVector .hbm S80x128 .f32 := (oV).slice (Rect.unit (s := S10000x128) (k0_off2 L 0#32) S80x128.size (k0_off2_inb L h1 0)) (fun _ => rfl)
abbrev oCh1 (L : grid0.Coords) (h1 : k0_cond1 L = 1#1) : Memref sig .scVector .hbm S80x128 .f32 := (oV).slice (Rect.unit (s := S10000x128) (k0_off2 L 80#32) S80x128.size (k0_off2_inb L h1 1)) (fun _ => rfl)
abbrev oCh2 (L : grid0.Coords) (h1 : k0_cond1 L = 1#1) : Memref sig .scVector .hbm S80x128 .f32 := (oV).slice (Rect.unit (s := S10000x128) (k0_off2 L 160#32) S80x128.size (k0_off2_inb L h1 2)) (fun _ => rfl)
abbrev oCh3 (L : grid0.Coords) (h1 : k0_cond1 L = 1#1) : Memref sig .scVector .hbm S80x128 .f32 := (oV).slice (Rect.unit (s := S10000x128) (k0_off2 L 240#32) S80x128.size (k0_off2_inb L h1 3)) (fun _ => rfl)

/-! ## The two guards -/

/-- The body's second guard (is this the last tile?), as the body computes it. -/
def lastCond (L : grid0.Coords) : BitVec 1 :=
  Scalar.cmpi CmpIPredicate.ne (Scalar.extui (Scalar.cmpi CmpIPredicate.eq (Scalar.addi (Scalar.muli (BitVec.ofNat 32 (L 1).val) 2#32) (BitVec.ofNat 32 (L 0).val)) 31#32)) 0#32

theorem not_last_of_full : ∀ L : grid0.Coords, k0_cond1 L = 1#1 → ¬ lastCond L = 1#1 := by decide +kernel
theorem last_of_not_full : ∀ L : grid0.Coords, ¬ k0_cond1 L = 1#1 → lastCond L = 1#1 := by decide +kernel
/-- A full tile's number is below 31; the last tile is subcore 15 of SparseCore 1. -/
theorem full_lt : ∀ L : grid0.Coords, k0_cond1 L = 1#1 → 2 * (L 1).val + (L 0).val < 31 := by decide +kernel
theorem last_eq : ∀ L : grid0.Coords, ¬ k0_cond1 L = 1#1 → (L 0).val = 1 ∧ (L 1).val = 15 := by decide +kernel

/-! ## A tile's eight DMA semaphores and two scratch buffers, out of its own storage -/

abbrev gsem0 : DmaSem sig := ((cc0_scratch2.slice (Rect.unit (s := S4) ![0] S1.size inb_S4_S1_0)).squeeze S_ squeezes_S1_S_).sem
abbrev gsem1 : DmaSem sig := ((cc0_scratch2.slice (Rect.unit (s := S4) ![1] S1.size inb_S4_S1_1)).squeeze S_ squeezes_S1_S_).sem
abbrev gsem2 : DmaSem sig := ((cc0_scratch2.slice (Rect.unit (s := S4) ![2] S1.size inb_S4_S1_2)).squeeze S_ squeezes_S1_S_).sem
abbrev gsem3 : DmaSem sig := ((cc0_scratch2.slice (Rect.unit (s := S4) ![3] S1.size inb_S4_S1_3)).squeeze S_ squeezes_S1_S_).sem
abbrev ssem : DmaSem sig := cc0_scratch3.sem
abbrev asem : DmaSem sig := cc0_scoped0.sem
abbrev bsem : DmaSem sig := cc0_scoped1.sem
abbrev csem : DmaSem sig := cc0_scoped2.sem

section Cells

local notation "𝕄" => MT nD τ sig (HIx 1) (Elt F) ℕ UU ℕ

variable (d : Dev nD) (L : grid0.Coords)

abbrev cell (k : DmaSem sig) : GSem nD τ sig := (V d (cV L) (jV L), SemLoc.dma k)

theorem cell_mem (k : DmaSem sig) : cell d L k ∈ ownCells (V d (cV L) (jV L)) :=
  mem_ownCells.mpr ⟨rfl, by show (SemLoc.dma k : SemLoc sig).isScoped .scVector = true; revert k; decide⟩

theorem cell_ne {k k' : DmaSem sig} (h : k ≠ k') : cell d L k ≠ cell d L k' := fun e => h (by simpa [cell] using e)

/-- The tile's eight DMA semaphores, all at zero, taken out of its own cells one by one. -/
theorem ownSems0_V :
    (ownSems0 (V d (cV L) (jV L)) : sProp 𝕄)
      = iprop(semVal (cell d L gsem0) 0 ∗ semVal (cell d L gsem1) 0 ∗ semVal (cell d L gsem2) 0 ∗ semVal (cell d L gsem3) 0
          ∗ semVal (cell d L ssem) 0 ∗ semVal (cell d L asem) 0 ∗ semVal (cell d L bsem) 0 ∗ semVal (cell d L csem) 0
          ∗ bigSep (((((((((ownCells (V d (cV L) (jV L))).erase (cell d L gsem0)).erase (cell d L gsem1)).erase (cell d L gsem2)).erase (cell d L gsem3)).erase
              (cell d L ssem)).erase (cell d L asem)).erase (cell d L bsem)).erase (cell d L csem)) fun g => semVal g 0) := by
  unfold SparseCore.Cfg.ownSems0
  rw [SparseCore.bigSep_erase' (cell_mem d L gsem0),
    SparseCore.bigSep_erase' (Finset.mem_erase.mpr ⟨cell_ne d L (by decide), cell_mem d L gsem1⟩),
    SparseCore.bigSep_erase' (Finset.mem_erase.mpr ⟨cell_ne d L (by decide), Finset.mem_erase.mpr ⟨cell_ne d L (by decide), cell_mem d L gsem2⟩⟩),
    SparseCore.bigSep_erase' (Finset.mem_erase.mpr ⟨cell_ne d L (by decide), Finset.mem_erase.mpr ⟨cell_ne d L (by decide), Finset.mem_erase.mpr ⟨cell_ne d L (by decide), cell_mem d L gsem3⟩⟩⟩),
    SparseCore.bigSep_erase' (Finset.mem_erase.mpr ⟨cell_ne d L (by decide), Finset.mem_erase.mpr ⟨cell_ne d L (by decide), Finset.mem_erase.mpr ⟨cell_ne d L (by decide),
      Finset.mem_erase.mpr ⟨cell_ne d L (by decide), cell_mem d L ssem⟩⟩⟩⟩),
    SparseCore.bigSep_erase' (Finset.mem_erase.mpr ⟨cell_ne d L (by decide), Finset.mem_erase.mpr ⟨cell_ne d L (by decide), Finset.mem_erase.mpr ⟨cell_ne d L (by decide),
      Finset.mem_erase.mpr ⟨cell_ne d L (by decide), Finset.mem_erase.mpr ⟨cell_ne d L (by decide), cell_mem d L asem⟩⟩⟩⟩⟩),
    SparseCore.bigSep_erase' (Finset.mem_erase.mpr ⟨cell_ne d L (by decide), Finset.mem_erase.mpr ⟨cell_ne d L (by decide), Finset.mem_erase.mpr ⟨cell_ne d L (by decide),
      Finset.mem_erase.mpr ⟨cell_ne d L (by decide), Finset.mem_erase.mpr ⟨cell_ne d L (by decide), Finset.mem_erase.mpr ⟨cell_ne d L (by decide), cell_mem d L bsem⟩⟩⟩⟩⟩⟩),
    SparseCore.bigSep_erase' (Finset.mem_erase.mpr ⟨cell_ne d L (by decide), Finset.mem_erase.mpr ⟨cell_ne d L (by decide), Finset.mem_erase.mpr ⟨cell_ne d L (by decide),
      Finset.mem_erase.mpr ⟨cell_ne d L (by decide), Finset.mem_erase.mpr ⟨cell_ne d L (by decide), Finset.mem_erase.mpr ⟨cell_ne d L (by decide),
      Finset.mem_erase.mpr ⟨cell_ne d L (by decide), cell_mem d L csem⟩⟩⟩⟩⟩⟩⟩)]

/-- The tile's two scratch buffers (the index list, the gathered rows), at some contents, out of its own buffers. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

end Cells

end Cert.Proof.WordBase

end
-- ==== Proof.WordValue.lean ====
/-
  What the moved words are, index by index: the list a full tile fetches is its stretch of the index array; a window of
  the list names, entry by entry, rows of the table; the gather puts those rows, column by column, into a slot of the row
  scratch, and the four slots do not overlap, so each reads back as its own gather's rows; and a piece of the result
  written whole holds, at the image of each index, the value written there.
-/
import proofs.«212854_g59167469470367_cont_9to1c4b_422_3_alg».proof.Proof.WordBase
import proofs.«212854_g59167469470367_cont_9to1c4b_422_3_alg».proof.Proof.RowGather
import Idealize.ShloMosaic.Lib.ValueIdx
import Idealize.ShloMosaic.Lib.Writes

noncomputable section

namespace Cert.Proof.WordValue

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.ValueIdx Cert.Proof.WordBase Cert.Proof.RowGather

variable {F : FTy → Type}

local notation "tV" => (Memref.whole Cert.Kernel.main_arg3_scv : Memref Cert.Kernel.sig Kind.scVector Space.hbm Cert.Kernel.S100000x128 EltTy.f32)
local notation "zV" => (Memref.whole Cert.Kernel.main_arg1_scv : Memref Cert.Kernel.sig Kind.scVector Space.hbm Cert.Kernel.S10000 EltTy.i32)
local notation "oV" => (Memref.whole Cert.Kernel.main_v0_scv : Memref Cert.Kernel.sig Kind.scVector Space.hbm Cert.Kernel.S10000x128 EltTy.f32)
local notation "lV" => (Memref.whole Cert.Kernel.cc0_scratch0 : Memref Cert.Kernel.sig Kind.scVector Space.vmem Cert.Kernel.S320 EltTy.i32)
local notation "rV" => (Memref.whole Cert.Kernel.cc0_scratch1 : Memref Cert.Kernel.sig Kind.scVector Space.vmem Cert.Kernel.S4x80x128 EltTy.f32)

/-- The first row of tile `L`: 320 times its number `2·s + c`. -/
def baseRow (L : grid0.Coords) : ℕ := 640 * (L 1).val + 320 * (L 0).val

theorem baseRow_lt (L : grid0.Coords) (h1 : k0_cond1 L = 1#1) : baseRow L + 320 ≤ 9920 := by
  have := full_lt L h1; unfold baseRow; omega

/-- What a full tile fetches into its list: entry `i` is the index array's entry `baseRow + i`. -/
theorem zSl_read (L : grid0.Coords) (h1 : k0_cond1 L = 1#1) (Z : S10000.Idx → Elt F .i32) (i : S320.Idx) :
    (zSl L h1).view.read (Elt F) Z i = Z (ix1 ⟨baseRow L + (i 0).val, by have := baseRow_lt L h1; have h : (i 0).val < 320 := (i 0).isLt; omega⟩) := by
  rw [View.read_apply, cast_eq]
  refine congrArg Z (funext fun a => ?_)
  match a with
  | ⟨0, _⟩ =>
    refine Fin.ext ?_
    show (k0_off1 L) 0 + 1 * (i 0).val = baseRow L + (i 0).val
    rw [k0_off1_eq]; simp [baseRow]

/-- A window of the list scratch reads the list at its offset: entry `j` of the window at `lo` is entry `lo + j`. -/
theorem lWin_read (lo : ℕ) (h : ∀ a, (![lo] : Fin 1 → ℕ) a + S80.size a ≤ S320.size a) (C : S320.Idx → Elt F .i32) (j : S80.Idx) :
    ((lV).slice (Rect.unit (s := S320) ![lo] S80.size h) (fun _ => rfl)).view.read (Elt F) C j
      = C (ix1 ⟨lo + (j 0).val, by have h0 := h 0; have hj : (j 0).val < 80 := (j 0).isLt; simp at h0; omega⟩) := by
  rw [View.read_apply, cast_eq]
  refine congrArg C (funext fun a => ?_)
  match a with
  | ⟨0, _⟩ => exact Fin.ext (by show lo + 1 * (j 0).val = lo + (j 0).val; omega)

/-- Two slots of the row scratch share no element. -/
theorem slot_disjoint (k k' : ℕ) (hk : ∀ a, (![k, 0, 0] : Fin 3 → ℕ) a + S1x80x128.size a ≤ S4x80x128.size a)
    (hk' : ∀ a, (![k', 0, 0] : Fin 3 → ℕ) a + S1x80x128.size a ≤ S4x80x128.size a) (hne : k ≠ k') :
    Disjoint (((rV).slice (Rect.unit (s := S4x80x128) ![k, 0, 0] S1x80x128.size hk) (fun _ => rfl)).squeeze S80x128 squeezes_S1x80x128_S80x128).view.set
      (((rV).slice (Rect.unit (s := S4x80x128) ![k', 0, 0] S1x80x128.size hk') (fun _ => rfl)).squeeze S80x128 squeezes_S1x80x128_S80x128).view.set := by
  show Disjoint ((((rV).view.slice (Rect.unit (s := S4x80x128) ![k, 0, 0] S1x80x128.size hk)).reshape S80x128 squeezes_S1x80x128_S80x128.numel_eq).set)
    ((((rV).view.slice (Rect.unit (s := S4x80x128) ![k', 0, 0] S1x80x128.size hk')).reshape S80x128 squeezes_S1x80x128_S80x128.numel_eq).set)
  rw [View.set_reshape, View.set_reshape, Memref.view_whole, View.set_slice_whole, View.set_slice_whole]
  refine Rect.unit_disjoint 0 ?_
  show k + 1 ≤ k' ∨ k' + 1 ≤ k
  omega

/-- Slot `k` of the row scratch, for any slot number. -/
abbrev slotK (k : ℕ) (hk : ∀ a, (![k, 0, 0] : Fin 3 → ℕ) a + S1x80x128.size a ≤ S4x80x128.size a) : Memref sig .scVector .vmem S80x128 .f32 :=
  ((rV).slice (Rect.unit (s := S4x80x128) ![k, 0, 0] S1x80x128.size hk) (fun _ => rfl)).squeeze S80x128 squeezes_S1x80x128_S80x128

/-- Reading one slot after a write into another sees what the row scratch held before that write. -/
theorem slot_read_other (k k' : ℕ) (hk hk') (hne : k ≠ k') (f : S4x80x128.Idx → Elt F .f32) (w : S80x128.Idx → Elt F .f32) :
    (slotK k hk).view.read (Elt F) ((slotK k' hk').view.write (Elt F) f w Finset.univ) = (slotK k hk).view.read (Elt F) f := by
  funext y
  rw [View.read_apply, View.read_apply, View.write_of_not_mem]
  rw [View.setOn_univ]
  exact Finset.disjoint_left.mp (slot_disjoint k k' hk hk' hne) (View.emb_mem_set _ y)

/-- After the four gathers each slot reads as its own gather's rows, whatever the row scratch held before. -/
theorem slots_read0 (fr : S4x80x128.Idx → Elt F .f32) (g0 g1 g2 g3 : S80x128.Idx → Elt F .f32) :
    slot0.view.read (Elt F) (slot3.view.write (Elt F) (slot2.view.write (Elt F) (slot1.view.write (Elt F) (slot0.view.write (Elt F) fr g0 Finset.univ) g1 Finset.univ) g2 Finset.univ) g3 Finset.univ) = g0 := by
  rw [slot_read_other 0 3 _ _ (by decide), slot_read_other 0 2 _ _ (by decide), slot_read_other 0 1 _ _ (by decide), View.read_write_univ]
theorem slots_read1 (fr : S4x80x128.Idx → Elt F .f32) (g0 g1 g2 g3 : S80x128.Idx → Elt F .f32) :
    slot1.view.read (Elt F) (slot3.view.write (Elt F) (slot2.view.write (Elt F) (slot1.view.write (Elt F) (slot0.view.write (Elt F) fr g0 Finset.univ) g1 Finset.univ) g2 Finset.univ) g3 Finset.univ) = g1 := by
  rw [slot_read_other 1 3 _ _ (by decide), slot_read_other 1 2 _ _ (by decide), View.read_write_univ]
theorem slots_read2 (fr : S4x80x128.Idx → Elt F .f32) (g0 g1 g2 g3 : S80x128.Idx → Elt F .f32) :
    slot2.view.read (Elt F) (slot3.view.write (Elt F) (slot2.view.write (Elt F) (slot1.view.write (Elt F) (slot0.view.write (Elt F) fr g0 Finset.univ) g1 Finset.univ) g2 Finset.univ) g3 Finset.univ) = g2 := by
  rw [slot_read_other 2 3 _ _ (by decide), View.read_write_univ]
theorem slots_read3 (fr : S4x80x128.Idx → Elt F .f32) (g0 g1 g2 g3 : S80x128.Idx → Elt F .f32) :
    slot3.view.read (Elt F) (slot3.view.write (Elt F) (slot2.view.write (Elt F) (slot1.view.write (Elt F) (slot0.view.write (Elt F) fr g0 Finset.univ) g1 Finset.univ) g2 Finset.univ) g3 Finset.univ) = g3 := by
  rw [View.read_write_univ]

/-- Entry `k` of a list of 80 words, in row-major order, is the word at index `k`. -/
theorem rows_val {o z : ℕ} (idx : S80.Idx → Elt F .i32) (hn : S80.numel = o) (h : ∀ x, (idx x).toNat < z) (k : Fin o) :
    (SparseCore.rows idx hn h k).val = (idx (ix1 ⟨k.val, by have h80 : S80.numel = 80 := (by decide); have := k.isLt; omega⟩)).toNat := by
  unfold SparseCore.rows
  show (idx (S80.rowMajor.symm (k.cast hn.symm))).toNat = _
  congr 2
  rw [Equiv.symm_apply_eq]
  exact Fin.ext (by rw [Shape.rowMajor_val_one]; rfl)

/-- The gather's rows at an index: row `y₀` of the gathered block is the table's row the list names for `y₀`, column by column. -/
theorem gather_at (Tb : S100000x128.Idx → Elt F .f32)
    (r : Fin (S80x128.size gathers_S100000x128_S80x128.axis') → Fin (S100000x128.size gathers_S100000x128_S80x128.axis)) (y : S80x128.Idx) :
    SparseCore.gatherPayload gathers_S100000x128_S80x128 (tSl.view.read (Elt F) Tb) r y = Tb (ix2 (r (y 0)) (y 1)) := by
  unfold SparseCore.gatherPayload
  rw [View.read_apply, cast_eq]
  refine congrArg Tb (funext fun a => ?_)
  match a with
  | ⟨0, _⟩ =>
    refine Fin.ext ?_
    show 0 + 1 * (gathers_S100000x128_S80x128.idx r y 0).val = (r (y 0)).val
    rw [show (gathers_S100000x128_S80x128.idx r y 0) = r (y 0) from Shape.Gathers.idx_axis gathers_S100000x128_S80x128 r y]; omega
  | ⟨1, _⟩ =>
    refine Fin.ext ?_
    show 0 + 1 * (gathers_S100000x128_S80x128.idx r y 1).val = (y 1).val
    rw [Shape.Gathers.idx_of_ne gathers_S100000x128_S80x128 r y 1 (by decide)]; show 0 + 1 * (y 1).val = _; omega

/-- The fetched list, then a window of it, then the rows it names: entry `k` of the window at `lo` of a list fetched
    from `base` on names the row whose number is the index array's word at `base + lo + k`. -/
theorem window_rows_val (L : grid0.Coords) (h1 : k0_cond1 L = 1#1) (Z : S10000.Idx → Elt F .i32) (fl : S320.Idx → Elt F .i32)
    (lo : ℕ) (h : ∀ a, (![lo] : Fin 1 → ℕ) a + S80.size a ≤ S320.size a) {o z : ℕ} (hn : S80.numel = o)
    (hin : ∀ x, (((lV).slice (Rect.unit (s := S320) ![lo] S80.size h) (fun _ => rfl)).view.read (Elt F)
      (View.write (Elt F) (lV).view fl (ReadAs.same.apply ((zSl L h1).view.read (Elt F) Z)) Finset.univ) x).toNat < z) (k : Fin o)
    (hb : baseRow L + lo + k.val < 10000) :
    (SparseCore.rows (((lV).slice (Rect.unit (s := S320) ![lo] S80.size h) (fun _ => rfl)).view.read (Elt F)
      (View.write (Elt F) (lV).view fl (ReadAs.same.apply ((zSl L h1).view.read (Elt F) Z)) Finset.univ)) hn hin k).val
      = (Z (ix1 ⟨baseRow L + lo + k.val, hb⟩)).toNat := by
  rw [rows_val, lWin_read]
  simp only [Memref.view_whole, View.write_whole_univ]
  show ((zSl L h1).view.read (Elt F) Z _).toNat = _
  rw [zSl_read]
  congr 3
  exact Fin.ext (by show baseRow L + (lo + k.val) = baseRow L + lo + k.val; omega)

/-- An element of a piece of the result is the image of an index of the piece: its row is the piece's first row plus
    the index's row, its column the index's column. -/
theorem oPiece_mem (off : Fin 2 → ℕ) (lo : ℕ) (hoff : off = ![lo, 0]) (h : ∀ a, off a + S80x128.size a ≤ S10000x128.size a)
    {x : S10000x128.Idx} (hx : x ∈ ((oV).slice (Rect.unit (s := S10000x128) off S80x128.size h) (fun _ => rfl)).view.set) :
    ∃ y : S80x128.Idx, ((oV).slice (Rect.unit (s := S10000x128) off S80x128.size h) (fun _ => rfl)).view.emb y = x
      ∧ (x 0).val = lo + (y 0).val ∧ (x 1).val = (y 1).val := by
  subst hoff
  obtain ⟨y, -, rfl⟩ := Finset.mem_map.mp hx
  refine ⟨y, rfl, ?_, ?_⟩
  · show lo + 1 * (y 0).val = _; omega
  · show 0 + 1 * (y 1).val = _; omega

/-- A piece of the result written whole with `w` holds `w` at each of its indices. -/
theorem oPiece_written (off : Fin 2 → ℕ) (h : ∀ a, off a + S80x128.size a ≤ S10000x128.size a)
    (fo : S10000x128.Idx → Elt F .f32) (w : S80x128.Idx → Elt F .f32) (y : S80x128.Idx) :
    ((oV).slice (Rect.unit (s := S10000x128) off S80x128.size h) (fun _ => rfl)).view.writes (Elt F) fo [⟨Rect.whole S80x128, w⟩]
      (((oV).slice (Rect.unit (s := S10000x128) off S80x128.size h) (fun _ => rfl)).view.emb y) = w y := by
  have e := View.read_writes_cons_emb (Val := Elt F) ((oV).slice (Rect.unit (s := S10000x128) off S80x128.size h) (fun _ => rfl)).view fo (Rect.whole S80x128) w [] y
  have hy : (Rect.whole S80x128).emb y = y := Rect.emb_whole_apply S80x128 y
  rw [hy, View.read_apply, cast_eq] at e
  exact e

end Cert.Proof.WordValue
end
-- ==== Proof.WordTile.lean ====
/-
  One vector subcore's task of the row gather. Tile (c, s) — subcore s of SparseCore c, number w = 2·s + c — is handed a
  read share of the index array and of the table and, outright, rows 320·w … 320·w + 319 of the result (the last tile:
  what is left of them, rows 9920 … 9999). It ends holding the same shares and its rows of the result at the gathered
  rows: row i of the result is the table's row number z i.
-/
import proofs.«212854_g59167469470367_cont_9to1c4b_422_3_alg».proof.Proof.WordBase
import proofs.«212854_g59167469470367_cont_9to1c4b_422_3_alg».proof.Proof.WordValue
import proofs.«212854_g59167469470367_cont_9to1c4b_422_3_alg».proof.Proof.RowGather
import proofs.«212854_g59167469470367_cont_9to1c4b_422_3_alg».proof.Proof.RowRanges

noncomputable section

namespace Cert.Proof.WordTile

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.ValueIdx Cert.Proof.WordBase Cert.Proof.WordValue Cert.Proof.RowGather Cert.Proof.RowRanges

variable {F : FTy → Type}

local notation "𝕄" => MT nD τ sig (HIx 1) (Elt F) ℕ UU ℕ

local notation "tV" => (Memref.whole Cert.Kernel.main_arg3_scv : Memref Cert.Kernel.sig Kind.scVector Space.hbm Cert.Kernel.S100000x128 EltTy.f32)
local notation "zV" => (Memref.whole Cert.Kernel.main_arg1_scv : Memref Cert.Kernel.sig Kind.scVector Space.hbm Cert.Kernel.S10000 EltTy.i32)
local notation "oV" => (Memref.whole Cert.Kernel.main_v0_scv : Memref Cert.Kernel.sig Kind.scVector Space.hbm Cert.Kernel.S10000x128 EltTy.f32)
local notation "lV" => (Memref.whole Cert.Kernel.cc0_scratch0 : Memref Cert.Kernel.sig Kind.scVector Space.vmem Cert.Kernel.S320 EltTy.i32)
local notation "rV" => (Memref.whole Cert.Kernel.cc0_scratch1 : Memref Cert.Kernel.sig Kind.scVector Space.vmem Cert.Kernel.S4x80x128 EltTy.f32)

variable (m : (ℓ : Loc nD τ sig) → Buf (Elt F) ℓ)

variable [FloatOps F]

variable (d : Dev nD) (L : grid0.Coords)

/-- What a tile is handed: shares of the index array and of the table, its rows of the result at the launch contents. -/
abbrev tileIn (qz qt : PosShare TreeShare) : sProp 𝕄 :=
  iprop((zLoc d ↦{qz} m (zLoc d)) ∗ (tLoc d ↦{qt} m (tLoc d)) ∗ (oLoc d ↦[tileRows (L 0).val (L 1).val]{fullShare} m (oLoc d)))
/-- What it hands back: the same shares, its rows of the result at the gathered rows. -/
abbrev tileOut (qz qt : PosShare TreeShare) : sProp 𝕄 :=
  iprop((zLoc d ↦{qz} m (zLoc d)) ∗ (tLoc d ↦{qt} m (tLoc d))
    ∗ (oLoc d ↦[tileRows (L 0).val (L 1).val]{fullShare} gatheredRows (m (tLoc d)) (m (zLoc d))))

omit [FloatOps F] in
/-- Every word the list scratch holds after the index fetch is a word of the index array, so below the table's row
    count: whatever window of the list a gather reads, whatever the scratch held before. -/
theorem list_lt (hz : ∀ j, (m (zLoc d) j).toNat < 100000) (k0_h1 : k0_cond1 L = 1#1)
    (fl : Buf (Elt F) ((V d (cV L) (jV L)).loc cc0_scratch0)) (off : Fin 1 → ℕ) (h : ∀ a, off a + S80.size a ≤ S320.size a) :
    ∀ x, (((lV).slice (Rect.unit (s := S320) off S80.size h) (fun _ => rfl)).view.read (Elt F)
      (View.write (Elt F) (lV).view fl (ReadAs.same.apply (((zV).slice (Rect.unit (s := S10000) (k0_off1 L) S320.size (k0_off1_inb L k0_h1)) (fun _ => rfl)).view.read (Elt F) (m (zLoc d)))) Finset.univ) x).toNat
      < S100000x128.size gathers_S100000x128_S80x128.axis := by
  intro x
  simp only [Memref.view_whole, View.write_whole_univ]
  simp only [View.read_apply, cast_eq]
  exact hz _

omit [FloatOps F] in
/-- A piece of the result a full tile wrote — rows `baseRow + lo …` of it, from the gather over the list's window at
    `lo` — holds the gathered rows: row `i` is the table's row number `z i`. -/
theorem chunk_value (hz : ∀ j, (m (zLoc d) j).toNat < 100000) (k0_h1 : k0_cond1 L = 1#1) (fo : Buf (Elt F) (oLoc d))
    (lo : ℕ) (hlo : lo + 80 ≤ 320) (off : Fin 2 → ℕ) (hoff : off = ![baseRow L + lo, 0]) (h : ∀ a, off a + S80x128.size a ≤ S10000x128.size a)
    (P : S80x128.Idx → Elt F .f32)
    (r : Fin (S80x128.size gathers_S100000x128_S80x128.axis') → Fin (S100000x128.size gathers_S100000x128_S80x128.axis))
    (hP : P = SparseCore.gatherPayload gathers_S100000x128_S80x128 (tSl.view.read (Elt F) (m (tLoc d))) r)
    (hr : ∀ (k : Fin (S80x128.size gathers_S100000x128_S80x128.axis')) (hb : baseRow L + lo + k.val < 10000), (r k).val = (m (zLoc d) (ix1 ⟨baseRow L + lo + k.val, hb⟩)).toNat) :
    ∀ x ∈ ((oV).slice (Rect.unit (s := S10000x128) off S80x128.size h) (fun _ => rfl)).view.set,
      ((oV).slice (Rect.unit (s := S10000x128) off S80x128.size h) (fun _ => rfl)).view.writes (Elt F) fo [⟨Rect.whole S80x128, P⟩] x
        = gatheredRows (m (tLoc d)) (m (zLoc d)) x := by
  intro x hx
  obtain ⟨y, rfl, hx0, hx1⟩ := oPiece_mem off (baseRow L + lo) hoff h hx
  rw [oPiece_written, hP, gather_at]
  unfold gatheredRows
  have hy0 : (y 0).val < 80 := (y 0).isLt
  have hbr := baseRow_lt L k0_h1
  refine congrArg (m (tLoc d)) (funext fun a => ?_)
  match a with
  | ⟨0, _⟩ =>
    refine Fin.ext ?_
    show (r (y 0)).val = (rowOfWord _).val
    rw [hr (y 0) (by show baseRow L + lo + (y 0).val < 10000; omega), rowOfWord_val (hz _)]
    congr 3
    exact Fin.ext hx0.symm
  | ⟨1, _⟩ => exact Fin.ext hx1.symm

omit [FloatOps F] in
/-- The same as an exchange of what is held: the piece at what the copy out wrote, for the piece at the gathered rows. -/
theorem chunk_done (hz : ∀ j, (m (zLoc d) j).toNat < 100000) (k0_h1 : k0_cond1 L = 1#1) (fo : Buf (Elt F) (oLoc d))
    (lo : ℕ) (hlo : lo + 80 ≤ 320) (off : Fin 2 → ℕ) (hoff : off = ![baseRow L + lo, 0]) (h : ∀ a, off a + S80x128.size a ≤ S10000x128.size a)
    (n0 : ℕ) (hset : ((oV).slice (Rect.unit (s := S10000x128) off S80x128.size h) (fun _ => rfl)).view.set = rowsOf n0 80)
    (P : S80x128.Idx → Elt F .f32)
    (r : Fin (S80x128.size gathers_S100000x128_S80x128.axis') → Fin (S100000x128.size gathers_S100000x128_S80x128.axis))
    (hP : P = SparseCore.gatherPayload gathers_S100000x128_S80x128 (tSl.view.read (Elt F) (m (tLoc d))) r)
    (hr : ∀ (k : Fin (S80x128.size gathers_S100000x128_S80x128.axis')) (hb : baseRow L + lo + k.val < 10000), (r k).val = (m (zLoc d) (ix1 ⟨baseRow L + lo + k.val, hb⟩)).toNat) :
    (((oV).slice (Rect.unit (s := S10000x128) off S80x128.size h) (fun _ => rfl)).view.loc (V d (cV L) (jV L))
        ↦[((oV).slice (Rect.unit (s := S10000x128) off S80x128.size h) (fun _ => rfl)).view.set]{fullShare}
          ((oV).slice (Rect.unit (s := S10000x128) off S80x128.size h) (fun _ => rfl)).view.writes (Elt F) fo [⟨Rect.whole S80x128, P⟩] : sProp 𝕄)
      ⊢ (oLoc d ↦[rowsOf n0 80]{fullShare} gatheredRows (m (tLoc d)) (m (zLoc d))) := by
  rw [pointsTo_congr (chunk_value m d L hz k0_h1 fo lo hlo off hoff h P r hP hr), hset]

omit [FloatOps F] in
/-- What the last tile fetches into the first window of its list: entry `i` is the index array's entry `9920 + i`. -/
theorem zTail_read (Z : S10000.Idx → Elt F .i32) (i : S80.Idx) :
    (zTail).view.read (Elt F) Z i = Z (ix1 ⟨9920 + (i 0).val, by have h : (i 0).val < 80 := (i 0).isLt; omega⟩) := by
  rw [View.read_apply, cast_eq]
  refine congrArg Z (funext fun a => ?_)
  match a with
  | ⟨0, _⟩ => exact Fin.ext (by show 9920 + 1 * (i 0).val = 9920 + (i 0).val; omega)

omit [FloatOps F] in
/-- The first window of the list, after the last tile's fetch into it, reads as what was fetched. -/
theorem tail_window (fl : S320.Idx → Elt F .i32) (w : S80.Idx → Elt F .i32) :
    lWin0.view.read (Elt F) ((lV).view.writes (Elt F) fl [⟨Rect.unit (s := S320) ![0] S80.size inb_S320_S80_0, w⟩]) = w :=
  View.read_write_univ (v := lWin0.view) fl w

omit [FloatOps F] in
/-- Every word of that window is a word of the index array, so below the table's row count. -/
theorem tail_lt (hz : ∀ j, (m (zLoc d) j).toNat < 100000) (fl : Buf (Elt F) ((V d (cV L) (jV L)).loc cc0_scratch0)) :
    ∀ x, (lWin0.view.read (Elt F) ((lV).view.writes (Elt F) fl
      [⟨Rect.unit (s := S320) ![0] S80.size inb_S320_S80_0, ReadAs.same.apply ((zTail).view.read (Elt F) (m (zLoc d)))⟩]) x).toNat
      < S100000x128.size gathers_S100000x128_S80x128.axis := by
  intro x
  rw [tail_window]
  show ((zTail).view.read (Elt F) (m (zLoc d)) x).toNat < _
  rw [zTail_read]
  exact hz _

omit [FloatOps F] in
/-- The rows the last tile's list names: entry `k` names the row whose number is the index array's word at `9920 + k`. -/
theorem tail_rows_val (Z : S10000.Idx → Elt F .i32) (fl : S320.Idx → Elt F .i32) {o z : ℕ} (hn : S80.numel = o)
    (hin : ∀ x, (lWin0.view.read (Elt F) ((lV).view.writes (Elt F) fl
      [⟨Rect.unit (s := S320) ![0] S80.size inb_S320_S80_0, ReadAs.same.apply ((zTail).view.read (Elt F) Z)⟩]) x).toNat < z)
    (k : Fin o) (hb : 9920 + k.val < 10000) :
    (SparseCore.rows (lWin0.view.read (Elt F) ((lV).view.writes (Elt F) fl
      [⟨Rect.unit (s := S320) ![0] S80.size inb_S320_S80_0, ReadAs.same.apply ((zTail).view.read (Elt F) Z)⟩])) hn hin k).val
      = (Z (ix1 ⟨9920 + k.val, hb⟩)).toNat := by
  rw [rows_val]
  rw [tail_window]
  show ((zTail).view.read (Elt F) Z _).toNat = _
  rw [zTail_read]

omit [FloatOps F] in
/-- A piece of 80 rows of the result from row `n0` on, written with the rows a gather put in a slot, holds the gathered
    rows, when the gather's list named, entry by entry, the rows the index array's words at `n0 + k` name. -/
theorem piece_value (hz : ∀ j, (m (zLoc d) j).toNat < 100000) (fo : Buf (Elt F) (oLoc d))
    (n0 : ℕ) (hn0 : n0 + 80 ≤ 10000) (off : Fin 2 → ℕ) (hoff : off = ![n0, 0]) (h : ∀ a, off a + S80x128.size a ≤ S10000x128.size a)
    (P : S80x128.Idx → Elt F .f32)
    (r : Fin (S80x128.size gathers_S100000x128_S80x128.axis') → Fin (S100000x128.size gathers_S100000x128_S80x128.axis))
    (hP : P = SparseCore.gatherPayload gathers_S100000x128_S80x128 (tSl.view.read (Elt F) (m (tLoc d))) r)
    (hr : ∀ (k : Fin (S80x128.size gathers_S100000x128_S80x128.axis')) (hb : n0 + k.val < 10000), (r k).val = (m (zLoc d) (ix1 ⟨n0 + k.val, hb⟩)).toNat) :
    ∀ x ∈ ((oV).slice (Rect.unit (s := S10000x128) off S80x128.size h) (fun _ => rfl)).view.set,
      ((oV).slice (Rect.unit (s := S10000x128) off S80x128.size h) (fun _ => rfl)).view.writes (Elt F) fo [⟨Rect.whole S80x128, P⟩] x
        = gatheredRows (m (tLoc d)) (m (zLoc d)) x := by
  intro x hx
  obtain ⟨y, rfl, hx0, hx1⟩ := oPiece_mem off n0 hoff h hx
  rw [oPiece_written, hP, gather_at]
  unfold gatheredRows
  have hy0 : (y 0).val < 80 := (y 0).isLt
  refine congrArg (m (tLoc d)) (funext fun a => ?_)
  match a with
  | ⟨0, _⟩ =>
    refine Fin.ext ?_
    show (r (y 0)).val = (rowOfWord _).val
    rw [hr (y 0) (by show n0 + (y 0).val < 10000; omega), rowOfWord_val (hz _)]
    congr 3
    exact Fin.ext hx0.symm
  | ⟨1, _⟩ => exact Fin.ext hx1.symm

omit [FloatOps F] in
/-- The last tile's piece, rows 9920 … 9999: what the copy out wrote exchanged for the gathered rows. -/
theorem tail_done (hz : ∀ j, (m (zLoc d) j).toNat < 100000) (fo : Buf (Elt F) (oLoc d))
    (P : S80x128.Idx → Elt F .f32)
    (r : Fin (S80x128.size gathers_S100000x128_S80x128.axis') → Fin (S100000x128.size gathers_S100000x128_S80x128.axis))
    (hP : P = SparseCore.gatherPayload gathers_S100000x128_S80x128 (tSl.view.read (Elt F) (m (tLoc d))) r)
    (hr : ∀ (k : Fin (S80x128.size gathers_S100000x128_S80x128.axis')) (hb : 9920 + k.val < 10000), (r k).val = (m (zLoc d) (ix1 ⟨9920 + k.val, hb⟩)).toNat)
    (hset : (oTail).view.set = rowsOf 9920 80) :
    ((oTail).view.loc (V d (cV L) (jV L)) ↦[(oTail).view.set]{fullShare} (oTail).view.writes (Elt F) fo [⟨Rect.whole S80x128, P⟩] : sProp 𝕄)
      ⊢ (oLoc d ↦[rowsOf 9920 80]{fullShare} gatheredRows (m (tLoc d)) (m (zLoc d))) := by
  rw [pointsTo_congr (piece_value m d hz fo 9920 (by omega) ![9920, 0] rfl inb_S10000x128_S80x128_9920_0 P r hP hr), hset]

set_option maxRecDepth 65536 in
set_option maxHeartbeats 8000000 in
/-- A full tile (number below 31): the index fetch, four gathers in flight at once, each waited for and copied out to
    its 80 rows of the result, the four copies out waited for together. -/
theorem tile_full (hF : (K (F := F)).Facts) (hz : ∀ j, (m (zLoc d) j).toNat < 100000) (k0_h1 : k0_cond1 L = 1#1)
    (O : CellTallies nD τ sig (HIx 1)) (W : Waits sig (HIx 1)) (hO : ∀ g, O g none = 0) (qz qt : PosShare TreeShare) :
    iprop(levAts (K (F := F)).L (K (F := F)).lev ∗ emp ∗ tileIn m d L qz qt
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__gather_kernel L tV (Memref.isWhole_whole _) zV (Memref.isWhole_whole _) oV (Memref.isWhole_whole _)
            lV (Memref.isWhole_whole _) rV (Memref.isWhole_whole _) cc0_scratch2 cc0_scratch3 cc0_scoped0 cc0_scoped1 cc0_scoped2)
          fun _ => iprop(tileOut m d L qz qt ∗ scopedBufs (V d (cV L) (jV L)) ∗ scopedSems0 (V d (cV L) (jV L))
            ∗ ∃ W', ⌜∀ p ∈ W', p ∈ W ∨ p.2 = none⌝ ∗ owes (V d (cV L) (jV L)) O W') := by
  have k0_h2 : ¬ lastCond L = 1#1 := not_last_of_full L k0_h1
  unfold lastCond at k0_h2
  have _plan : Transfers.BatchOf (V d (cV L) (jV L)) (SemLoc.dma (sig := sig) ssem) 4 := trivial
  -- the tile's rows are the four pieces the body slices
  have hs0 : (oCh0 L k0_h1).view.set = rowsOf (640 * (L 1).val + 320 * (L 0).val) 80 := by
    refine (View.set_slice_whole main_v0_scv _).trans ?_
    exact unit_set_eq _ 80 _ _ (by rw [show (0#32 : BitVec 32) = BitVec.ofNat 32 (80 * (0 : Fin 4).val) from rfl, k0_off2_eq]; simp) rfl _
  have hs1 : (oCh1 L k0_h1).view.set = rowsOf (640 * (L 1).val + 320 * (L 0).val + 80) 80 := by
    refine (View.set_slice_whole main_v0_scv _).trans ?_
    exact unit_set_eq _ 80 _ _ (by rw [show (80#32 : BitVec 32) = BitVec.ofNat 32 (80 * (1 : Fin 4).val) from rfl, k0_off2_eq]; simp) rfl _
  have hs2 : (oCh2 L k0_h1).view.set = rowsOf (640 * (L 1).val + 320 * (L 0).val + 160) 80 := by
    refine (View.set_slice_whole main_v0_scv _).trans ?_
    exact unit_set_eq _ 80 _ _ (by rw [show (160#32 : BitVec 32) = BitVec.ofNat 32 (80 * (2 : Fin 4).val) from rfl, k0_off2_eq]; simp) rfl _
  have hs3 : (oCh3 L k0_h1).view.set = rowsOf (640 * (L 1).val + 320 * (L 0).val + 240) 80 := by
    refine (View.set_slice_whole main_v0_scv _).trans ?_
    exact unit_set_eq _ 80 _ _ (by rw [show (240#32 : BitVec 32) = BitVec.ofNat 32 (80 * (3 : Fin 4).val) from rfl, k0_off2_eq]; simp) rfl _
  have hb : 640 * (L 1).val + 320 * (L 0).val = baseRow L := rfl
  have hoff0 : k0_off2 L 0#32 = ![baseRow L + 0, 0] := by rw [show (0#32 : BitVec 32) = BitVec.ofNat 32 (80 * (0 : Fin 4).val) from rfl, k0_off2_eq]; simp [baseRow]
  have hoff1 : k0_off2 L 80#32 = ![baseRow L + 80, 0] := by rw [show (80#32 : BitVec 32) = BitVec.ofNat 32 (80 * (1 : Fin 4).val) from rfl, k0_off2_eq]; simp [baseRow]
  have hoff2 : k0_off2 L 160#32 = ![baseRow L + 160, 0] := by rw [show (160#32 : BitVec 32) = BitVec.ofNat 32 (80 * (2 : Fin 4).val) from rfl, k0_off2_eq]; simp [baseRow]
  have hoff3 : k0_off2 L 240#32 = ![baseRow L + 240, 0] := by rw [show (240#32 : BitVec 32) = BitVec.ofNat 32 (80 * (3 : Fin 4).val) from rfl, k0_off2_eq]; simp [baseRow]
  have hbr := baseRow_lt L k0_h1
  have dA : Disjoint (rowsOf (640 * (L 1).val + 320 * (L 0).val) 80) (rowsOf (640 * (L 1).val + 320 * (L 0).val + 80) 80 ∪ (rowsOf (640 * (L 1).val + 320 * (L 0).val + 160) 80 ∪ rowsOf (640 * (L 1).val + 320 * (L 0).val + 240) 80)) :=
    Finset.disjoint_union_right.mpr ⟨rowsOf_disjoint (.inl (by omega)), Finset.disjoint_union_right.mpr ⟨rowsOf_disjoint (.inl (by omega)), rowsOf_disjoint (.inl (by omega))⟩⟩
  have dB : Disjoint (rowsOf (640 * (L 1).val + 320 * (L 0).val + 80) 80) (rowsOf (640 * (L 1).val + 320 * (L 0).val + 160) 80 ∪ rowsOf (640 * (L 1).val + 320 * (L 0).val + 240) 80) :=
    Finset.disjoint_union_right.mpr ⟨rowsOf_disjoint (.inl (by omega)), rowsOf_disjoint (.inl (by omega))⟩
  have dC : Disjoint (rowsOf (640 * (L 1).val + 320 * (L 0).val + 160) 80) (rowsOf (640 * (L 1).val + 320 * (L 0).val + 240) 80) := rowsOf_disjoint (.inl (by omega))
  have htok4 : ∀ Φ : Fin 4 → sProp 𝕄, bigSep Finset.univ Φ = iprop(Φ 0 ∗ Φ 1 ∗ Φ 2 ∗ Φ 3) := fun Φ => by
    rw [show (Finset.univ : Finset (Fin 4)) = {0, 1, 2, 3} by decide, SparseCore.bigSep_insert' (by decide), SparseCore.bigSep_insert' (by decide),
      SparseCore.bigSep_insert' (by decide), bigSep_singleton]
  simp only [cc0__gather_kernel_eq_skeleton]; unfold cc0__gather_kernel_skel
  rw [(K (F := F)).scopedBufs_V hF d (cV L) (jV L), SparseCore.Cfg.scopedSems0_V (Val := Elt F) d (cV L) (jV L), ownSems0_V, ownBufs_V]
  unfold tileIn tileOut
  rw [tileRows_full]
  iintro ⟨#Hlv, -, ⟨Hz, Ht, Ho⟩, ⟨⟨%fl, Hl⟩, ⟨%fr, Hr⟩, Hbufs⟩, ⟨Hg0, Hg1, Hg2, Hg3, Hss, Hsa, Hsb, Hsc, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  -- the four pieces of the tile's rows, as the body slices them
  ihave Ho' := (pointsTo_union dA).1 $$ Ho
  icases Ho' with ⟨Ho0, Ho⟩
  ihave Ho' := (pointsTo_union dB).1 $$ Ho
  icases Ho' with ⟨Ho1, Ho⟩
  ihave Ho' := (pointsTo_union dC).1 $$ Ho
  icases Ho' with ⟨Ho2, Ho3⟩
  ihave Ho0 := (Entails.of_eq (show (oLoc d ↦[rowsOf (640 * (L 1).val + 320 * (L 0).val) 80]{fullShare} m (oLoc d) : sProp 𝕄)
      = ((oCh0 L k0_h1).view.loc (V d (cV L) (jV L)) ↦[(oCh0 L k0_h1).view.set]{fullShare} m (oLoc d)) from by rw [hs0])) $$ Ho0
  ihave Ho1 := (Entails.of_eq (show (oLoc d ↦[rowsOf (640 * (L 1).val + 320 * (L 0).val + 80) 80]{fullShare} m (oLoc d) : sProp 𝕄)
      = ((oCh1 L k0_h1).view.loc (V d (cV L) (jV L)) ↦[(oCh1 L k0_h1).view.set]{fullShare} m (oLoc d)) from by rw [hs1])) $$ Ho1
  ihave Ho2 := (Entails.of_eq (show (oLoc d ↦[rowsOf (640 * (L 1).val + 320 * (L 0).val + 160) 80]{fullShare} m (oLoc d) : sProp 𝕄)
      = ((oCh2 L k0_h1).view.loc (V d (cV L) (jV L)) ↦[(oCh2 L k0_h1).view.set]{fullShare} m (oLoc d)) from by rw [hs2])) $$ Ho2
  ihave Ho3 := (Entails.of_eq (show (oLoc d ↦[rowsOf (640 * (L 1).val + 320 * (L 0).val + 240) 80]{fullShare} m (oLoc d) : sProp 𝕄)
      = ((oCh3 L k0_h1).view.loc (V d (cV L) (jV L)) ↦[(oCh3 L k0_h1).view.set]{fullShare} m (oLoc d)) from by rw [hs3])) $$ Ho3
  -- the table's share as four read tokens, one per gather in flight, and what is left
  ihave Ht' := (Transfers.pointsTo_toks_split (ℓ := tLoc d) (S := Finset.univ) (f := m (tLoc d)) qt 4) $$ Ht
  icases Ht' with ⟨Htr, Htoks⟩
  ihave Htoks := (Entails.of_eq (htok4 _)) $$ Htoks
  icases Htoks with ⟨Ht0, Ht1, Ht2, Ht3⟩
  ihave Ht0 := (Entails.of_eq (show (tLoc d ↦{Transfers.shareTok qt 4 0} m (tLoc d) : sProp 𝕄) = ((tV).view.loc (V d (cV L) (jV L)) ↦{Transfers.shareTok qt 4 0} m (tLoc d)) from rfl)) $$ Ht0
  ihave Ht1 := (Entails.of_eq (show (tLoc d ↦{Transfers.shareTok qt 4 1} m (tLoc d) : sProp 𝕄) = ((tV).view.loc (V d (cV L) (jV L)) ↦{Transfers.shareTok qt 4 1} m (tLoc d)) from rfl)) $$ Ht1
  ihave Ht2 := (Entails.of_eq (show (tLoc d ↦{Transfers.shareTok qt 4 2} m (tLoc d) : sProp 𝕄) = ((tV).view.loc (V d (cV L) (jV L)) ↦{Transfers.shareTok qt 4 2} m (tLoc d)) from rfl)) $$ Ht2
  ihave Ht3 := (Entails.of_eq (show (tLoc d ↦{Transfers.shareTok qt 4 3} m (tLoc d) : sProp 𝕄) = ((tV).view.loc (V d (cV L) (jV L)) ↦{Transfers.shareTok qt 4 3} m (tLoc d)) from rfl)) $$ Ht3
  ihave Hz := (Entails.of_eq (show (zLoc d ↦{qz} m (zLoc d) : sProp 𝕄) = ((zV).view.loc (V d (cV L) (jV L)) ↦{qz} m (zLoc d)) from rfl)) $$ Hz
  ihave Hl := (Entails.of_eq (show ((V d (cV L) (jV L)).loc cc0_scratch0 ↦{fullShare} fl : sProp 𝕄) = (lV).view.loc (V d (cV L) (jV L)) ↦{fullShare} fl from rfl)) $$ Hl
  ihave Hr := (Entails.of_eq (show ((V d (cV L) (jV L)).loc cc0_scratch1 ↦{fullShare} fr : sProp 𝕄) = (rV).view.loc (V d (cV L) (jV L)) ↦{fullShare} fr from rfl)) $$ Hr
  have hin := list_lt m d L hz k0_h1
  sl_exec
  sl_step
  -- each piece of the result holds the gathered rows
  have hn80 : S80.numel = S80x128.size gathers_S100000x128_S80x128.axis' := rfl
  ihave Ho0 := (chunk_done m d L hz k0_h1 (m (oLoc d)) 0 (by omega) _ hoff0 _ _ hs0 (tile_full.sl.dma5 m d L k0_h1 fl fr hin)
      (SparseCore.rows (lWin0.view.read (Elt F) (View.write (Elt F) (lV).view fl (ReadAs.same.apply ((zSl L k0_h1).view.read (Elt F) (m (zLoc d)))) Finset.univ)) hn80 (hin fl ![0] inb_S320_S80_0))
      (slots_read0 fr (tile_full.sl.gather1 m d L k0_h1 fl hin) (tile_full.sl.gather2 m d L k0_h1 fl hin) (tile_full.sl.gather3 m d L k0_h1 fl hin) (tile_full.sl.gather4 m d L k0_h1 fl hin))
      (fun k hb => window_rows_val L k0_h1 (m (zLoc d)) fl 0 inb_S320_S80_0 hn80 (hin fl ![0] inb_S320_S80_0) k hb)) $$ Ho0
  ihave Ho1 := (chunk_done m d L hz k0_h1 (m (oLoc d)) 80 (by omega) _ hoff1 _ _ hs1 (tile_full.sl.dma6 m d L k0_h1 fl fr hin)
      (SparseCore.rows (lWin1.view.read (Elt F) (View.write (Elt F) (lV).view fl (ReadAs.same.apply ((zSl L k0_h1).view.read (Elt F) (m (zLoc d)))) Finset.univ)) hn80 (hin fl ![80] inb_S320_S80_80))
      (slots_read1 fr (tile_full.sl.gather1 m d L k0_h1 fl hin) (tile_full.sl.gather2 m d L k0_h1 fl hin) (tile_full.sl.gather3 m d L k0_h1 fl hin) (tile_full.sl.gather4 m d L k0_h1 fl hin))
      (fun k hb => window_rows_val L k0_h1 (m (zLoc d)) fl 80 inb_S320_S80_80 hn80 (hin fl ![80] inb_S320_S80_80) k hb)) $$ Ho1
  ihave Ho2 := (chunk_done m d L hz k0_h1 (m (oLoc d)) 160 (by omega) _ hoff2 _ _ hs2 (tile_full.sl.dma7 m d L k0_h1 fl fr hin)
      (SparseCore.rows (lWin2.view.read (Elt F) (View.write (Elt F) (lV).view fl (ReadAs.same.apply ((zSl L k0_h1).view.read (Elt F) (m (zLoc d)))) Finset.univ)) hn80 (hin fl ![160] inb_S320_S80_160))
      (slots_read2 fr (tile_full.sl.gather1 m d L k0_h1 fl hin) (tile_full.sl.gather2 m d L k0_h1 fl hin) (tile_full.sl.gather3 m d L k0_h1 fl hin) (tile_full.sl.gather4 m d L k0_h1 fl hin))
      (fun k hb => window_rows_val L k0_h1 (m (zLoc d)) fl 160 inb_S320_S80_160 hn80 (hin fl ![160] inb_S320_S80_160) k hb)) $$ Ho2
  ihave Ho3 := (chunk_done m d L hz k0_h1 (m (oLoc d)) 240 (by omega) _ hoff3 _ _ hs3 (tile_full.sl.dma8 m d L k0_h1 fl fr hin)
      (SparseCore.rows (lWin3.view.read (Elt F) (View.write (Elt F) (lV).view fl (ReadAs.same.apply ((zSl L k0_h1).view.read (Elt F) (m (zLoc d)))) Finset.univ)) hn80 (hin fl ![240] inb_S320_S80_240))
      (slots_read3 fr (tile_full.sl.gather1 m d L k0_h1 fl hin) (tile_full.sl.gather2 m d L k0_h1 fl hin) (tile_full.sl.gather3 m d L k0_h1 fl hin) (tile_full.sl.gather4 m d L k0_h1 fl hin))
      (fun k hb => window_rows_val L k0_h1 (m (zLoc d)) fl 240 inb_S320_S80_240 hn80 (hin fl ![240] inb_S320_S80_240) k hb)) $$ Ho3
  -- the index array's and the table's shares back, the pieces joined
  isplitl [Hz Ht0 Ht1 Ht2 Ht3 Htr Ho0 Ho1 Ho2 Ho3]
  · isplitl [Hz]; · iexact Hz
    isplitl [Ht0 Ht1 Ht2 Ht3 Htr]
    · iapply (Transfers.pointsTo_toks_join (ℓ := tLoc d) (S := Finset.univ) (f := m (tLoc d)) qt 4)
      isplitl [Htr]; · iexact Htr
      rw [htok4]
      isplitl [Ht0]; · iexact Ht0
      isplitl [Ht1]; · iexact Ht1
      isplitl [Ht2]; · iexact Ht2
      iexact Ht3
    · iapply (pointsTo_union dA).2
      isplitl [Ho0]; · iexact Ho0
      iapply (pointsTo_union dB).2
      isplitl [Ho1]; · iexact Ho1
      iapply (pointsTo_union dC).2
      isplitl [Ho2]; · iexact Ho2
      iexact Ho3
  isplitl [Hl Hr Hbufs]
  · isplitl [Hl]; · iexists _; iexact Hl
    isplitl [Hr]; · iexists _; iexact Hr
    iexact Hbufs
  isplitl [Hg0 Hg1 Hg2 Hg3 Hss Hsa Hsb Hsc Hsems]
  · isplitl [Hg0]; · iexact Hg0
    isplitl [Hg1]; · iexact Hg1
    isplitl [Hg2]; · iexact Hg2
    isplitl [Hg3]; · iexact Hg3
    isplitl [Hss]; · iexact Hss
    isplitl [Hsa]; · iexact Hsa
    isplitl [Hsb]; · iexact Hsb
    isplitl [Hsc]; · iexact Hsc
    iexact Hsems
  iexists _; isplitr
  swap; · iexact HO
  ipureintro; intro p hp
  simp only [Finset.mem_insert] at hp
  rcases hp with h | h | h | h | h | h | h | h | h | h
  all_goals first | exact .inl h | exact .inr (h ▸ rfl)

set_option maxRecDepth 65536 in
set_option maxHeartbeats 8000000 in
/-- The last tile (subcore 15 of SparseCore 1): the last 80 entries of the index array into the first window of its
    list, one gather into the first slot, one copy out to rows 9920 … 9999 of the result. -/
theorem tile_last (hF : (K (F := F)).Facts) (hz : ∀ j, (m (zLoc d) j).toNat < 100000) (k0_h1 : ¬ k0_cond1 L = 1#1)
    (O : CellTallies nD τ sig (HIx 1)) (W : Waits sig (HIx 1)) (hO : ∀ g, O g none = 0) (qz qt : PosShare TreeShare) :
    iprop(levAts (K (F := F)).L (K (F := F)).lev ∗ emp ∗ tileIn m d L qz qt
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__gather_kernel L tV (Memref.isWhole_whole _) zV (Memref.isWhole_whole _) oV (Memref.isWhole_whole _)
            lV (Memref.isWhole_whole _) rV (Memref.isWhole_whole _) cc0_scratch2 cc0_scratch3 cc0_scoped0 cc0_scoped1 cc0_scoped2)
          fun _ => iprop(tileOut m d L qz qt ∗ scopedBufs (V d (cV L) (jV L)) ∗ scopedSems0 (V d (cV L) (jV L))
            ∗ ∃ W', ⌜∀ p ∈ W', p ∈ W ∨ p.2 = none⌝ ∗ owes (V d (cV L) (jV L)) O W') := by
  have k0_h2 : lastCond L = 1#1 := last_of_not_full L k0_h1
  unfold lastCond at k0_h2
  obtain ⟨hL0, hL1⟩ := last_eq L k0_h1
  have hsT : (oTail).view.set = rowsOf 9920 80 := by
    refine (View.set_slice_whole main_v0_scv _).trans ?_
    exact unit_set_eq 9920 80 _ _ rfl rfl _
  simp only [cc0__gather_kernel_eq_skeleton]; unfold cc0__gather_kernel_skel
  rw [(K (F := F)).scopedBufs_V hF d (cV L) (jV L), SparseCore.Cfg.scopedSems0_V (Val := Elt F) d (cV L) (jV L), ownSems0_V, ownBufs_V]
  unfold tileIn tileOut
  rw [hL0, hL1, tileRows_last]
  iintro ⟨#Hlv, -, ⟨Hz, Ht, Ho⟩, ⟨⟨%fl, Hl⟩, ⟨%fr, Hr⟩, Hbufs⟩, ⟨Hg0, Hg1, Hg2, Hg3, Hss, Hsa, Hsb, Hsc, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Ho := (Entails.of_eq (show (oLoc d ↦[rowsOf 9920 80]{fullShare} m (oLoc d) : sProp 𝕄)
      = ((oTail).view.loc (V d (cV L) (jV L)) ↦[(oTail).view.set]{fullShare} m (oLoc d)) from by rw [hsT])) $$ Ho
  ihave Ht := (Entails.of_eq (show (tLoc d ↦{qt} m (tLoc d) : sProp 𝕄) = ((tV).view.loc (V d (cV L) (jV L)) ↦{qt} m (tLoc d)) from rfl)) $$ Ht
  ihave Hz := (Entails.of_eq (show (zLoc d ↦{qz} m (zLoc d) : sProp 𝕄) = ((zV).view.loc (V d (cV L) (jV L)) ↦{qz} m (zLoc d)) from rfl)) $$ Hz
  ihave Hl := (Entails.of_eq (show ((V d (cV L) (jV L)).loc cc0_scratch0 ↦{fullShare} fl : sProp 𝕄) = (lV).view.loc (V d (cV L) (jV L)) ↦{fullShare} fl from rfl)) $$ Hl
  ihave Hr := (Entails.of_eq (show ((V d (cV L) (jV L)).loc cc0_scratch1 ↦{fullShare} fr : sProp 𝕄) = (rV).view.loc (V d (cV L) (jV L)) ↦{fullShare} fr from rfl)) $$ Hr
  have hin := tail_lt m d L hz
  sl_exec
  sl_step
  have hn80 : S80.numel = S80x128.size gathers_S100000x128_S80x128.axis' := rfl
  ihave Ho := (tail_done m d L hz (m (oLoc d)) (tile_last.sl.dma0_1 m d L fl fr hin)
      (SparseCore.rows (lWin0.view.read (Elt F) ((lV).view.writes (Elt F) fl
        [⟨Rect.unit (s := S320) ![0] S80.size inb_S320_S80_0, ReadAs.same.apply ((zTail).view.read (Elt F) (m (zLoc d)))⟩])) hn80 (hin fl))
      (View.read_write_univ (v := slot0.view) fr (tile_last.sl.gather1 m d L fl hin))
      (fun k hb => tail_rows_val (m (zLoc d)) fl hn80 (hin fl) k hb) hsT) $$ Ho
  isplitl [Hz Ht Ho]
  · isplitl [Hz]; · iexact Hz
    isplitl [Ht]; · iexact Ht
    iexact Ho
  isplitl [Hl Hr Hbufs]
  · isplitl [Hl]; · iexists _; iexact Hl
    isplitl [Hr]; · iexists _; iexact Hr
    iexact Hbufs
  isplitl [Hg0 Hg1 Hg2 Hg3 Hss Hsa Hsb Hsc Hsems]
  · isplitl [Hg0]; · iexact Hg0
    isplitl [Hg1]; · iexact Hg1
    isplitl [Hg2]; · iexact Hg2
    isplitl [Hg3]; · iexact Hg3
    isplitl [Hss]; · iexact Hss
    isplitl [Hsa]; · iexact Hsa
    isplitl [Hsb]; · iexact Hsb
    isplitl [Hsc]; · iexact Hsc
    iexact Hsems
  iexists _; isplitr
  swap; · iexact HO
  ipureintro; intro p hp
  simp only [Finset.mem_insert] at hp
  rcases hp with h | h | h | h
  all_goals first | exact .inl h | exact .inr (h ▸ rfl)

/-- One tile's task, full or last. -/
theorem tile_body (hF : (K (F := F)).Facts) (hz : ∀ j, (m (zLoc d) j).toNat < 100000)
    (O : CellTallies nD τ sig (HIx 1)) (W : Waits sig (HIx 1)) (hO : ∀ g, O g none = 0) (qz qt : PosShare TreeShare) :
    iprop(levAts (K (F := F)).L (K (F := F)).lev ∗ emp ∗ tileIn m d L qz qt
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__gather_kernel L tV (Memref.isWhole_whole _) zV (Memref.isWhole_whole _) oV (Memref.isWhole_whole _)
            lV (Memref.isWhole_whole _) rV (Memref.isWhole_whole _) cc0_scratch2 cc0_scratch3 cc0_scoped0 cc0_scoped1 cc0_scoped2)
          fun _ => iprop(tileOut m d L qz qt ∗ scopedBufs (V d (cV L) (jV L)) ∗ scopedSems0 (V d (cV L) (jV L))
            ∗ ∃ W', ⌜∀ p ∈ W', p ∈ W ∨ p.2 = none⌝ ∗ owes (V d (cV L) (jV L)) O W') := by
  by_cases h1 : k0_cond1 L = 1#1
  · exact tile_full m d L hF hz h1 O W hO qz qt
  · exact tile_last m d L hF hz h1 O W hO qz qt

end Cert.Proof.WordTile

end
-- ==== Proof.WordRun.lean ====
/-
  The row gather on the SparseCores, launched. The one call hands each SparseCore a read share of the index array and
  of the table and the rows of the result its sixteen tiles own between them; a SparseCore splits its shares sixteen
  ways and its rows into the tiles' runs, and every tile ends with its rows at the gathered rows. The runs of the
  32 tiles cover the result, so the call returns the whole result at the gathered rows — row i is the table's row
  number z i — and the read shares rejoin: the four arguments are unchanged.
-/
import proofs.«212854_g59167469470367_cont_9to1c4b_422_3_alg».proof.Proof.WordBase
import proofs.«212854_g59167469470367_cont_9to1c4b_422_3_alg».proof.Proof.WordTile
import proofs.«212854_g59167469470367_cont_9to1c4b_422_3_alg».proof.Proof.RowGather
import proofs.«212854_g59167469470367_cont_9to1c4b_422_3_alg».proof.Proof.RowRanges

noncomputable section

namespace Cert.Proof.WordRun

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Cert.Proof.WordBase Cert.Proof.WordTile Cert.Proof.RowGather Cert.Proof.RowRanges

variable {F : FTy → Type}

local notation "𝕄" => MT nD τ sig (HIx 1) (Elt F) ℕ UU ℕ

local notation "tV" => (Memref.whole Cert.Kernel.main_arg3_scv : Memref Cert.Kernel.sig Kind.scVector Space.hbm Cert.Kernel.S100000x128 EltTy.f32)
local notation "zV" => (Memref.whole Cert.Kernel.main_arg1_scv : Memref Cert.Kernel.sig Kind.scVector Space.hbm Cert.Kernel.S10000 EltTy.i32)
local notation "oV" => (Memref.whole Cert.Kernel.main_v0_scv : Memref Cert.Kernel.sig Kind.scVector Space.hbm Cert.Kernel.S10000x128 EltTy.f32)
local notation "lV" => (Memref.whole Cert.Kernel.cc0_scratch0 : Memref Cert.Kernel.sig Kind.scVector Space.vmem Cert.Kernel.S320 EltTy.i32)
local notation "rV" => (Memref.whole Cert.Kernel.cc0_scratch1 : Memref Cert.Kernel.sig Kind.scVector Space.vmem Cert.Kernel.S4x80x128 EltTy.f32)

variable (m : (ℓ : Loc nD τ sig) → Buf (Elt F) ℓ) (ρ : Dev nD → PrngReg)

/-! ## A tile's coordinates, and the body table at a tile -/

/-- The grid coordinates of subcore `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector [FloatOps F] (c : Fin τ.nSC) (s : Fin τ.nSub) :
    defs₀ (F := F) (.scVector c s) 0 ()
      = SparseCore.onTile hcore0 hsub0 (fun c s => cc0__gather_kernel (coordsV c s)
          tV (Memref.isWhole_whole _) zV (Memref.isWhole_whole _) oV (Memref.isWhole_whole _)
          lV (Memref.isWhole_whole _) rV (Memref.isWhole_whole _) cc0_scratch2 cc0_scratch3 cc0_scoped0 cc0_scoped1 cc0_scoped2) ⟨⟩ c s := rfl

/-! ## What the handshakes carry -/

/-- SparseCore `c`'s read share of an array the two SparseCores both read, and tile `i`'s share of that. -/
abbrev qC (c : Fin 2) : PosShare TreeShare := Transfers.shareTok fullShare 2 c
abbrev qT (c : Fin 2) (i : Fin 16) : PosShare TreeShare := Transfers.shareTok (qC c) 16 i

/-- What the call hands SparseCore `c`: a share of the index array and of the table, its tiles' rows of the result. -/
abbrev coreSt (d : Dev nD) (c : Fin 2) : sProp 𝕄 :=
  iprop((zLoc d ↦{qC c} m (zLoc d)) ∗ (tLoc d ↦{qC c} m (tLoc d)) ∗ (oLoc d ↦[coreRows c.val]{fullShare} m (oLoc d)))
/-- What it takes back: the same shares, those rows at the gathered rows. -/
abbrev coreDn (d : Dev nD) (c : Fin 2) : sProp 𝕄 :=
  iprop((zLoc d ↦{qC c} m (zLoc d)) ∗ (tLoc d ↦{qC c} m (tLoc d))
    ∗ (oLoc d ↦[coreRows c.val]{fullShare} gatheredRows (m (tLoc d)) (m (zLoc d))))

/-- The one call: per SparseCore `coreSt` / `coreDn`, per tile what a tile is handed and hands back. -/
def P : (K (F := F)).Pay (nD := nD) (Val := Elt F) (Name := ℕ) (U := UU) where
  st := fun q d c => match q with | 0 => coreSt m d (Fin.cast nCore_zero c)
  dn := fun q d c => match q with | 0 => coreDn m d (Fin.cast nCore_zero c)
  go := fun q d c i => match q with
    | 0 => tileIn m d (coordsV (Fin.cast nCore_zero c) (Fin.cast nSub_zero i))
        (qT (Fin.cast nCore_zero c) (Fin.cast nSub_zero i)) (qT (Fin.cast nCore_zero c) (Fin.cast nSub_zero i))
  td := fun q d c i => match q with
    | 0 => tileOut m d (coordsV (Fin.cast nCore_zero c) (Fin.cast nSub_zero i))
        (qT (Fin.cast nCore_zero c) (Fin.cast nSub_zero i)) (qT (Fin.cast nCore_zero c) (Fin.cast nSub_zero i))
  x := fun _ _ => iprop(emp)

instance P_storable : (P (F := F) m).IsStorable where
  st q d c := match q with
    | 0 => (inferInstance : BI.Storable (upEmb : UEmb _ 𝕄) (coreSt m d (Fin.cast nCore_zero c)))
  dn q d c := match q with
    | 0 => (inferInstance : BI.Storable (upEmb : UEmb _ 𝕄) (coreDn m d (Fin.cast nCore_zero c)))
  go q d c i := match q with
    | 0 => (inferInstance : BI.Storable (upEmb : UEmb _ 𝕄) (tileIn m d (coordsV (Fin.cast nCore_zero c) (Fin.cast nSub_zero i))
        (qT (Fin.cast nCore_zero c) (Fin.cast nSub_zero i)) (qT (Fin.cast nCore_zero c) (Fin.cast nSub_zero i))))
  td q d c i := match q with
    | 0 => (inferInstance : BI.Storable (upEmb : UEmb _ 𝕄) (tileOut m d (coordsV (Fin.cast nCore_zero c) (Fin.cast nSub_zero i))
        (qT (Fin.cast nCore_zero c) (Fin.cast nSub_zero i)) (qT (Fin.cast nCore_zero c) (Fin.cast nSub_zero i))))

/-! ## The tiles' obligation -/

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl [FloatOps F] (hz : ∀ d j, (m (zLoc d) j).toNat < 100000) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) facts (hz d) O W hO
    (qT (Fin.cast nCore_zero c) (Fin.cast nSub_zero i)) (qT (Fin.cast nCore_zero c) (Fin.cast nSub_zero i))).trans
      (wp_mono frame _ _ fun _ => obl_post)

/-! ## A SparseCore's operands, split among its tiles -/

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- What tile `i` of SparseCore `c` is handed and hands back, with the tile's rows named by the two numbers. -/
abbrev tileInAt (d : Dev nD) (c : Fin 2) (i : Fin 16) : sProp 𝕄 :=
  iprop((zLoc d ↦{qT c i} m (zLoc d)) ∗ (tLoc d ↦{qT c i} m (tLoc d)) ∗ (oLoc d ↦[tileRows c.val i.val]{fullShare} m (oLoc d)))
abbrev tileOutAt (d : Dev nD) (c : Fin 2) (i : Fin 16) : sProp 𝕄 :=
  iprop((zLoc d ↦{qT c i} m (zLoc d)) ∗ (tLoc d ↦{qT c i} m (tLoc d))
    ∗ (oLoc d ↦[tileRows c.val i.val]{fullShare} gatheredRows (m (tLoc d)) (m (zLoc d))))

/-- What the sixteen tiles of SparseCore `c` are handed, together: sixteen shares of the index array, sixteen of the table,
    and the SparseCore's rows of the result (the tiles' runs are pairwise disjoint and make up those rows). -/
theorem go_all (d : Dev nD) (c : Fin ((K (F := F)).nCore 0)) :
    (bigSep Finset.univ fun i : Fin ((K (F := F)).nSub 0) => (P m).go 0 d c i)
      = iprop((bigSep Finset.univ fun i : Fin 16 => zLoc d ↦{qT (Fin.cast nCore_zero c) i} m (zLoc d))
          ∗ (bigSep Finset.univ fun i : Fin 16 => tLoc d ↦{qT (Fin.cast nCore_zero c) i} m (tLoc d))
          ∗ (oLoc d ↦[coreRows c.val]{fullShare} m (oLoc d))) := by
  show (bigSep Finset.univ fun i : Fin ((K (F := F)).nSub 0) => tileInAt m d (Fin.cast nCore_zero c) (Fin.cast nSub_zero i)) = _
  rw [bigSep_tasks (F := F) (tileInAt m d (Fin.cast nCore_zero c))]
  unfold tileInAt
  rw [bigSep_sep', bigSep_sep']
  unfold coreRows
  rw [pointsTo_biUnion (ℓ := oLoc d) Finset.univ (fun s : Fin 16 => tileRows c.val s.val) (tileRows_disjoint c.val)]
  rfl

/-- What they hand back, together: the same shares, the SparseCore's rows at the gathered rows (every tile's run holds
    the one function, so the runs join as they split). -/
theorem td_all (d : Dev nD) (c : Fin ((K (F := F)).nCore 0)) :
    (bigSep Finset.univ fun i : Fin ((K (F := F)).nSub 0) => (P m).td 0 d c i)
      = iprop((bigSep Finset.univ fun i : Fin 16 => zLoc d ↦{qT (Fin.cast nCore_zero c) i} m (zLoc d))
          ∗ (bigSep Finset.univ fun i : Fin 16 => tLoc d ↦{qT (Fin.cast nCore_zero c) i} m (tLoc d))
          ∗ (oLoc d ↦[coreRows c.val]{fullShare} gatheredRows (m (tLoc d)) (m (zLoc d)))) := by
  show (bigSep Finset.univ fun i : Fin ((K (F := F)).nSub 0) => tileOutAt m d (Fin.cast nCore_zero c) (Fin.cast nSub_zero i)) = _
  rw [bigSep_tasks (F := F) (tileOutAt m d (Fin.cast nCore_zero c))]
  unfold tileOutAt
  rw [bigSep_sep', bigSep_sep']
  unfold coreRows
  rw [pointsTo_biUnion (ℓ := oLoc d) Finset.univ (fun s : Fin 16 => tileRows c.val s.val) (tileRows_disjoint c.val)]
  rfl

theorem vecSplit : (K (F := F)).VecSplit' (P m) 0 := by
  intro d c
  rw [go_all, td_all]
  show coreSt m d (Fin.cast nCore_zero c) ⊢ |={Set.univ}=> iprop(_ ∗ (_ -∗ coreDn m d (Fin.cast nCore_zero c)))
  iintro ⟨Hz, Ht, Ho⟩
  ihave Hz' := (Transfers.pointsTo_toks_split (qC (Fin.cast nCore_zero c)) 16) $$ Hz
  icases Hz' with ⟨Hzr, Hzs⟩
  ihave Ht' := (Transfers.pointsTo_toks_split (qC (Fin.cast nCore_zero c)) 16) $$ Ht
  icases Ht' with ⟨Htr, Hts⟩
  imodintro
  isplitl [Hzs Hts Ho]
  · isplitl [Hzs]; · iexact Hzs
    isplitl [Hts]; · iexact Hts
    iexact Ho
  iintro ⟨Hzs, Hts, Ho⟩
  isplitl [Hzr Hzs]
  · iapply (Transfers.pointsTo_toks_join (qC (Fin.cast nCore_zero c)) 16)
    isplitl [Hzr]; · iexact Hzr
    iexact Hzs
  isplitl [Htr Hts]
  · iapply (Transfers.pointsTo_toks_join (qC (Fin.cast nCore_zero c)) 16)
    isplitl [Htr]; · iexact Htr
    iexact Hts
  iexact Ho

/-! ## The launch element: the handshakes' rounds; the transfers' counters dropped -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

theorem unscopedBufs_eq (d : Dev nD) (W : (b : Ref sig .tc) → Buf (Elt F) ((d.tc : Thread nD τ).loc b)) :
    (unscopedBufs d W : sProp 𝕄) = iprop((pLoc d ↦{fullShare} W main_arg0) ∗ (zLoc d ↦{fullShare} W main_arg1) ∗ (nLoc d ↦{fullShare} W main_arg2)
      ∗ (tLoc d ↦{fullShare} W main_arg3) ∗ oLoc d ↦{fullShare} W main_v0) := by
  unfold unscopedBufs
  rw [show (Finset.univ.filter fun b : Ref sig .tc => ¬ b.isScoped) = {main_arg0, main_arg1, main_arg2, main_arg3, main_v0} by decide,
    SparseCore.bigSep_insert' (by decide), SparseCore.bigSep_insert' (by decide), SparseCore.bigSep_insert' (by decide),
    SparseCore.bigSep_insert' (by decide), bigSep_singleton]

theorem bigSep_fin2 (Φ : Fin 2 → sProp 𝕄) : bigSep (Finset.univ : Finset (Fin 2)) Φ = iprop(Φ 0 ∗ Φ 1) := by
  rw [show (Finset.univ : Finset (Fin 2)) = {0, 1} by decide, SparseCore.bigSep_insert' (by decide), bigSep_singleton]

/-- An array held whole is a remainder and one read share per SparseCore. -/
theorem split2 {ℓ : Loc nD τ sig} (f : Buf (Elt F) ℓ) :
    (ℓ ↦{fullShare} f : sProp 𝕄) ⊣⊢ iprop((ℓ ↦{Transfers.shareDrop fullShare 2} f) ∗ (ℓ ↦{qC 0} f) ∗ (ℓ ↦{qC 1} f)) := by
  have h : (ℓ ↦{fullShare} f : sProp 𝕄) ⊣⊢ iprop((ℓ ↦{Transfers.shareDrop fullShare 2} f)
      ∗ bigSep Finset.univ (fun i : Fin 2 => ℓ ↦{Transfers.shareTok fullShare 2 i} f)) := Transfers.pointsTo_toks fullShare 2
  rw [bigSep_fin2] at h
  exact h

/-- The result held whole is the two SparseCores' rows: their rows are disjoint and cover it. -/
theorem o_cores (d : Dev nD) (f : Buf (Elt F) (oLoc d)) :
    (oLoc d ↦{fullShare} f : sProp 𝕄) ⊣⊢ iprop((oLoc d ↦[coreRows 0]{fullShare} f) ∗ (oLoc d ↦[coreRows 1]{fullShare} f)) := by
  have h : (oLoc d ↦[coreRows 0 ∪ coreRows 1]{fullShare} f : sProp 𝕄)
      ⊣⊢ iprop((oLoc d ↦[coreRows 0]{fullShare} f) ∗ (oLoc d ↦[coreRows 1]{fullShare} f)) := pointsTo_union coreRows_disjoint
  rw [coreRows_cover] at h
  exact h

theorem st0_eq (d : Dev nD) :
    (bigSep Finset.univ fun c : Fin ((K (F := F)).nCore 0) => (P m).st 0 d c) = iprop(coreSt m d 0 ∗ coreSt m d 1) := by
  show (bigSep (Finset.univ : Finset (Fin 2)) fun c => coreSt m d c) = _
  rw [bigSep_fin2]
theorem dn0_eq (d : Dev nD) :
    (bigSep Finset.univ fun c : Fin ((K (F := F)).nCore 0) => (P m).dn 0 d c) = iprop(coreDn m d 0 ∗ coreDn m d 1) := by
  show (bigSep (Finset.univ : Finset (Fin 2)) fun c => coreDn m d c) = _
  rw [bigSep_fin2]

/-- What @main leaves the claim: the four arguments whole at their launch contents, the result whole at the gathered rows. -/
abbrev FIN (d : Dev nD) : sProp 𝕄 :=
  iprop((pLoc d ↦{fullShare} m (pLoc d)) ∗ (zLoc d ↦{fullShare} m (zLoc d)) ∗ (nLoc d ↦{fullShare} m (nLoc d))
    ∗ (tLoc d ↦{fullShare} m (tLoc d)) ∗ (oLoc d ↦{fullShare} gatheredRows (m (tLoc d)) (m (zLoc d))))

/-- @main on device `d`'s TensorCore: the one call, from read shares of the index array and of the table and the result
    dealt by rows to the two SparseCores; afterwards the shares and the rows rejoin. -/
theorem hmain [FloatOps F] (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hp, Hz, Hn, Ht, Ho⟩, -, -⟩, -⟩
  ihave Hz' := (split2 (F := F) (m (zLoc d))).1 $$ Hz
  icases Hz' with ⟨Hzr, Hz0, Hz1⟩
  ihave Ht' := (split2 (F := F) (m (tLoc d))).1 $$ Ht
  icases Ht' with ⟨Htr, Ht0, Ht1⟩
  ihave Ho' := (o_cores (F := F) d (m (oLoc d))).1 $$ Ho
  icases Ho' with ⟨Ho0, Ho1⟩
  iapply ((K (F := F)).wp_run (D (F := F)) 𝒱 (EH := EH) (P := P m) κ d 0) $$ [Hst Hz0 Hz1 Ht0 Ht1 Ho0 Ho1 Hzr Htr Hp Hn]
  isplitr; · iexact Hctx
  isplitl [Hst]; · iexact Hst
  isplitl [Hz0 Hz1 Ht0 Ht1 Ho0 Ho1]
  · rw [st0_eq]
    isplitl [Hz0 Ht0 Ho0]
    · isplitl [Hz0]; · iexact Hz0
      isplitl [Ht0]; · iexact Ht0
      iexact Ho0
    · isplitl [Hz1]; · iexact Hz1
      isplitl [Ht1]; · iexact Ht1
      iexact Ho1
  iintro ⟨Hst, Hdn⟩
  ihave Hdn' := (Entails.of_eq (dn0_eq m d)) $$ Hdn
  icases Hdn' with ⟨⟨Hz0, Ht0, Ho0⟩, ⟨Hz1, Ht1, Ho1⟩⟩
  imodintro
  isplitl [Hst]; · iexact Hst
  isplitl [Hp]; · iexact Hp
  isplitl [Hzr Hz0 Hz1]
  · iapply (split2 (F := F) (m (zLoc d))).2
    isplitl [Hzr]; · iexact Hzr
    isplitl [Hz0]; · iexact Hz0
    iexact Hz1
  isplitl [Hn]; · iexact Hn
  isplitl [Htr Ht0 Ht1]
  · iapply (split2 (F := F) (m (tLoc d))).2
    isplitl [Htr]; · iexact Htr
    isplitl [Ht0]; · iexact Ht0
    iexact Ht1
  iapply (o_cores (F := F) d (gatheredRows (m (tLoc d)) (m (zLoc d)))).2
  isplitl [Ho0]; · iexact Ho0
  iexact Ho1

def fq (d : Dev nD) (s' : Phys nD τ sig (Elt F)) : Prop :=
  s'.mem.mem (oLoc d) = gatheredRows (m (tLoc d)) (m (zLoc d)) ∧ s'.mem.mem (pLoc d) = m (pLoc d) ∧ s'.mem.mem (zLoc d) = m (zLoc d)
    ∧ s'.mem.mem (nLoc d) = m (nLoc d) ∧ s'.mem.mem (tLoc d) = m (tLoc d)

theorem hfin (d : Dev nD) (s' : Phys nD τ sig (Elt F)) : iprop(FIN m d ∗ SI s') ⊢ (⌜fq m d s'⌝ : sProp 𝕄) := by
  iintro ⟨⟨Hp, Hz, Hn, Ht, Ho⟩, HSI⟩
  ihave H := (persistent_entails_right (SI_pointsTo_agree (st := s') (ℓ := pLoc d) (I := Finset.univ) (q := fullShare) (f := m (pLoc d)))) $$ [HSI Hp]
  · isplitl [HSI] <;> iassumption
  icases H with ⟨%hp, HSI, -⟩
  ihave H := (persistent_entails_right (SI_pointsTo_agree (st := s') (ℓ := zLoc d) (I := Finset.univ) (q := fullShare) (f := m (zLoc d)))) $$ [HSI Hz]
  · isplitl [HSI] <;> iassumption
  icases H with ⟨%hz, HSI, -⟩
  ihave H := (persistent_entails_right (SI_pointsTo_agree (st := s') (ℓ := nLoc d) (I := Finset.univ) (q := fullShare) (f := m (nLoc d)))) $$ [HSI Hn]
  · isplitl [HSI] <;> iassumption
  icases H with ⟨%hn, HSI, -⟩
  ihave H := (persistent_entails_right (SI_pointsTo_agree (st := s') (ℓ := tLoc d) (I := Finset.univ) (q := fullShare) (f := m (tLoc d)))) $$ [HSI Ht]
  · isplitl [HSI] <;> iassumption
  icases H with ⟨%ht, HSI, -⟩
  ihave H := (SI_pointsTo_agree (st := s') (ℓ := oLoc d) (I := Finset.univ) (q := fullShare) (f := gatheredRows (m (tLoc d)) (m (zLoc d)))) $$ [HSI Ho]
  · isplitl [HSI] <;> iassumption
  icases H with %ho
  ipureintro
  exact ⟨funext fun i => ho i (Finset.mem_univ i), funext fun i => hp i (Finset.mem_univ i), funext fun i => hz i (Finset.mem_univ i),
    funext fun i => hn i (Finset.mem_univ i), funext fun i => ht i (Finset.mem_univ i)⟩

/-! ## The program's run -/

/-- From any memory whose index words are all below the row count: every weakly fair execution of the device's threads
    terminates, nothing faulting, with the result at the gathered rows and the four arguments unchanged. -/
theorem run_main [FloatOps F] [∀ e, Nonempty (Elt F e)] (m : (ℓ : Loc nD τ sig) → Buf (Elt F) ℓ) (ρ : Dev nD → PrngReg)
    (hz : ∀ (d : Dev nD) j, (m (zLoc d) j).toNat < 100000) :
    θ_run (Cert.Kernel.defs (F := F)) (Cert.Kernel.threads (F := F)) ⟨m, fun _ => 0, ρ⟩
      (fun r => ∀ c : Dev nD, r.2.mem (oLoc c) = Cert.Proof.RowGather.gatheredRows (m (tLoc c)) (m (zLoc c))
        ∧ r.2.mem (pLoc c) = m (pLoc c) ∧ r.2.mem (zLoc c) = m (zLoc c) ∧ r.2.mem (nLoc c) = m (nLoc c) ∧ r.2.mem (tLoc c) = m (tLoc c)) :=
  SparseCore.Cfg.θ_run_sc (K := K (F := F)) (D := D (F := F)) (𝒱 := 𝒱) (EH := EH) (P := P m) facts v₀
    (fun q hq => match q with | 0 => nomatch hq)
    (fun q _ => match q with | 0 => tileObl m hz)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) _ (fun _ h => h)

end Cert.Proof.WordRun

end
-- ==== Proof.lean ====
/-
  A row gather on the SparseCores against `take`: the result's row i is the table's row number z i.
  The kernel deals the 10000 index words to 32 tiles — 320 each, the last tile the 80 that are left —; a tile fetches its
  words, gathers the rows they name 80 at a time and copies them out to its own rows of the result. The reference wraps
  negative indices, gathers, and fills rows whose index is out of range; with every index word between 0 and 99999 (the
  precondition) the wrap does nothing and no row is filled, so it too returns row z i of the table at row i.
  Both programs are pure data movement: no arithmetic on the table's entries, so nothing depends on the float instance,
  and the word-level kernel's frame is the same run read at the word-level instance. The ideal pass rewrote nothing, so
  there is nothing to preserve.
-/
import proofs.«212854_g59167469470367_cont_9to1c4b_422_3_alg».proof.Defs
import proofs.«212854_g59167469470367_cont_9to1c4b_422_3_alg».proof.Proof.Gen.Kernel
import proofs.«212854_g59167469470367_cont_9to1c4b_422_3_alg».proof.Proof.Gen.Kernel.Skeleton
import proofs.«212854_g59167469470367_cont_9to1c4b_422_3_alg».proof.Proof.Gen.KernelIdeal
import proofs.«212854_g59167469470367_cont_9to1c4b_422_3_alg».proof.Proof.Gen.KernelIdeal.Skeleton
import proofs.«212854_g59167469470367_cont_9to1c4b_422_3_alg».proof.Proof.Gen.ReferenceIdeal
import proofs.«212854_g59167469470367_cont_9to1c4b_422_3_alg».proof.Proof.Gen.Pre_input_domain
import proofs.«212854_g59167469470367_cont_9to1c4b_422_3_alg».proof.Proof.IndexRange
import proofs.«212854_g59167469470367_cont_9to1c4b_422_3_alg».proof.Proof.TakeRun
import proofs.«212854_g59167469470367_cont_9to1c4b_422_3_alg».proof.Proof.IdealRun
import proofs.«212854_g59167469470367_cont_9to1c4b_422_3_alg».proof.Proof.WordRun
import Idealize.ShloMosaic.Adequacy
import Idealize.ShloMosaic.Init

noncomputable section

namespace Cert.Proof

open Idealize.ShloMosaic Idealize.SL.Sem

/-- The word-level kernel runs and leaves its arguments as they were: its run with the result dropped. -/
theorem frame_kernel : Cert.frame_Kernel (hKernel := Cert.Kernel.Gen.facts) (hPre_input_domain := Cert.Pre_input_domain.Gen.facts) :=
  fun m g hpre =>
    (θ_run (Cert.Kernel.defs (F := Bits)) _ _).mono (fun _ h c => (h c).2)
      (Cert.Proof.WordRun.run_main (F := Bits) m g (fun d j => Cert.Proof.IndexRange.index_lt _ _ _ _ (hpre d) j))

/-- The idealized kernel's frame, the same way. -/
theorem frame_kernelIdeal : Cert.frame_KernelIdeal (hKernelIdeal := Cert.KernelIdeal.Gen.facts) (hPre_input_domain := Cert.Pre_input_domain.Gen.facts) :=
  fun m g hpre =>
    (θ_run (Cert.KernelIdeal.defs (F := Ideal)) _ _).mono (fun _ h c => (h c).2)
      (Cert.Proof.IdealRun.run_main (F := Ideal) m g (fun d j => Cert.Proof.IndexRange.index_lt _ _ _ _ (hpre d) j))

/-- The reference runs from any memory and leaves its arguments as they were. -/
theorem frame_reference : Cert.frame_ReferenceIdeal (hReferenceIdeal := Cert.ReferenceIdeal.Gen.facts) (hPre_input_domain := Cert.Pre_input_domain.Gen.facts) :=
  fun m g _ => Cert.Proof.TakeRun.frame_of_run m g

/-- From memories that agree on the arguments both programs end with the result at the gathered rows of the one table
    and the one index array. -/
theorem algebraic : Cert.algebraic_KernelIdeal_ReferenceIdeal (hKernelIdeal := Cert.KernelIdeal.Gen.facts)
    (hReferenceIdeal := Cert.ReferenceIdeal.Gen.facts) (hPre_input_domain := Cert.Pre_input_domain.Gen.facts) := by
  intro m g m' g' hpre hagree
  have hz : ∀ (d : Dev Cert.KernelIdeal.nD) j, (m (Cert.Proof.IdealBase.zLoc d) j).toNat < 100000 :=
    fun d j => Cert.Proof.IndexRange.index_lt _ _ _ _ (hpre d) j
  refine ⟨fun c => Cert.Proof.RowGather.gatheredRows (m (Cert.Proof.IdealBase.tLoc c)) (m (Cert.Proof.IdealBase.zLoc c)),
    (θ_run (Cert.KernelIdeal.defs (F := Ideal)) _ _).mono (fun _ h c => h c) (Cert.Proof.IdealRun.run_main (F := Ideal) m g hz), ?_⟩
  refine (θ_run (Cert.ReferenceIdeal.defs (F := Ideal)) _ _).mono (fun _ h c => ⟨?_, (h c).2⟩)
    (Cert.Proof.TakeRun.run (F := Ideal) m' g' (fun c j => by rw [(hagree c).2.1]; exact hz c j))
  rw [(h c).1, (hagree c).2.2.2, (hagree c).2.1]

theorem claim : Cert.Claim := ⟨Cert.Kernel.Gen.facts, Cert.KernelIdeal.Gen.facts, Cert.ReferenceIdeal.Gen.facts, Cert.Pre_input_domain.Gen.facts,
  frame_kernel, frame_kernelIdeal, frame_reference, trivial, algebraic⟩

end Cert.Proof

end
